-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x96 : Shape := ⟨3, ![3, 128, 96]⟩
abbrev S3x96 : Shape := ⟨2, ![3, 96]⟩
abbrev S3x288x64 : Shape := ⟨3, ![3, 288, 64]⟩
abbrev S3x64 : Shape := ⟨2, ![3, 64]⟩
abbrev S288 : Shape := ⟨1, ![288]⟩
abbrev S192x64 : Shape := ⟨2, ![192, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x96 : S_.BroadcastsInDim S3x128x96 (![] : Fin 0 → Fin S3x128x96.rank)
  reducesTo_S3x128x96_S_d0_1_2 : S3x128x96.ReducesTo [0, 1, 2] S_
  bcast_S_S3x96 : S_.BroadcastsInDim S3x96 (![] : Fin 0 → Fin S3x96.rank)
  reducesTo_S3x96_S_d0_1 : S3x96.ReducesTo [0, 1] S_
  bcast_S_S3x288x64 : S_.BroadcastsInDim S3x288x64 (![] : Fin 0 → Fin S3x288x64.rank)
  reducesTo_S3x288x64_S_d0_1_2 : S3x288x64.ReducesTo [0, 1, 2] S_
  bcast_S_S3x64 : S_.BroadcastsInDim S3x64 (![] : Fin 0 → Fin S3x64.rank)
  reducesTo_S3x64_S_d0_1 : S3x64.ReducesTo [0, 1] S_
  bcast_S_S288 : S_.BroadcastsInDim S288 (![] : Fin 0 → Fin S288.rank)
  reducesTo_S288_S_d0 : S288.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S288 .f32) (main_arg9 : FVec F S288 .f32) (main_arg10 : FVec F S192x64 .f32) (main_arg11 : FVec F S64 .f32) (main_v33 : IVec S_ 1) : IVec S_ 1 :=
  let main_v34 : FVec F S288 .f32 := Host.absf main_arg8
  let main_cst_12 : FVec F S_ .f32 := constant S_ .f32 0x7F800000#32
  let main_v35 : FVec F S288 .f32 := broadcastInDim S288 ![] bcast_S_S288 main_cst_12
  let main_v36 : IVec S288 1 := cmpf .olt main_v34 main_v35
  let main_c_13 : IVec S_ 1 := constantI S_ 1 1#1
  let main_v37 : IVec S_ 1 := (fun x v => Host.reduce IntOp.andi x v reducesTo_S288_S_d0 h_S_) main_v36 main_c_13
  let main_v38 : IVec S_ 1 := andi main_v33 main_v37
  let main_v39 : FVec F S288 .f32 := Host.absf main_arg9
  let main_cst_14 : FVec F S_ .f32 := constant S_ .f32 0x7F800000#32
  let main_v40 : FVec F S288 .f32 := broadcastInDim S288 ![] bcast_S_S288 main_cst_14
  let main_v41 : IVec S288 1 := cmpf .olt main_v39 main_v40
  let main_c_15 : IVec S_ 1 := constantI S_ 1 1#1
  let main_v42 : IVec S_ 1 := (fun x v => Host.reduce IntOp.andi x v reducesTo_S288_S_d0 h_S_) main_v41 main_c_15
  let main_v43 : IVec S_ 1 := andi main_v38 main_v42
  let main_v44 : FVec F S192x64 .f32 := Host.absf main_arg10
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S3x64 .f32) (main_arg6 : FVec F S288 .f32) (main_arg7 : FVec F S288 .f32) (main_arg8 : FVec F S288 .f32) (main_arg9 : FVec F S288 .f32) (main_arg10 : FVec F S192x64 .f32) (main_arg11 : FVec F S64 .f32) (main_v13 : IVec S_ 1) (main_v16 : IVec S3x288x64 1) : IVec S_ 1 :=
  let main_c_5 : IVec S_ 1 := constantI S_ 1 1#1
  let main_v17 : IVec S_ 1 := (fun x v => Host.reduce IntOp.andi x v reducesTo_S3x288x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S288 .f32 := Host.absf main_arg6
  let main_cst_8 : FVec F S_ .f32 := constant S_ .f32 0x7F800000#32
  let main_v25 : FVec F S288 .f32 := broadcastInDim S288 ![] bcast_S_S288 main_cst_8
  let main_v26 : IVec S288 1 := cmpf .olt main_v24 main_v25
  let main_c_9 : IVec S_ 1 := constantI S_ 1 1#1
  let main_v27 : IVec S_ 1 := (fun x v => Host.reduce IntOp.andi x v reducesTo_S288_S_d0 h_S_) main_v26 main_c_9
  let main_v28 : IVec S_ 1 := andi main_v23 main_v27
  let main_v29 : FVec F S288 .f32 := Host.absf main_arg7
  let main_cst_10 : FVec F S_ .f32 := constant S_ .f32 0x7F800000#32
  let main_v30 : FVec F S288 .f32 := broadcastInDim S288 ![] bcast_S_S288 main_cst_10
  let main_v31 : IVec S288 1 := cmpf .olt main_v29 main_v30
  let main_c_11 : IVec S_ 1 := constantI S_ 1 1#1
  let main_v32 : IVec S_ 1 := (fun x v => Host.reduce IntOp.andi x v reducesTo_S288_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S3x128x96 .f32) (main_arg3 : FVec F S3x96 .f32) (main_arg4 : FVec F S3x288x64 .f32) (main_arg5 : FVec F S3x64 .f32) (main_arg6 : FVec F S288 .f32) (main_arg7 : FVec F S288 .f32) (main_arg8 : FVec F S288 .f32) (main_arg9 : FVec F S288 .f32) (main_arg10 : FVec F S192x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x96 .f32 := Host.absf main_arg2
  let main_cst_0 : FVec F S_ .f32 := constant S_ .f32 0x7F800000#32
  let main_v5 : FVec F S3x128x96 .f32 := broadcastInDim S3x128x96 ![] bcast_S_S3x128x96 main_cst_0
  let main_v6 : IVec S3x128x96 1 := cmpf .olt main_v4 main_v5
  let main_c_1 : IVec S_ 1 := constantI S_ 1 1#1
  let main_v7 : IVec S_ 1 := (fun x v => Host.reduce IntOp.andi x v reducesTo_S3x128x96_S_d0_1_2 h_S_) main_v6 main_c_1
  let main_v8 : IVec S_ 1 := andi main_v3 main_v7
  let main_v9 : FVec F S3x96 .f32 := Host.absf main_arg3
  let main_cst_2 : FVec F S_ .f32 := constant S_ .f32 0x7F800000#32
  let main_v10 : FVec F S3x96 .f32 := broadcastInDim S3x96 ![] bcast_S_S3x96 main_cst_2
  let main_v11 : IVec S3x96 1 := cmpf .olt main_v9 main_v10
  let main_c_3 : IVec S_ 1 := constantI S_ 1 1#1
  let main_v12 : IVec S_ 1 := (fun x v => Host.reduce IntOp.andi x v reducesTo_S3x96_S_d0_1 h_S_) main_v11 main_c_3
  let main_v13 : IVec S_ 1 := andi main_v8 main_v12
  let main_v14 : FVec F S3x288x64 .f32 := Host.absf main_arg4
  let main_cst_4 : FVec F S_ .f32 := constant S_ .f32 0x7F800000#32
  let main_v15 : FVec F S3x288x64 .f32 := broadcastInDim S3x288x64 ![] bcast_S_S3x288x64 main_cst_4
  let main_v16 : IVec S3x288x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S3x128x96 : Shape := ⟨3, ![3, 128, 96]⟩
abbrev S3x96 : Shape := ⟨2, ![3, 96]⟩
abbrev S3x288x64 : Shape := ⟨3, ![3, 288, 64]⟩
abbrev S3x64 : Shape := ⟨2, ![3, 64]⟩
abbrev S288 : Shape := ⟨1, ![288]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S2000x128 : Shape := ⟨2, ![2000, 128]⟩
abbrev S2000x96 : Shape := ⟨2, ![2000, 96]⟩
abbrev S1x128x96 : Shape := ⟨3, ![1, 128, 96]⟩
abbrev S128x96 : Shape := ⟨2, ![128, 96]⟩
abbrev S1x96 : Shape := ⟨2, ![1, 96]⟩
abbrev S96 : Shape := ⟨1, ![96]⟩
abbrev S850000x96 : Shape := ⟨2, ![850000, 96]⟩
abbrev S50000x288 : Shape := ⟨2, ![50000, 288]⟩
abbrev S1x288 : Shape := ⟨2, ![1, 288]⟩
abbrev S2000x288 : Shape := ⟨2, ![2000, 288]⟩
abbrev S50000x64 : Shape := ⟨2, ![50000, 64]⟩
abbrev S2000x64 : Shape := ⟨2, ![2000, 64]⟩
abbrev S1x288x64 : Shape := ⟨3, ![1, 288, 64]⟩
abbrev S288x64 : Shape := ⟨2, ![288, 64]⟩
abbrev S1x64 : Shape := ⟨2, ![1, 64]⟩
abbrev S850000x64 : Shape := ⟨2, ![850000, 64]⟩
abbrev S50000x192 : Shape := ⟨2, ![50000, 192]⟩
abbrev S2000x192 : Shape := ⟨2, ![2000, 192]⟩

abbrev nBuf : Space → Nat
  | .hbm => 163
  | .vmem => 34
  | .smem => 0
  | _ => 0

abbrev hbmTy0_0 (i : Nat) : BufTy := match i % 128 with
  | 0 => ⟨S50000x128, .f32⟩
  | 1 => ⟨S2x800000, .i32⟩
  | 2 => ⟨S3x128x96, .f32⟩
  | 3 => ⟨S3x96, .f32⟩
  | 4 => ⟨S3x288x64, .f32⟩
  | 5 => ⟨S3x64, .f32⟩
  | 6 => ⟨S288, .f32⟩
  | 7 => ⟨S288, .f32⟩
  | 8 => ⟨S288, .f32⟩
  | 9 => ⟨S288, .f32⟩
  | 10 => ⟨S192x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x96, .f32⟩
  | 53 => ⟨S50000x96, .f32⟩
  | 54 => ⟨S50000x96, .f32⟩
  | 55 => ⟨S850000x1, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x96, .f32⟩
  | 65 => ⟨S850000x96, .f32⟩
  | 66 => ⟨S850000x96, .f32⟩
  | 67 => ⟨S_, .f32⟩
  | 68 => ⟨S50000x96, .f32⟩
  | 69 => ⟨S850000x1, .i32⟩
  | 70 => ⟨S50000x96, .f32⟩
  | 71 => ⟨S850000x1, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x96, .f32⟩
  | 81 => ⟨S850000x96, .f32⟩
  | 82 => ⟨S850000x96, .f32⟩
  | 83 => ⟨S_, .f32⟩
  | 84 => ⟨S50000x96, .f32⟩
  | 85 => ⟨S850000x1, .i32⟩
  | 86 => ⟨S50000x96, .f32⟩
  | 87 => ⟨S850000x1, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x96, .f32⟩
  | 97 => ⟨S850000x96, .f32⟩
  | 98 => ⟨S850000x96, .f32⟩
  | 99 => ⟨S_, .f32⟩
  | 100 => ⟨S50000x96, .f32⟩
  | 101 => ⟨S850000x1, .i32⟩
  | 102 => ⟨S50000x96, .f32⟩
  | 103 => ⟨S50000x288, .f32⟩
  | 104 => ⟨S1x288, .f32⟩
  | 105 => ⟨S1x288, .f32⟩
  | 106 => ⟨S1x288, .f32⟩
  | 107 => ⟨S1x288, .f32⟩
  | 108 => ⟨S50000x288, .f32⟩
  | 109 => ⟨S50000x64, .f32⟩
  | 110 => ⟨S50000x64, .f32⟩
  | 111 => ⟨S50000x64, .f32⟩
  | 112 => ⟨S850000x1, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x64, .f32⟩
  | 122 => ⟨S850000x64, .f32⟩
  | 123 => ⟨S850000x64, .f32⟩
  | 124 => ⟨S_, .f32⟩
  | 125 => ⟨S50000x64, .f32⟩
  | 126 => ⟨S850000x1, .i32⟩
  | 127 => ⟨S50000x64, .f32⟩
  | _ => ⟨S50000x128, .f32⟩

abbrev hbmTy0_1 (i : Nat) : BufTy := match i % 128 with
  | 0 => ⟨S850000x1, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x64, .f32⟩
  | 10 => ⟨S850000x64, .f32⟩
  | 11 => ⟨S850000x64, .f32⟩
  | 12 => ⟨S_, .f32⟩
  | 13 => ⟨S50000x64, .f32⟩
  | 14 => ⟨S850000x1, .i32⟩
  | 15 => ⟨S50000x64, .f32⟩
  | 16 => ⟨S850000x1, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x64, .f32⟩
  | 26 => ⟨S850000x64, .f32⟩
  | 27 => ⟨S850000x64, .f32⟩
  | 28 => ⟨S_, .f32⟩
  | 29 => ⟨S50000x64, .f32⟩
  | 30 => ⟨S850000x1, .i32⟩
  | 31 => ⟨S50000x64, .f32⟩
  | 32 => ⟨S50000x192, .f32⟩
  | 33 => ⟨S1x64, .f32⟩
  | 34 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S3x128x96, .f32⟩
  | .local _ .vmem, ⟨3, _⟩ => ⟨S3x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x288, .f32⟩
  | .local _ .vmem, ⟨11, _⟩ => ⟨S2000x288, .f32⟩
  | .local _ .vmem, ⟨12, _⟩ => ⟨S1x288, .f32⟩
  | .local _ .vmem, ⟨13, _⟩ => ⟨S1x288, .f32⟩
  | .local _ .vmem, ⟨14, _⟩ => ⟨S1x288, .f32⟩
  | .local _ .vmem, ⟨15, _⟩ => ⟨S1x288, .f32⟩
  | .local _ .vmem, ⟨16, _⟩ => ⟨S2000x288, .f32⟩
  | .local _ .vmem, ⟨17, _⟩ => ⟨S2000x288, .f32⟩
  | .local _ .vmem, ⟨18, _⟩ => ⟨S2000x288, .f32⟩
  | .local _ .vmem, ⟨19, _⟩ => ⟨S2000x288, .f32⟩
  | .local _ .vmem, ⟨20, _⟩ => ⟨S3x288x64, .f32⟩
  | .local _ .vmem, ⟨21, _⟩ => ⟨S3x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x192, .f32⟩
  | .local _ .vmem, ⟨29, _⟩ => ⟨S2000x192, .f32⟩
  | .local _ .vmem, ⟨30, _⟩ => ⟨S192x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76_0 : Ref sig .tc := ⟨.hbm, 109, rfl⟩
abbrev main_v76_1 : Ref sig .tc := ⟨.hbm, 110, rfl⟩
abbrev main_v76_2 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_c_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_18 : Ref sig .tc := ⟨.hbm, 129, rfl⟩
abbrev main_v91 : Ref sig .tc := ⟨.hbm, 130, rfl⟩
abbrev main_v92 : Ref sig .tc := ⟨.hbm, 131, rfl⟩
abbrev main_c_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_c_21 : Ref sig .tc := ⟨.hbm, 145, rfl⟩
abbrev main_v104 : Ref sig .tc := ⟨.hbm, 146, rfl⟩
abbrev main_v105 : Ref sig .tc := ⟨.hbm, 147, rfl⟩
abbrev main_c_22 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_23 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x288 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x288 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x288 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x288 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x288x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S3x128x96_S1x128x96_0_0_0 : ∀ a, (![0, 0, 0] : Fin 3 → Nat) a + S1x128x96.size a ≤ S3x128x96.size a
  h_S1x128x96 : 0 < S1x128x96.numel
  shapeCasts_S1x128x96_S128x96 : S1x128x96.ShapeCasts S128x96
  inb_S3x96_S1x96_0_0 : ∀ a, (![0, 0] : Fin 2 → Nat) a + S1x96.size a ≤ S3x96.size a
  h_S1x96 : 0 < S1x96.numel
  shapeCasts_S1x96_S96 : S1x96.ShapeCasts S96
  shapeCasts_S96_S1x96 : S96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  inb_S3x128x96_S1x128x96_1_0_0 : ∀ a, (![1, 0, 0] : Fin 3 → Nat) a + S1x128x96.size a ≤ S3x128x96.size a
  inb_S3x96_S1x96_1_0 : ∀ a, (![1, 0] : Fin 2 → Nat) a + S1x96.size a ≤ S3x96.size a
  inb_S3x128x96_S1x128x96_2_0_0 : ∀ a, (![2, 0, 0] : Fin 3 → Nat) a + S1x128x96.size a ≤ S3x128x96.size a
  inb_S3x96_S1x96_2_0 : ∀ a, (![2, 0] : Fin 2 → Nat) a + S1x96.size a ≤ S3x96.size a
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  concatenates_S50000x96_S50000x96_S50000x96_S50000x288_d1 : Shape.Concatenates [S50000x96, S50000x96, S50000x96] S50000x288 1
  shapeCasts_S288_S1x288 : S288.ShapeCasts S1x288
  inb_S2000x288_S2000x288_0_0 : ∀ a, (![0, 0] : Fin 2 → Nat) a + S2000x288.size a ≤ S2000x288.size a
  h_S2000x288 : 0 < S2000x288.numel
  shapeCasts_S2000x288_S2000x288 : S2000x288.ShapeCasts S2000x288
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S2000x288 : S1x288.Broadcasts S2000x288
  inb_S3x288x64_S1x288x64_0_0_0 : ∀ a, (![0, 0, 0] : Fin 3 → Nat) a + S1x288x64.size a ≤ S3x288x64.size a
  h_S1x288x64 : 0 < S1x288x64.numel
  shapeCasts_S1x288x64_S288x64 : S1x288x64.ShapeCasts S288x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S3x288x64_S1x288x64_1_0_0 : ∀ a, (![1, 0, 0] : Fin 3 → Nat) a + S1x288x64.size a ≤ S3x288x64.size a
  inb_S3x64_S1x64_1_0 : ∀ a, (![1, 0] : Fin 2 → Nat) a + S1x64.size a ≤ S3x64.size a
  inb_S3x288x64_S1x288x64_2_0_0 : ∀ a, (![2, 0, 0] : Fin 3 → Nat) a + S1x288x64.size a ≤ S3x288x64.size a
  inb_S3x64_S1x64_2_0 : ∀ a, (![2, 0] : Fin 2 → Nat) a + S1x64.size a ≤ S3x64.size a
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  shapeCasts_S1x64_S1x64 : S1x64.ShapeCasts S1x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x96_S2000x96_1_0_0_1_n_n_wf : DotDims.WF S2000x128 S128x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x288_S288x64_S2000x64_1_0_0_1_n_n_wf : DotDims.WF S2000x288 S288x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x192_S192x64_S2000x64_1_0_0_1_n_n_wf : DotDims.WF S2000x192 S192x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x96.size a ≤ S3x128x96.size a
  hwx0_1 : ∀ i : grid0.Coords, EltTy.bits .f32 = 32 ∨ (Rect.block (s := S3x128x96) S3x128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x96.size a ≤ S3x96.size a
  hwx0_2 : ∀ i : grid0.Coords, EltTy.bits .f32 = 32 ∨ (Rect.block (s := S3x96) S3x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x96.size a ≤ S50000x96.size a
  hwx0_4 : ∀ i : grid0.Coords, EltTy.bits .f32 = 32 ∨ (Rect.block (s := S50000x96) S2000x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x288.size a ≤ S50000x288.size a
  hwx1_0 : ∀ i : grid1.Coords, EltTy.bits .f32 = 32 ∨ (Rect.block (s := S50000x288) S2000x288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x288.size a ≤ S1x288.size a
  hwx1_1 : ∀ i : grid1.Coords, EltTy.bits .f32 = 32 ∨ (Rect.block (s := S1x288) S1x288.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x288.size a ≤ S1x288.size a
  hwx1_2 : ∀ i : grid1.Coords, EltTy.bits .f32 = 32 ∨ (Rect.block (s := S1x288) S1x288.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x288.size a ≤ S1x288.size a
  hwx1_3 : ∀ i : grid1.Coords, EltTy.bits .f32 = 32 ∨ (Rect.block (s := S1x288) S1x288.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x288.size a ≤ S1x288.size a
  hwx1_4 : ∀ i : grid1.Coords, EltTy.bits .f32 = 32 ∨ (Rect.block (s := S1x288) S1x288.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x288.size a ≤ S50000x288.size a
  hwx1_5 : ∀ i : grid1.Coords, EltTy.bits .f32 = 32 ∨ (Rect.block (s := S50000x288) S2000x288.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x288.size a ≤ S50000x288.size a
  hwx2_0 : ∀ i : grid2.Coords, EltTy.bits .f32 = 32 ∨ (Rect.block (s := S50000x288) S2000x288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x288x64.size a ≤ S3x288x64.size a
  hwx2_1 : ∀ i : grid2.Coords, EltTy.bits .f32 = 32 ∨ (Rect.block (s := S3x288x64) S3x288x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64.size a ≤ S3x64.size a
  hwx2_2 : ∀ i : grid2.Coords, EltTy.bits .f32 = 32 ∨ (Rect.block (s := S3x64) S3x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x192.size a ≤ S50000x192.size a
  hwx3_0 : ∀ i : grid3.Coords, EltTy.bits .f32 = 32 ∨ (Rect.block (s := S50000x192) S2000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x64.size a ≤ S192x64.size a
  hwx3_1 : ∀ i : grid3.Coords, EltTy.bits .f32 = 32 ∨ (Rect.block (s := S192x64) S192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x288_S288x64_S2000x64_1_0_0_1_n_n : DotDims S2000x288 S288x64 S2000x64 where
  lhsContracting := [1]
  rhsContracting := [0]
  lhsNonContracting := [0]
  rhsNonContracting := [1]
  lhsBatch := []
  rhsBatch := []
  wf := dot_S2000x288_S288x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x192_S192x64_S2000x64_1_0_0_1_n_n : DotDims S2000x192 S192x64 S2000x64 where
  lhsContracting := [1]
  rhsContracting := [0]
  lhsNonContracting := [0]
  rhsNonContracting := [1]
  lhsBatch := []
  rhsBatch := []
  wf := dot_S2000x192_S192x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S2000x96.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S2000x96.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_2) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v70) S2000x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1x288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x288.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x288.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x288.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S2000x288.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v75) S2000x288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S3x288x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S3x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v76_1) S2000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v76_2) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v116) S2000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v117) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v118) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x96 : Shape := ⟨3, ![3, 128, 96]⟩
abbrev S3x96 : Shape := ⟨2, ![3, 96]⟩
abbrev S3x288x64 : Shape := ⟨3, ![3, 288, 64]⟩
abbrev S3x64 : Shape := ⟨2, ![3, 64]⟩
abbrev S288 : Shape := ⟨1, ![288]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128x96 : Shape := ⟨3, ![1, 128, 96]⟩
abbrev S128x96 : Shape := ⟨2, ![128, 96]⟩
abbrev S50000x96 : Shape := ⟨2, ![50000, 96]⟩
abbrev S1x96 : Shape := ⟨2, ![1, 96]⟩
abbrev S96 : Shape := ⟨1, ![96]⟩
abbrev S850000x96 : Shape := ⟨2, ![850000, 96]⟩
abbrev S50000x288 : Shape := ⟨2, ![50000, 288]⟩
abbrev S1x288 : Shape := ⟨2, ![1, 288]⟩
abbrev S1x288x64 : Shape := ⟨3, ![1, 288, 64]⟩
abbrev S288x64 : Shape := ⟨2, ![288, 64]⟩
abbrev S50000x64 : Shape := ⟨2, ![50000, 64]⟩
abbrev S1x64 : Shape := ⟨2, ![1, 64]⟩
abbrev S850000x64 : Shape := ⟨2, ![850000, 64]⟩
abbrev S50000x192 : Shape := ⟨2, ![50000, 192]⟩

abbrev nBuf : Space → Nat
  | .hbm => 221
  | .vmem => 0
  | .smem => 0
  | _ => 0

abbrev hbmTy0_0 (i : Nat) : BufTy := match i % 128 with
  | 0 => ⟨S50000x128, .f32⟩
  | 1 => ⟨S2x800000, .i32⟩
  | 2 => ⟨S3x128x96, .f32⟩
  | 3 => ⟨S3x96, .f32⟩
  | 4 => ⟨S3x288x64, .f32⟩
  | 5 => ⟨S3x64, .f32⟩
  | 6 => ⟨S288, .f32⟩
  | 7 => ⟨S288, .f32⟩
  | 8 => ⟨S288, .f32⟩
  | 9 => ⟨S288, .f32⟩
  | 10 => ⟨S192x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S1x128x96, .f32⟩
  | 53 => ⟨S128x96, .f32⟩
  | 54 => ⟨S50000x96, .f32⟩
  | 55 => ⟨S1x96, .f32⟩
  | 56 => ⟨S96, .f32⟩
  | 57 => ⟨S1x96, .f32⟩
  | 58 => ⟨S50000x96, .f32⟩
  | 59 => ⟨S50000x96, .f32⟩
  | 60 => ⟨S1x128x96, .f32⟩
  | 61 => ⟨S128x96, .f32⟩
  | 62 => ⟨S50000x96, .f32⟩
  | 63 => ⟨S1x96, .f32⟩
  | 64 => ⟨S96, .f32⟩
  | 65 => ⟨S1x96, .f32⟩
  | 66 => ⟨S50000x96, .f32⟩
  | 67 => ⟨S50000x96, .f32⟩
  | 68 => ⟨S850000x1, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x96, .f32⟩
  | 78 => ⟨S850000x96, .f32⟩
  | 79 => ⟨S850000x96, .f32⟩
  | 80 => ⟨S_, .f32⟩
  | 81 => ⟨S50000x96, .f32⟩
  | 82 => ⟨S850000x1, .i32⟩
  | 83 => ⟨S50000x96, .f32⟩
  | 84 => ⟨S1x128x96, .f32⟩
  | 85 => ⟨S128x96, .f32⟩
  | 86 => ⟨S50000x96, .f32⟩
  | 87 => ⟨S1x96, .f32⟩
  | 88 => ⟨S96, .f32⟩
  | 89 => ⟨S1x96, .f32⟩
  | 90 => ⟨S50000x96, .f32⟩
  | 91 => ⟨S50000x96, .f32⟩
  | 92 => ⟨S850000x1, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x96, .f32⟩
  | 102 => ⟨S850000x96, .f32⟩
  | 103 => ⟨S850000x96, .f32⟩
  | 104 => ⟨S_, .f32⟩
  | 105 => ⟨S50000x96, .f32⟩
  | 106 => ⟨S850000x1, .i32⟩
  | 107 => ⟨S50000x96, .f32⟩
  | 108 => ⟨S850000x1, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x96, .f32⟩
  | 118 => ⟨S850000x96, .f32⟩
  | 119 => ⟨S850000x96, .f32⟩
  | 120 => ⟨S_, .f32⟩
  | 121 => ⟨S50000x96, .f32⟩
  | 122 => ⟨S850000x1, .i32⟩
  | 123 => ⟨S50000x96, .f32⟩
  | 124 => ⟨S50000x288, .f32⟩
  | 125 => ⟨S1x288, .f32⟩
  | 126 => ⟨S50000x288, .f32⟩
  | 127 => ⟨S50000x288, .f32⟩
  | _ => ⟨S50000x128, .f32⟩

abbrev hbmTy0_1 (i : Nat) : BufTy := match i % 128 with
  | 0 => ⟨S1x288, .f32⟩
  | 1 => ⟨S50000x288, .f32⟩
  | 2 => ⟨S50000x288, .f32⟩
  | 3 => ⟨S_, .f32⟩
  | 4 => ⟨S288, .f32⟩
  | 5 => ⟨S288, .f32⟩
  | 6 => ⟨S288, .f32⟩
  | 7 => ⟨S1x288, .f32⟩
  | 8 => ⟨S50000x288, .f32⟩
  | 9 => ⟨S50000x288, .f32⟩
  | 10 => ⟨S1x288, .f32⟩
  | 11 => ⟨S50000x288, .f32⟩
  | 12 => ⟨S50000x288, .f32⟩
  | 13 => ⟨S_, .f32⟩
  | 14 => ⟨S50000x288, .f32⟩
  | 15 => ⟨S50000x288, .f32⟩
  | 16 => ⟨S1x288x64, .f32⟩
  | 17 => ⟨S288x64, .f32⟩
  | 18 => ⟨S50000x64, .f32⟩
  | 19 => ⟨S1x64, .f32⟩
  | 20 => ⟨S64, .f32⟩
  | 21 => ⟨S1x64, .f32⟩
  | 22 => ⟨S50000x64, .f32⟩
  | 23 => ⟨S50000x64, .f32⟩
  | 24 => ⟨S1x288x64, .f32⟩
  | 25 => ⟨S288x64, .f32⟩
  | 26 => ⟨S50000x64, .f32⟩
  | 27 => ⟨S1x64, .f32⟩
  | 28 => ⟨S64, .f32⟩
  | 29 => ⟨S1x64, .f32⟩
  | 30 => ⟨S50000x64, .f32⟩
  | 31 => ⟨S50000x64, .f32⟩
  | 32 => ⟨S850000x1, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x64, .f32⟩
  | 42 => ⟨S850000x64, .f32⟩
  | 43 => ⟨S850000x64, .f32⟩
  | 44 => ⟨S_, .f32⟩
  | 45 => ⟨S50000x64, .f32⟩
  | 46 => ⟨S850000x1, .i32⟩
  | 47 => ⟨S50000x64, .f32⟩
  | 48 => ⟨S1x288x64, .f32⟩
  | 49 => ⟨S288x64, .f32⟩
  | 50 => ⟨S50000x64, .f32⟩
  | 51 => ⟨S1x64, .f32⟩
  | 52 => ⟨S64, .f32⟩
  | 53 => ⟨S1x64, .f32⟩
  | 54 => ⟨S50000x64, .f32⟩
  | 55 => ⟨S50000x64, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x64, .f32⟩
  | 66 => ⟨S850000x64, .f32⟩
  | 67 => ⟨S850000x64, .f32⟩
  | 68 => ⟨S_, .f32⟩
  | 69 => ⟨S50000x64, .f32⟩
  | 70 => ⟨S850000x1, .i32⟩
  | 71 => ⟨S50000x64, .f32⟩
  | 72 => ⟨S850000x1, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x64, .f32⟩
  | 82 => ⟨S850000x64, .f32⟩
  | 83 => ⟨S850000x64, .f32⟩
  | 84 => ⟨S_, .f32⟩
  | 85 => ⟨S50000x64, .f32⟩
  | 86 => ⟨S850000x1, .i32⟩
  | 87 => ⟨S50000x64, .f32⟩
  | 88 => ⟨S50000x192, .f32⟩
  | 89 => ⟨S50000x64, .f32⟩
  | 90 => ⟨S1x64, .f32⟩
  | 91 => ⟨S50000x64, .f32⟩
  | 92 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_9 : Ref sig .tc := ⟨.hbm, 93, rfl⟩
abbrev main_v68 : Ref sig .tc := ⟨.hbm, 94, rfl⟩
abbrev main_v69 : Ref sig .tc := ⟨.hbm, 95, rfl⟩
abbrev main_c_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_12 : Ref sig .tc := ⟨.hbm, 109, rfl⟩
abbrev main_v81 : Ref sig .tc := ⟨.hbm, 110, rfl⟩
abbrev main_v82 : Ref sig .tc := ⟨.hbm, 111, rfl⟩
abbrev main_c_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_15 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_call1_cst : Ref sig .tc := ⟨.hbm, 141, rfl⟩
abbrev main_call1_v0 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_16 : Ref sig .tc := ⟨.hbm, 161, rfl⟩
abbrev main_v127 : Ref sig .tc := ⟨.hbm, 162, rfl⟩
abbrev main_v128 : Ref sig .tc := ⟨.hbm, 163, rfl⟩
abbrev main_c_17 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_18 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_c_19 : Ref sig .tc := ⟨.hbm, 185, rfl⟩
abbrev main_v148 : Ref sig .tc := ⟨.hbm, 186, rfl⟩
abbrev main_v149 : Ref sig .tc := ⟨.hbm, 187, rfl⟩
abbrev main_c_20 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_21 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_c_22 : Ref sig .tc := ⟨.hbm, 201, rfl⟩
abbrev main_v161 : Ref sig .tc := ⟨.hbm, 202, rfl⟩
abbrev main_v162 : Ref sig .tc := ⟨.hbm, 203, rfl⟩
abbrev main_c_23 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_24 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x96_S1x128x96_0_0_0 : S3x128x96.Slices ![0, 0, 0] S1x128x96
  shapeCasts_S1x128x96_S128x96 : S1x128x96.ShapeCasts S128x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S3x128x96_S1x128x96_1_0_0 : S3x128x96.Slices ![1, 0, 0] S1x128x96
  slices_S3x96_S1x96_1_0 : S3x96.Slices ![1, 0] S1x96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S3x128x96_S1x128x96_2_0_0 : S3x128x96.Slices ![2, 0, 0] S1x128x96
  slices_S3x96_S1x96_2_0 : S3x96.Slices ![2, 0] S1x96
  concatenates_S50000x96_S50000x96_S50000x96_S50000x288_d1 : Shape.Concatenates [S50000x96, S50000x96, S50000x96] S50000x288 1
  bcast_S288_S1x288_1 : S288.BroadcastsInDim S1x288 (![1] : Fin 1 → Fin S1x288.rank)
  bcast_S1x288_S50000x288_0_1 : S1x288.BroadcastsInDim S50000x288 (![0, 1] : Fin 2 → Fin S50000x288.rank)
  bcast_S_S288 : S_.BroadcastsInDim S288 (![] : Fin 0 → Fin S288.rank)
  bcast_S_S50000x288 : S_.BroadcastsInDim S50000x288 (![] : Fin 0 → Fin S50000x288.rank)
  slices_S3x288x64_S1x288x64_0_0_0 : S3x288x64.Slices ![0, 0, 0] S1x288x64
  shapeCasts_S1x288x64_S288x64 : S1x288x64.ShapeCasts S288x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x288x64_S1x288x64_1_0_0 : S3x288x64.Slices ![1, 0, 0] S1x288x64
  slices_S3x64_S1x64_1_0 : S3x64.Slices ![1, 0] S1x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  slices_S3x288x64_S1x288x64_2_0_0 : S3x288x64.Slices ![2, 0, 0] S1x288x64
  slices_S3x64_S1x64_2_0 : S3x64.Slices ![2, 0] S1x64
  concatenates_S50000x64_S50000x64_S50000x64_S50000x192_d1 : Shape.Concatenates [S50000x64, S50000x64, S50000x64] S50000x192 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x288_S288x64_S50000x64_1_0_0_1_n_n_wf : DotDims.WF S50000x288 S288x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x192_S192x64_S50000x64_1_0_0_1_n_n_wf : DotDims.WF S50000x192 S192x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x288_S288x64_S50000x64_1_0_0_1_n_n : DotDims S50000x288 S288x64 S50000x64 where
  lhsContracting := [1]
  rhsContracting := [0]
  lhsNonContracting := [0]
  rhsNonContracting := [1]
  lhsBatch := []
  rhsBatch := []
  wf := dot_S50000x288_S288x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf

class Facts : Prop extends Facts₀ where

variable [Facts]
-- ==== Proof.KB.Reg0.lean ====
/-
  The first call of @main: three linear maps of one block, fused. One grid point takes a block of 2000 rows
  of the 128 input features, the whole stack of three 128×96 weights and the three bias rows, and stores, for
  j = 0, 1, 2, the block's 2000×96 product with weight j plus bias j into output window j. Here: the block
  each window holds at a point, the body's Hoare triple on whole staging buffers, the pipeline's proof data and
  its body obligation, at any entry contents `V` and any float instance.
-/
import proofs.«130113_j6828998001548_2_alg».proof.Proof.Gen.Kernel.Launch
import proofs.«130113_j6828998001548_2_alg».proof.Proof.Gen.Kernel.Skeleton
import proofs.«130113_j6828998001548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: whatever proof data has the entry contents as its array and leaves the block in
    place, the staging buffer the body is handed holds the window's block at that point, fetched there or kept from
    the point before (the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of call 0: whatever proof data has the entry contents as its array and leaves the block in
    place, the staging buffer the body is handed holds the window's block at that point, fetched there or kept from
    the point before (the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of call 0: whatever proof data has the entry contents as its array and leaves the block in
    place, the staging buffer the body is handed holds the window's block at that point, fetched there or kept from
    the point before (the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through

The row block and each output are whole staging buffers; weight j is slab j of the weight stack, bias j row j of the
bias matrix. -/

abbrev r0_x : Rect S2000x128 := Rect.unit (s := S2000x128) ![0, 0] S2000x128.size inb_S2000x128_S2000x128_0_0
abbrev r0_w0 : Rect S3x128x96 := Rect.unit (s := S3x128x96) ![0, 0, 0] S1x128x96.size inb_S3x128x96_S1x128x96_0_0_0
abbrev r0_w1 : Rect S3x128x96 := Rect.unit (s := S3x128x96) ![1, 0, 0] S1x128x96.size inb_S3x128x96_S1x128x96_1_0_0
abbrev r0_w2 : Rect S3x128x96 := Rect.unit (s := S3x128x96) ![2, 0, 0] S1x128x96.size inb_S3x128x96_S1x128x96_2_0_0
abbrev r0_b0 : Rect S3x96 := Rect.unit (s := S3x96) ![0, 0] S1x96.size inb_S3x96_S1x96_0_0
abbrev r0_b1 : Rect S3x96 := Rect.unit (s := S3x96) ![1, 0] S1x96.size inb_S3x96_S1x96_1_0
abbrev r0_b2 : Rect S3x96 := Rect.unit (s := S3x96) ![2, 0] S1x96.size inb_S3x96_S1x96_2_0
abbrev r0_o : Rect S2000x96 := Rect.unit (s := S2000x96) ![0, 0] S2000x96.size inb_S2000x96_S2000x96_0_0

/-- Output window j's block after the body: its one store, the product-plus-bias payload of the row block, weight
    slab j and bias row j. -/
def out0_3 (x0 : Vec F S2000x128 .f32) (x1 : Vec F S3x128x96 .f32) (x2 : Vec F S3x96 .f32) : Vec F S2000x96 .f32 :=
  View.canon [⟨r0_o, k0_pay2 (View.ld x0 r0_x) (View.ld x1 r0_w0) (View.ld x2 r0_b0)⟩]
def out0_4 (x0 : Vec F S2000x128 .f32) (x1 : Vec F S3x128x96 .f32) (x2 : Vec F S3x96 .f32) : Vec F S2000x96 .f32 :=
  View.canon [⟨r0_o, k0_pay3 (View.ld x0 r0_x) (View.ld x1 r0_w1) (View.ld x2 r0_b1)⟩]
def out0_5 (x0 : Vec F S2000x128 .f32) (x1 : Vec F S3x128x96 .f32) (x2 : Vec F S3x96 .f32) : Vec F S2000x96 .f32 :=
  View.canon [⟨r0_o, k0_pay4 (View.ld x0 r0_x) (View.ld x1 r0_w2) (View.ld x2 r0_b2)⟩]

/-- One whole-buffer store covers an output buffer. -/
theorem cover0_o (p0 : Vec F S2000x96 .f32) (y : S2000x96.Idx) :
    ∃ pc ∈ ([⟨r0_o, p0⟩] : List (View.Piece (Elt F) S2000x96 .f32)), y ∈ pc.1.set :=
  View.cover_of_tiled [⟨r0_o, p0⟩] S2000x96.size (by rfl) y

/-! ## The body's triple -/

set_option maxHeartbeats 2000000 in
/-- On whole staging buffers, the inputs at contents `x0 x1 x2` and the outputs at anything, the body runs to its
    continuation with the inputs as they were and output j at `out0_(3+j)` of them (each output buffer is also loaded
    before its store; the loaded value is dropped). -/
theorem sound_kernel0 (c : Dev nD) (E : Set ℕ) (i : grid0.Coords) (arg1 : Memref sig .tc .vmem S2000x128 .f32) (harg1 : arg1.IsWhole)
    (arg2 : Memref sig .tc .vmem S3x128x96 .f32) (harg2 : arg2.IsWhole) (arg3 : Memref sig .tc .vmem S3x96 .f32) (harg3 : arg3.IsWhole)
    (arg4 : Memref sig .tc .vmem S2000x96 .f32) (harg4 : arg4.IsWhole) (arg5 : Memref sig .tc .vmem S2000x96 .f32) (harg5 : arg5.IsWhole)
    (arg6 : Memref sig .tc .vmem S2000x96 .f32) (harg6 : arg6.IsWhole)
    (x0 : Vec F S2000x128 .f32) (x1 : Vec F S3x128x96 .f32) (x2 : Vec F S3x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__hop_linear3_kernel i arg1 harg1 arg2 harg2 arg3 harg3 arg4 harg4 arg5 harg5 arg6 harg6) K := by
  simp only [cc0__hop_linear3_kernel_eq_skeleton]; unfold cc0__hop_linear3_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_o _)
  isplitl [H4]
  · iexists _; isplitr
    swap; · iexact H4
    ipureintro
    try dsimp only
    exact View.read_writes_eq_canon _ _ _ (cover0_o _)
  iexists _; isplitr
  swap; · iexact H5
  ipureintro
  try dsimp only
  exact View.read_writes_eq_canon _ _ _ (cover0_o _)

/-! ## The pipeline's proof data -/

/-- Proof data of pipeline 0 on core `c`: the arrays as the call finds them; after the body at point `t` every input
    buffer still at its block and output buffer j at `out0_(3+j)` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The second call of @main: batch normalisation and ReLU. One grid point takes a block of 2000 rows
  of the 288 concatenated features and the four 1×288 parameter rows (scale, shift, mean, variance),
  and stores max(scale·(h − mean)·rsqrt(variance + ε) + shift, 0) for the block. Here: the block each
  window holds at a point, the body's Hoare triple on whole staging buffers, the pipeline's proof data
  and its body obligation, at any entry contents `V` and any float instance.
-/
import proofs.«130113_j6828998001548_2_alg».proof.Proof.Gen.Kernel.Launch
import proofs.«130113_j6828998001548_2_alg».proof.Proof.Gen.Kernel.Skeleton
import proofs.«130113_j6828998001548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: whatever proof data has the entry contents as its array and leaves the block in
    place, the staging buffer the body is handed holds the window's block at that point, fetched there or kept from
    the point before (the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of call 1: whatever proof data has the entry contents as its array and leaves the block in
    place, the staging buffer the body is handed holds the window's block at that point, fetched there or kept from
    the point before (the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of call 1: whatever proof data has the entry contents as its array and leaves the block in
    place, the staging buffer the body is handed holds the window's block at that point, fetched there or kept from
    the point before (the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of call 1: whatever proof data has the entry contents as its array and leaves the block in
    place, the staging buffer the body is handed holds the window's block at that point, fetched there or kept from
    the point before (the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of call 1: whatever proof data has the entry contents as its array and leaves the block in
    place, the staging buffer the body is handed holds the window's block at that point, fetched there or kept from
    the point before (the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through: each is a whole staging buffer -/

abbrev r1_h : Rect S2000x288 := Rect.unit (s := S2000x288) ![0, 0] S2000x288.size inb_S2000x288_S2000x288_0_0
abbrev r1_p : Rect S1x288 := Rect.unit (s := S1x288) ![0, 0] S1x288.size inb_S1x288_S1x288_0_0

/-- The output block after the body: its one store, the normalised-and-clamped payload of the five loaded blocks. -/
def out1_5 (x0 : Vec F S2000x288 .f32) (x1 x2 x3 x4 : Vec F S1x288 .f32) : Vec F S2000x288 .f32 :=
  View.canon [⟨r1_h, k1_pay1 (View.ld x0 r1_h) (View.ld x1 r1_p) (View.ld x2 r1_p) (View.ld x3 r1_p) (View.ld x4 r1_p)⟩]

/-- The one store covers the output buffer. -/
theorem cover1_5 (p0 : Vec F S2000x288 .f32) (y : S2000x288.Idx) :
    ∃ pc ∈ ([⟨r1_h, p0⟩] : List (View.Piece (Elt F) S2000x288 .f32)), y ∈ pc.1.set :=
  View.cover_of_tiled [⟨r1_h, p0⟩] S2000x288.size (by rfl) y

/-! ## The body's triple -/

set_option maxHeartbeats 1000000 in
/-- On whole staging buffers, the inputs at contents `x0 … x4` and the output at anything, the body runs to its
    continuation with the inputs as they were and the output at `out1_5` of them (the output buffer is also loaded
    before the store; the loaded value is dropped). -/
theorem sound_kernel1 (c : Dev nD) (E : Set ℕ) (i : grid1.Coords) (arg1 : Memref sig .tc .vmem S2000x288 .f32) (harg1 : arg1.IsWhole)
    (arg2 : Memref sig .tc .vmem S1x288 .f32) (harg2 : arg2.IsWhole) (arg3 : Memref sig .tc .vmem S1x288 .f32) (harg3 : arg3.IsWhole)
    (arg4 : Memref sig .tc .vmem S1x288 .f32) (harg4 : arg4.IsWhole) (arg5 : Memref sig .tc .vmem S1x288 .f32) (harg5 : arg5.IsWhole)
    (arg6 : Memref sig .tc .vmem S2000x288 .f32) (harg6 : arg6.IsWhole)
    (x0 : Vec F S2000x288 .f32) (x1 x2 x3 x4 : Vec F S1x288 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- Proof data of pipeline 1 on core `c`: the arrays as the call finds them; after the body at point `t` every input
    buffer still at its block and the output buffer at `out1_5` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  The third call of @main: three linear maps of one block, fused. One grid point takes a block of 2000 rows
  of the 288 input features, the whole stack of three 288×64 weights and the three bias rows, and stores, for
  j = 0, 1, 2, the block's 2000×64 product with weight j plus bias j into output window j. Here: the block
  each window holds at a point, the body's Hoare triple on whole staging buffers, the pipeline's proof data and
  its body obligation, at any entry contents `V` and any float instance.
-/
import proofs.«130113_j6828998001548_2_alg».proof.Proof.Gen.Kernel.Launch
import proofs.«130113_j6828998001548_2_alg».proof.Proof.Gen.Kernel.Skeleton
import proofs.«130113_j6828998001548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of call 2: whatever proof data has the entry contents as its array and leaves the block in
    place, the staging buffer the body is handed holds the window's block at that point, fetched there or kept from
    the point before (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 of call 2: whatever proof data has the entry contents as its array and leaves the block in
    place, the staging buffer the body is handed holds the window's block at that point, fetched there or kept from
    the point before (the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 of call 2: whatever proof data has the entry contents as its array and leaves the block in
    place, the staging buffer the body is handed holds the window's block at that point, fetched there or kept from
    the point before (the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through

The row block and each output are whole staging buffers; weight j is slab j of the weight stack, bias j row j of the
bias matrix. -/

abbrev r2_x : Rect S2000x288 := Rect.unit (s := S2000x288) ![0, 0] S2000x288.size inb_S2000x288_S2000x288_0_0
abbrev r2_w0 : Rect S3x288x64 := Rect.unit (s := S3x288x64) ![0, 0, 0] S1x288x64.size inb_S3x288x64_S1x288x64_0_0_0
abbrev r2_w1 : Rect S3x288x64 := Rect.unit (s := S3x288x64) ![1, 0, 0] S1x288x64.size inb_S3x288x64_S1x288x64_1_0_0
abbrev r2_w2 : Rect S3x288x64 := Rect.unit (s := S3x288x64) ![2, 0, 0] S1x288x64.size inb_S3x288x64_S1x288x64_2_0_0
abbrev r2_b0 : Rect S3x64 := Rect.unit (s := S3x64) ![0, 0] S1x64.size inb_S3x64_S1x64_0_0
abbrev r2_b1 : Rect S3x64 := Rect.unit (s := S3x64) ![1, 0] S1x64.size inb_S3x64_S1x64_1_0
abbrev r2_b2 : Rect S3x64 := Rect.unit (s := S3x64) ![2, 0] S1x64.size inb_S3x64_S1x64_2_0
abbrev r2_o : Rect S2000x64 := Rect.unit (s := S2000x64) ![0, 0] S2000x64.size inb_S2000x64_S2000x64_0_0

/-- Output window j's block after the body: its one store, the product-plus-bias payload of the row block, weight
    slab j and bias row j. -/
def out2_3 (x0 : Vec F S2000x288 .f32) (x1 : Vec F S3x288x64 .f32) (x2 : Vec F S3x64 .f32) : Vec F S2000x64 .f32 :=
  View.canon [⟨r2_o, k2_pay2 (View.ld x0 r2_x) (View.ld x1 r2_w0) (View.ld x2 r2_b0)⟩]
def out2_4 (x0 : Vec F S2000x288 .f32) (x1 : Vec F S3x288x64 .f32) (x2 : Vec F S3x64 .f32) : Vec F S2000x64 .f32 :=
  View.canon [⟨r2_o, k2_pay3 (View.ld x0 r2_x) (View.ld x1 r2_w1) (View.ld x2 r2_b1)⟩]
def out2_5 (x0 : Vec F S2000x288 .f32) (x1 : Vec F S3x288x64 .f32) (x2 : Vec F S3x64 .f32) : Vec F S2000x64 .f32 :=
  View.canon [⟨r2_o, k2_pay4 (View.ld x0 r2_x) (View.ld x1 r2_w2) (View.ld x2 r2_b2)⟩]

/-- One whole-buffer store covers an output buffer. -/
theorem cover2_o (p0 : Vec F S2000x64 .f32) (y : S2000x64.Idx) :
    ∃ pc ∈ ([⟨r2_o, p0⟩] : List (View.Piece (Elt F) S2000x64 .f32)), y ∈ pc.1.set :=
  View.cover_of_tiled [⟨r2_o, p0⟩] S2000x64.size (by rfl) y

/-! ## The body's triple -/

set_option maxHeartbeats 2000000 in
/-- On whole staging buffers, the inputs at contents `x0 x1 x2` and the outputs at anything, the body runs to its
    continuation with the inputs as they were and output j at `out2_(3+j)` of them (each output buffer is also loaded
    before its store; the loaded value is dropped). -/
theorem sound_kernel2 (c : Dev nD) (E : Set ℕ) (i : grid2.Coords) (arg1 : Memref sig .tc .vmem S2000x288 .f32) (harg1 : arg1.IsWhole)
    (arg2 : Memref sig .tc .vmem S3x288x64 .f32) (harg2 : arg2.IsWhole) (arg3 : Memref sig .tc .vmem S3x64 .f32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole)
    (x0 : Vec F S2000x288 .f32) (x1 : Vec F S3x288x64 .f32) (x2 : Vec F S3x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)
            ∗ owns (c : Thread nD τ) arg6 fullShare (out2_5 x0 x1 x2)) -∗ K ⟨⟩))
      ⊢ wp frame (wpE (defs₀ (F := F)) Variants.none c none) E (cc2__hop_linear3_kernel i arg1 harg1 arg2 harg2 arg3 harg3 arg4 harg4 arg5 harg5 arg6 harg6) K := by
  simp only [cc2__hop_linear3_kernel_eq_skeleton]; unfold cc2__hop_linear3_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover2_o _)
  isplitl [H4]
  · iexists _; isplitr
    swap; · iexact H4
    ipureintro
    try dsimp only
    exact View.read_writes_eq_canon _ _ _ (cover2_o _)
  iexists _; isplitr
  swap; · iexact H5
  ipureintro
  try dsimp only
  exact View.read_writes_eq_canon _ _ _ (cover2_o _)

/-! ## The pipeline's proof data -/

/-- Proof data of pipeline 2 on core `c`: the arrays as the call finds them; after the body at point `t` every input
    buffer still at its block and output buffer j at `out2_(3+j)` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
    | ⟨5, _⟩ => out2_5 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]
theorem after2_4 (c : Dev nD) (t : Fin cfg2.N) :
    (dat2 V c).after 4 t = out2_4 (iblk2 V c 0 t) (iblk2 V c 1 t) (iblk2 V c 2 t) := by dsimp only [dat2]
theorem after2_5 (c : Dev nD) (t : Fin cfg2.N) :
    (dat2 V c).after 5 t = out2_5 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  The last call of @main: the final projection. One grid point takes a block of 2000 rows of the
  192 concatenated features, the whole 192×64 weight and the 1×64 bias row, and stores the block's
  2000×64 product plus bias. Here: the block each window holds at a point, the body's Hoare triple
  on whole staging buffers, the proof data of the pipeline (what every staging buffer holds after
  the body at each point), and the pipeline's body obligation, all at any entry contents `V` and any
  float instance.
-/
import proofs.«130113_j6828998001548_2_alg».proof.Proof.Gen.Kernel.Launch
import proofs.«130113_j6828998001548_2_alg».proof.Proof.Gen.Kernel.Skeleton
import proofs.«130113_j6828998001548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 of call 3: whatever proof data has the entry contents as its array and leaves the block in
    place, the staging buffer the body is handed holds the window's block at that point, fetched there or kept from
    the point before (the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 of call 3: whatever proof data has the entry contents as its array and leaves the block in
    place, the staging buffer the body is handed holds the window's block at that point, fetched there or kept from
    the point before (the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 of call 3: whatever proof data has the entry contents as its array and leaves the block in
    place, the staging buffer the body is handed holds the window's block at that point, fetched there or kept from
    the point before (the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body loads and stores through: each is a whole staging buffer -/

abbrev r3_h : Rect S2000x192 := Rect.unit (s := S2000x192) ![0, 0] S2000x192.size inb_S2000x192_S2000x192_0_0
abbrev r3_w : Rect S192x64 := Rect.unit (s := S192x64) ![0, 0] S192x64.size inb_S192x64_S192x64_0_0
abbrev r3_b : Rect S1x64 := Rect.unit (s := S1x64) ![0, 0] S1x64.size inb_S1x64_S1x64_0_0
abbrev r3_o : Rect S2000x64 := Rect.unit (s := S2000x64) ![0, 0] S2000x64.size inb_S2000x64_S2000x64_0_0

/-- The output block after the body: its one store, the product-plus-bias payload of the three loaded blocks. -/
def out3_3 (x0 : Vec F S2000x192 .f32) (x1 : Vec F S192x64 .f32) (x2 : Vec F S1x64 .f32) : Vec F S2000x64 .f32 :=
  View.canon [⟨r3_o, k3_pay1 (View.ld x0 r3_h) (View.ld x1 r3_w) (View.ld x2 r3_b)⟩]

/-- The one store covers the output buffer. -/
theorem cover3_3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

/-! ## The body's triple -/

set_option maxHeartbeats 1000000 in
/-- On whole staging buffers, the inputs at contents `x0 x1 x2` and the output at anything, the body runs to its
    continuation with the inputs as they were and the output at `out3_3` of them (the output buffer is also loaded
    before the store; the loaded value is dropped). -/
theorem sound_kernel3 (c : Dev nD) (E : Set ℕ) (i : grid3.Coords) (arg1 : Memref sig .tc .vmem S2000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_proj_kernel i arg1 harg1 arg2 harg2 arg3 harg3 arg4 harg4) K := by
  simp only [cc3__final_proj_kernel_eq_skeleton]; unfold cc3__final_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The pipeline's proof data -/

/-- Proof data of pipeline 3 on core `c`: the arrays as the call finds them; after the body at point `t` every input
    buffer still at its block and the output buffer at `out3_3` of the input blocks; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Chain.lean ====
/-
  @main from launch to return: three stretches of host operations, the first call, a stretch, the second and
  third calls, a stretch, the last call. The contents of every unscoped buffer are followed through the nine
  items (`B0` … `B9`): a host stretch applies its operations, a call puts back its arrays with each output
  array at what the grid's write-backs leave. Each call is a segment of the launch library over that thread
  state, and the launch theorem gives: every weakly fair execution terminates, nothing faults, and the final
  memory holds every unscoped buffer at `B9`. No item writes an argument array, so the arguments end as
  launched; the result buffer ends at the last call's output array.
-/
import proofs.«130113_j6828998001548_2_alg».proof.Proof.KB.Reg0
import proofs.«130113_j6828998001548_2_alg».proof.Proof.KB.Reg1
import proofs.«130113_j6828998001548_2_alg».proof.Proof.KB.Reg2
import proofs.«130113_j6828998001548_2_alg».proof.Proof.KB.Reg3
import proofs.«130113_j6828998001548_2_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev B0 : Dev nD → Valuation τ sig (Elt F) := fun c b => m ((c : Dev nD), b)
/-- After the first host stretch (the edge lists with self loops, the degrees, their inverse square roots). -/
abbrev B1 : Dev nD → Valuation τ sig (Elt F) := fun c => StableHlo.after hostOps0 (B0 m c)
/-- After the second (the guarded inverse square root). -/
abbrev B2 : Dev nD → Valuation τ sig (Elt F) := fun c => StableHlo.after hostOps0_1 (B1 m c)
/-- After the third (the edge weights): what call 0 is entered from. -/
abbrev B3 : Dev nD → Valuation τ sig (Elt F) := fun c => StableHlo.after hostOps0_2 (B2 m c)
abbrev T3 : (c : Dev nD) → (b : Ref sig .tc) → Buf (Elt F) ((c : Thread nD τ).loc b) := fun c b => B3 m c b

/-- After call 0: its arrays at what the pipeline's write-backs leave (an input array as entered, an output array its
    blocks folded in), every other buffer as entered. -/
def B4 (c : Dev nD) : Valuation τ sig (Elt F) :=
  Pipeline.withArrays spec0 c (B3 m c) fun w => (dat0 (T3 m) c).arrAt w cfg0.N
theorem B4_arr (c : Dev nD) (w : Fin cfg0.W) :
    B4 m c (Proc.devRef .tc (Pipeline.arrRef spec0 w)) = (dat0 (T3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
/-- The same contents read at the TensorCore's references. -/
abbrev T4 : (c : Dev nD) → (b : Ref sig .tc) → Buf (Elt F) ((c : Thread nD τ).loc b) := fun c b => B4 m c b
theorem hF0 (c : Dev nD) (w : Fin cfg0.W) : (dat0 (T3 m) c).arrAt w cfg0.N = T4 m c (Pipeline.arrRef spec0 w) :=
  (B4_arr m c w).symm
theorem hrest0 (c : Dev nD) : ∀ b, b ∉ Finset.univ.image (Pipeline.arrRef spec0) → T4 m c b = T3 m c b :=
  fun b hb => B4_of_ne m c b fun w e => hb (Finset.mem_image.mpr ⟨w, Finset.mem_univ _, e⟩)
/-- A buffer that is no output array of call 0 leaves the call as it entered: an input array is written back nowhere,
    any other buffer is not the call's. -/
theorem B4_keep (c : Dev nD) (b : Ref sig .tc) (hb : b ∉ ([main_v30_0, main_v30_1, main_v30_2] : List (Ref sig .tc))) :
    B4 m c (Proc.devRef .tc b) = B3 m c (Proc.devRef .tc b) := by
  by_cases h : ∃ w, Pipeline.arrRef spec0 w = b
  · obtain ⟨w, rfl⟩ := h
    by_cases hin : (cfg0.win w).isOut = false
    · exact (B4_arr m c w).trans (((dat0 (T3 m) c).arrAt_in w hin _).trans (A_eq0 (T3 m) c w))
    · exact absurd (show Pipeline.arrRef spec0 w ∈ ([main_v30_0, main_v30_1, main_v30_2] : List (Ref sig .tc)) from by
        revert hin; revert w; decide) hb
  · exact B4_of_ne m c b fun w e => h ⟨w, e⟩

/-- After the stretch between calls 0 and 1 (the propagations and the concatenation): what call 1 is entered from. -/
abbrev B5 : Dev nD → Valuation τ sig (Elt F) := fun c => StableHlo.after hostOps1 (B4 m c)
abbrev T5 : (c : Dev nD) → (b : Ref sig .tc) → Buf (Elt F) ((c : Thread nD τ).loc b) := fun c b => B5 m c b

/-- After call 1: its arrays at what the pipeline's write-backs leave (an input array as entered, an output array its
    blocks folded in), every other buffer as entered. -/
def B6 (c : Dev nD) : Valuation τ sig (Elt F) :=
  Pipeline.withArrays spec1 c (B5 m c) fun w => (dat1 (T5 m) c).arrAt w cfg1.N
theorem B6_arr (c : Dev nD) (w : Fin cfg1.W) :
    B6 m c (Proc.devRef .tc (Pipeline.arrRef spec1 w)) = (dat1 (T5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
/-- The same contents read at the TensorCore's references. -/
abbrev T6 : (c : Dev nD) → (b : Ref sig .tc) → Buf (Elt F) ((c : Thread nD τ).loc b) := fun c b => B6 m c b
theorem hF1 (c : Dev nD) (w : Fin cfg1.W) : (dat1 (T5 m) c).arrAt w cfg1.N = T6 m c (Pipeline.arrRef spec1 w) :=
  (B6_arr m c w).symm
theorem hrest1 (c : Dev nD) : ∀ b, b ∉ Finset.univ.image (Pipeline.arrRef spec1) → T6 m c b = T5 m c b :=
  fun b hb => B6_of_ne m c b fun w e => hb (Finset.mem_image.mpr ⟨w, Finset.mem_univ _, e⟩)
/-- A buffer that is no output array of call 1 leaves the call as it entered: an input array is written back nowhere,
    any other buffer is not the call's. -/
theorem B6_keep (c : Dev nD) (b : Ref sig .tc) (hb : b ∉ ([main_v75] : List (Ref sig .tc))) :
    B6 m c (Proc.devRef .tc b) = B5 m c (Proc.devRef .tc b) := by
  by_cases h : ∃ w, Pipeline.arrRef spec1 w = b
  · obtain ⟨w, rfl⟩ := h
    by_cases hin : (cfg1.win w).isOut = false
    · exact (B6_arr m c w).trans (((dat1 (T5 m) c).arrAt_in w hin _).trans (A_eq1 (T5 m) c w))
    · exact absurd (show Pipeline.arrRef spec1 w ∈ ([main_v75] : List (Ref sig .tc)) from by
        revert hin; revert w; decide) hb
  · exact B6_of_ne m c b fun w e => h ⟨w, e⟩

/-- After call 2: its arrays at what the pipeline's write-backs leave (an input array as entered, an output array its
    blocks folded in), every other buffer as entered. -/
def B7 (c : Dev nD) : Valuation τ sig (Elt F) :=
  Pipeline.withArrays spec2 c (B6 m c) fun w => (dat2 (T6 m) c).arrAt w cfg2.N
theorem B7_arr (c : Dev nD) (w : Fin cfg2.W) :
    B7 m c (Proc.devRef .tc (Pipeline.arrRef spec2 w)) = (dat2 (T6 m) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m c (Proc.devRef .tc b) = B6 m c (Proc.devRef .tc b) := by
  unfold B7; exact Pipeline.withArrays_of_ne spec2 c _ _ b hb
/-- The same contents read at the TensorCore's references. -/
abbrev T7 : (c : Dev nD) → (b : Ref sig .tc) → Buf (Elt F) ((c : Thread nD τ).loc b) := fun c b => B7 m c b
theorem hF2 (c : Dev nD) (w : Fin cfg2.W) : (dat2 (T6 m) c).arrAt w cfg2.N = T7 m c (Pipeline.arrRef spec2 w) :=
  (B7_arr m c w).symm
theorem hrest2 (c : Dev nD) : ∀ b, b ∉ Finset.univ.image (Pipeline.arrRef spec2) → T7 m c b = T6 m c b :=
  fun b hb => B7_of_ne m c b fun w e => hb (Finset.mem_image.mpr ⟨w, Finset.mem_univ _, e⟩)
/-- A buffer that is no output array of call 2 leaves the call as it entered: an input array is written back nowhere,
    any other buffer is not the call's. -/
theorem B7_keep (c : Dev nD) (b : Ref sig .tc) (hb : b ∉ ([main_v76_0, main_v76_1, main_v76_2] : List (Ref sig .tc))) :
    B7 m c (Proc.devRef .tc b) = B6 m c (Proc.devRef .tc b) := by
  by_cases h : ∃ w, Pipeline.arrRef spec2 w = b
  · obtain ⟨w, rfl⟩ := h
    by_cases hin : (cfg2.win w).isOut = false
    · exact (B7_arr m c w).trans (((dat2 (T6 m) c).arrAt_in w hin _).trans (A_eq2 (T6 m) c w))
    · exact absurd (show Pipeline.arrRef spec2 w ∈ ([main_v76_0, main_v76_1, main_v76_2] : List (Ref sig .tc)) from by
        revert hin; revert w; decide) hb
  · exact B7_of_ne m c b fun w e => h ⟨w, e⟩

/-- After the stretch between calls 2 and 3: what call 3 is entered from. -/
abbrev B8 : Dev nD → Valuation τ sig (Elt F) := fun c => StableHlo.after hostOps3 (B7 m c)
abbrev T8 : (c : Dev nD) → (b : Ref sig .tc) → Buf (Elt F) ((c : Thread nD τ).loc b) := fun c b => B8 m c b

/-- After call 3: its arrays at what the pipeline's write-backs leave (an input array as entered, an output array its
    blocks folded in), every other buffer as entered. -/
def B9 (c : Dev nD) : Valuation τ sig (Elt F) :=
  Pipeline.withArrays spec3 c (B8 m c) fun w => (dat3 (T8 m) c).arrAt w cfg3.N
theorem B9_arr (c : Dev nD) (w : Fin cfg3.W) :
    B9 m c (Proc.devRef .tc (Pipeline.arrRef spec3 w)) = (dat3 (T8 m) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m c (Proc.devRef .tc b) = B8 m c (Proc.devRef .tc b) := by
  unfold B9; exact Pipeline.withArrays_of_ne spec3 c _ _ b hb
/-- The same contents read at the TensorCore's references. -/
abbrev T9 : (c : Dev nD) → (b : Ref sig .tc) → Buf (Elt F) ((c : Thread nD τ).loc b) := fun c b => B9 m c b
theorem hF3 (c : Dev nD) (w : Fin cfg3.W) : (dat3 (T8 m) c).arrAt w cfg3.N = T9 m c (Pipeline.arrRef spec3 w) :=
  (B9_arr m c w).symm
theorem hrest3 (c : Dev nD) : ∀ b, b ∉ Finset.univ.image (Pipeline.arrRef spec3) → T9 m c b = T8 m c b :=
  fun b hb => B9_of_ne m c b fun w e => hb (Finset.mem_image.mpr ⟨w, Finset.mem_univ _, e⟩)
/-- A buffer that is no output array of call 3 leaves the call as it entered: an input array is written back nowhere,
    any other buffer is not the call's. -/
theorem B9_keep (c : Dev nD) (b : Ref sig .tc) (hb : b ∉ ([main_v118] : List (Ref sig .tc))) :
    B9 m c (Proc.devRef .tc b) = B8 m c (Proc.devRef .tc b) := by
  by_cases h : ∃ w, Pipeline.arrRef spec3 w = b
  · obtain ⟨w, rfl⟩ := h
    by_cases hin : (cfg3.win w).isOut = false
    · exact (B9_arr m c w).trans (((dat3 (T8 m) c).arrAt_in w hin _).trans (A_eq3 (T8 m) c w))
    · exact absurd (show Pipeline.arrRef spec3 w ∈ ([main_v118] : List (Ref sig .tc)) from by
        revert hin; revert w; decide) hb
  · exact B9_of_ne m c b fun w e => h ⟨w, e⟩

/-! ## A buffer no item writes ends as launched -/

/-- A reference that no host operation writes and that is no call's output array holds its launch contents at the end. -/
theorem B9_of (c : Dev nD) (b : Ref sig .tc)
    (h0 : b ∉ hostOps0_W) (h1 : b ∉ hostOps0_1_W) (h2 : b ∉ hostOps0_2_W) (h4 : b ∉ hostOps1_W) (h7 : b ∉ hostOps3_W)
    (h3 : b ∉ ([main_v30_0, main_v30_1, main_v30_2] : List (Ref sig .tc))) (h5 : b ∉ ([main_v75] : List (Ref sig .tc)))
    (h6 : b ∉ ([main_v76_0, main_v76_1, main_v76_2] : List (Ref sig .tc))) (h8 : b ∉ ([main_v118] : List (Ref sig .tc))) :
    B9 m c (Proc.devRef .tc b) = m ((c : Thread nD τ).loc b) :=
  (B9_keep m c b h8).trans <| (StableHlo.after_of_writes_sub hostOps3 _ hostOps3_writes h7).trans <|
  (B7_keep m c b h6).trans <| (B6_keep m c b h5).trans <| (StableHlo.after_of_writes_sub hostOps1 _ hostOps1_writes h4).trans <|
  (B4_keep m c b h3).trans <| (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## The proof data family and the thread state -/

/-- No pipeline has a prefetched table. -/
abbrev adm : (p : Fin 4) → (pcfgs (F := F) p).Adm := fun p => (cfgs p).toPCfg_adm
/-- Every pipeline's proof data, each at the contents its call is entered from. -/
def pdats : (p : Fin 4) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m) c
  | ⟨2, _⟩ => fun c => dat2 (T6 m) c
  | ⟨3, _⟩ => fun c => dat3 (T8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `B9`, the generator register at some state. -/
abbrev Tₙ (c : Dev nD) : sProp 𝕄 := iprop(StableHlo.held (c : Thread nD τ) (Pipeline.ucRefs τ sig) (B9 m c) ∗ ∃ r, prngReg c r)

/-! ## The calls as segments -/

-- a library lemma stated over the pinned configuration unifies with the printed one only when unification may unfold plain
-- definitions in a metavariable's type
set_option backward.isDefEq.respectTransparency.types false in
/-- Call 0 as a segment: entered with every unscoped buffer at `B3`, left with them at `B4`. At entry the call's
    arrays are split out of the unscoped buffers and at exit put back at what the write-backs leave; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 1 as a segment: entered with every unscoped buffer at `B5`, left with them at `B6`. At entry the call's
    arrays are split out of the unscoped buffers and at exit put back at what the write-backs leave; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 2 as a segment: entered with every unscoped buffer at `B6`, left with them at `B7`. At entry the call's
    arrays are split out of the unscoped buffers and at exit put back at what the write-backs leave; the generator
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T6 m c) (T7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 3 as a segment: entered with every unscoped buffer at `B8`, left with them at `B9`. At entry the call's
    arrays are split out of the unscoped buffers and at exit put back at what the write-backs leave; the generator
    register goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T8 m) c).loose
  hwaits := Pipeline.hwaits_of_owed_zero _ _ _ _ L lv 3 fun _ _ => rfl
  pre c := iprop(StableHlo.held (c : Thread nD τ) (Pipeline.ucRefs τ sig) (B8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T8 m c) (T9 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine items in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .region (reg2 m),
    .host (hseg hostOps3 hostOps3_sub hostOps3_fresh (B7 m)),
    .region (reg3 m) ]

/-- @main is the run of the segments. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN at any float instance: from any memory with zero counters every weakly fair execution of @main on the
    TensorCores terminates, nothing faulting, and in every final state each unscoped buffer holds `B9`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-! ## The frame: the arguments end as launched -/

/-- An argument array, read in the final state of a run to `B9`, holds its launch contents. -/
theorem arg_kept (c : Dev nD) (s : MemSt nD τ sig (Elt F)) (h : ∀ b ∈ Pipeline.ucRefs τ sig, s.mem (((c : Thread nD τ)).1, b) = B9 m c b)
    (b : Ref sig .tc) (hu : ¬ (Proc.devRef .tc b : DevRef τ sig).isScoped)
    (h0 : b ∉ hostOps0_W) (h1 : b ∉ hostOps0_1_W) (h2 : b ∉ hostOps0_2_W) (h4 : b ∉ hostOps1_W) (h7 : b ∉ hostOps3_W)
    (h3 : b ∉ ([main_v30_0, main_v30_1, main_v30_2] : List (Ref sig .tc))) (h5 : b ∉ ([main_v75] : List (Ref sig .tc)))
    (h6 : b ∉ ([main_v76_0, main_v76_1, main_v76_2] : List (Ref sig .tc))) (h8 : b ∉ ([main_v118] : List (Ref sig .tc))) :
    s.mem ((c.tc : Thread nD τ).loc b) = m ((c.tc : Thread nD τ).loc b) :=
  (h _ (mem_uc b hu)).trans (B9_of m c b h0 h1 h2 h4 h7 h3 h5 h6 h8)

/-- The frame claim's post at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    arg_kept m c r.2 (h c) main_arg0 (by decide) (by decide) (by decide) (by decide) (by decide) (by decide) (by decide) (by decide) (by decide) (by decide),
    arg_kept m c r.2 (h c) main_arg1 (by decide) (by decide) (by decide) (by decide) (by decide) (by decide) (by decide) (by decide) (by decide) (by decide),
    arg_kept m c r.2 (h c) main_arg2 (by decide) (by decide) (by decide) (by decide) (by decide) (by decide) (by decide) (by decide) (by decide) (by decide),
    arg_kept m c r.2 (h c) main_arg3 (by decide) (by decide) (by decide) (by decide) (by decide) (by decide) (by decide) (by decide) (by decide) (by decide),
    arg_kept m c r.2 (h c) main_arg4 (by decide) (by decide) (by decide) (by decide) (by decide) (by decide) (by decide) (by decide) (by decide) (by decide),
    arg_kept m c r.2 (h c) main_arg5 (by decide) (by decide) (by decide) (by decide) (by decide) (by decide) (by decide) (by decide) (by decide) (by decide),
    arg_kept m c r.2 (h c) main_arg6 (by decide) (by decide) (by decide) (by decide) (by decide) (by decide) (by decide) (by decide) (by decide) (by decide),
    arg_kept m c r.2 (h c) main_arg7 (by decide) (by decide) (by decide) (by decide) (by decide) (by decide) (by decide) (by decide) (by decide) (by decide),
    arg_kept m c r.2 (h c) main_arg8 (by decide) (by decide) (by decide) (by decide) (by decide) (by decide) (by decide) (by decide) (by decide) (by decide),
    arg_kept m c r.2 (h c) main_arg9 (by decide) (by decide) (by decide) (by decide) (by decide) (by decide) (by decide) (by decide) (by decide) (by decide),
    arg_kept m c r.2 (h c) main_arg10 (by decide) (by decide) (by decide) (by decide) (by decide) (by decide) (by decide) (by decide) (by decide) (by decide),
    arg_kept m c r.2 (h c) main_arg11 (by decide) (by decide) (by decide) (by decide) (by decide) (by decide) (by decide) (by decide) (by decide) (by decide)⟩)
    (run_all m ρ)

end Cert.Kernel.Hand

end
-- ==== Proof.KI.Reg0.lean ====
/-
  The first call of @main: three linear maps of one block, fused. One grid point takes a block of 2000 rows
  of the 128 input features, the whole stack of three 128×96 weights and the three bias rows, and stores, for
  j = 0, 1, 2, the block's 2000×96 product with weight j plus bias j into output window j. Here: the block
  each window holds at a point, the body's Hoare triple on whole staging buffers, the pipeline's proof data and
  its body obligation, at any entry contents `V` and any float instance.
-/
import proofs.«130113_j6828998001548_2_alg».proof.Proof.Gen.KernelIdeal.Launch
import proofs.«130113_j6828998001548_2_alg».proof.Proof.Gen.KernelIdeal.Skeleton
import proofs.«130113_j6828998001548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0: whatever proof data has the entry contents as its array and leaves the block in
    place, the staging buffer the body is handed holds the window's block at that point, fetched there or kept from
    the point before (the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of call 0: whatever proof data has the entry contents as its array and leaves the block in
    place, the staging buffer the body is handed holds the window's block at that point, fetched there or kept from
    the point before (the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of call 0: whatever proof data has the entry contents as its array and leaves the block in
    place, the staging buffer the body is handed holds the window's block at that point, fetched there or kept from
    the point before (the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through

The row block and each output are whole staging buffers; weight j is slab j of the weight stack, bias j row j of the
bias matrix. -/

abbrev r0_x : Rect S2000x128 := Rect.unit (s := S2000x128) ![0, 0] S2000x128.size inb_S2000x128_S2000x128_0_0
abbrev r0_w0 : Rect S3x128x96 := Rect.unit (s := S3x128x96) ![0, 0, 0] S1x128x96.size inb_S3x128x96_S1x128x96_0_0_0
abbrev r0_w1 : Rect S3x128x96 := Rect.unit (s := S3x128x96) ![1, 0, 0] S1x128x96.size inb_S3x128x96_S1x128x96_1_0_0
abbrev r0_w2 : Rect S3x128x96 := Rect.unit (s := S3x128x96) ![2, 0, 0] S1x128x96.size inb_S3x128x96_S1x128x96_2_0_0
abbrev r0_b0 : Rect S3x96 := Rect.unit (s := S3x96) ![0, 0] S1x96.size inb_S3x96_S1x96_0_0
abbrev r0_b1 : Rect S3x96 := Rect.unit (s := S3x96) ![1, 0] S1x96.size inb_S3x96_S1x96_1_0
abbrev r0_b2 : Rect S3x96 := Rect.unit (s := S3x96) ![2, 0] S1x96.size inb_S3x96_S1x96_2_0
abbrev r0_o : Rect S2000x96 := Rect.unit (s := S2000x96) ![0, 0] S2000x96.size inb_S2000x96_S2000x96_0_0

/-- Output window j's block after the body: its one store, the product-plus-bias payload of the row block, weight
    slab j and bias row j. -/
def out0_3 (x0 : Vec F S2000x128 .f32) (x1 : Vec F S3x128x96 .f32) (x2 : Vec F S3x96 .f32) : Vec F S2000x96 .f32 :=
  View.canon [⟨r0_o, k0_pay2 (View.ld x0 r0_x) (View.ld x1 r0_w0) (View.ld x2 r0_b0)⟩]
def out0_4 (x0 : Vec F S2000x128 .f32) (x1 : Vec F S3x128x96 .f32) (x2 : Vec F S3x96 .f32) : Vec F S2000x96 .f32 :=
  View.canon [⟨r0_o, k0_pay3 (View.ld x0 r0_x) (View.ld x1 r0_w1) (View.ld x2 r0_b1)⟩]
def out0_5 (x0 : Vec F S2000x128 .f32) (x1 : Vec F S3x128x96 .f32) (x2 : Vec F S3x96 .f32) : Vec F S2000x96 .f32 :=
  View.canon [⟨r0_o, k0_pay4 (View.ld x0 r0_x) (View.ld x1 r0_w2) (View.ld x2 r0_b2)⟩]

/-- One whole-buffer store covers an output buffer. -/
theorem cover0_o (p0 : Vec F S2000x96 .f32) (y : S2000x96.Idx) :
    ∃ pc ∈ ([⟨r0_o, p0⟩] : List (View.Piece (Elt F) S2000x96 .f32)), y ∈ pc.1.set :=
  View.cover_of_tiled [⟨r0_o, p0⟩] S2000x96.size (by rfl) y

/-! ## The body's triple -/

set_option maxHeartbeats 2000000 in
/-- On whole staging buffers, the inputs at contents `x0 x1 x2` and the outputs at anything, the body runs to its
    continuation with the inputs as they were and output j at `out0_(3+j)` of them (each output buffer is also loaded
    before its store; the loaded value is dropped). -/
theorem sound_kernel0 (c : Dev nD) (E : Set ℕ) (i : grid0.Coords) (arg1 : Memref sig .tc .vmem S2000x128 .f32) (harg1 : arg1.IsWhole)
    (arg2 : Memref sig .tc .vmem S3x128x96 .f32) (harg2 : arg2.IsWhole) (arg3 : Memref sig .tc .vmem S3x96 .f32) (harg3 : arg3.IsWhole)
    (arg4 : Memref sig .tc .vmem S2000x96 .f32) (harg4 : arg4.IsWhole) (arg5 : Memref sig .tc .vmem S2000x96 .f32) (harg5 : arg5.IsWhole)
    (arg6 : Memref sig .tc .vmem S2000x96 .f32) (harg6 : arg6.IsWhole)
    (x0 : Vec F S2000x128 .f32) (x1 : Vec F S3x128x96 .f32) (x2 : Vec F S3x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__hop_linear3_kernel i arg1 harg1 arg2 harg2 arg3 harg3 arg4 harg4 arg5 harg5 arg6 harg6) K := by
  simp only [cc0__hop_linear3_kernel_eq_skeleton]; unfold cc0__hop_linear3_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_o _)
  isplitl [H4]
  · iexists _; isplitr
    swap; · iexact H4
    ipureintro
    try dsimp only
    exact View.read_writes_eq_canon _ _ _ (cover0_o _)
  iexists _; isplitr
  swap; · iexact H5
  ipureintro
  try dsimp only
  exact View.read_writes_eq_canon _ _ _ (cover0_o _)

/-! ## The pipeline's proof data -/

/-- Proof data of pipeline 0 on core `c`: the arrays as the call finds them; after the body at point `t` every input
    buffer still at its block and output buffer j at `out0_(3+j)` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second call of @main: batch normalisation and ReLU. One grid point takes a block of 2000 rows
  of the 288 concatenated features and the four 1×288 parameter rows (scale, shift, mean, variance),
  and stores max(scale·(h − mean)·rsqrt(variance + ε) + shift, 0) for the block. Here: the block each
  window holds at a point, the body's Hoare triple on whole staging buffers, the pipeline's proof data
  and its body obligation, at any entry contents `V` and any float instance.
-/
import proofs.«130113_j6828998001548_2_alg».proof.Proof.Gen.KernelIdeal.Launch
import proofs.«130113_j6828998001548_2_alg».proof.Proof.Gen.KernelIdeal.Skeleton
import proofs.«130113_j6828998001548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1: whatever proof data has the entry contents as its array and leaves the block in
    place, the staging buffer the body is handed holds the window's block at that point, fetched there or kept from
    the point before (the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of call 1: whatever proof data has the entry contents as its array and leaves the block in
    place, the staging buffer the body is handed holds the window's block at that point, fetched there or kept from
    the point before (the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of call 1: whatever proof data has the entry contents as its array and leaves the block in
    place, the staging buffer the body is handed holds the window's block at that point, fetched there or kept from
    the point before (the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of call 1: whatever proof data has the entry contents as its array and leaves the block in
    place, the staging buffer the body is handed holds the window's block at that point, fetched there or kept from
    the point before (the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of call 1: whatever proof data has the entry contents as its array and leaves the block in
    place, the staging buffer the body is handed holds the window's block at that point, fetched there or kept from
    the point before (the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through: each is a whole staging buffer -/

abbrev r1_h : Rect S2000x288 := Rect.unit (s := S2000x288) ![0, 0] S2000x288.size inb_S2000x288_S2000x288_0_0
abbrev r1_p : Rect S1x288 := Rect.unit (s := S1x288) ![0, 0] S1x288.size inb_S1x288_S1x288_0_0

/-- The output block after the body: its one store, the normalised-and-clamped payload of the five loaded blocks. -/
def out1_5 (x0 : Vec F S2000x288 .f32) (x1 x2 x3 x4 : Vec F S1x288 .f32) : Vec F S2000x288 .f32 :=
  View.canon [⟨r1_h, k1_pay1 (View.ld x0 r1_h) (View.ld x1 r1_p) (View.ld x2 r1_p) (View.ld x3 r1_p) (View.ld x4 r1_p)⟩]

/-- The one store covers the output buffer. -/
theorem cover1_5 (p0 : Vec F S2000x288 .f32) (y : S2000x288.Idx) :
    ∃ pc ∈ ([⟨r1_h, p0⟩] : List (View.Piece (Elt F) S2000x288 .f32)), y ∈ pc.1.set :=
  View.cover_of_tiled [⟨r1_h, p0⟩] S2000x288.size (by rfl) y

/-! ## The body's triple -/

set_option maxHeartbeats 1000000 in
/-- On whole staging buffers, the inputs at contents `x0 … x4` and the output at anything, the body runs to its
    continuation with the inputs as they were and the output at `out1_5` of them (the output buffer is also loaded
    before the store; the loaded value is dropped). -/
theorem sound_kernel1 (c : Dev nD) (E : Set ℕ) (i : grid1.Coords) (arg1 : Memref sig .tc .vmem S2000x288 .f32) (harg1 : arg1.IsWhole)
    (arg2 : Memref sig .tc .vmem S1x288 .f32) (harg2 : arg2.IsWhole) (arg3 : Memref sig .tc .vmem S1x288 .f32) (harg3 : arg3.IsWhole)
    (arg4 : Memref sig .tc .vmem S1x288 .f32) (harg4 : arg4.IsWhole) (arg5 : Memref sig .tc .vmem S1x288 .f32) (harg5 : arg5.IsWhole)
    (arg6 : Memref sig .tc .vmem S2000x288 .f32) (harg6 : arg6.IsWhole)
    (x0 : Vec F S2000x288 .f32) (x1 x2 x3 x4 : Vec F S1x288 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-! ## The pipeline's proof data -/

/-- Proof data of pipeline 1 on core `c`: the arrays as the call finds them; after the body at point `t` every input
    buffer still at its block and the output buffer at `out1_5` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third call of @main: three linear maps of one block, fused. One grid point takes a block of 2000 rows
  of the 288 input features, the whole stack of three 288×64 weights and the three bias rows, and stores, for
  j = 0, 1, 2, the block's 2000×64 product with weight j plus bias j into output window j. Here: the block
  each window holds at a point, the body's Hoare triple on whole staging buffers, the pipeline's proof data and
  its body obligation, at any entry contents `V` and any float instance.
-/
import proofs.«130113_j6828998001548_2_alg».proof.Proof.Gen.KernelIdeal.Launch
import proofs.«130113_j6828998001548_2_alg».proof.Proof.Gen.KernelIdeal.Skeleton
import proofs.«130113_j6828998001548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of call 2: whatever proof data has the entry contents as its array and leaves the block in
    place, the staging buffer the body is handed holds the window's block at that point, fetched there or kept from
    the point before (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 of call 2: whatever proof data has the entry contents as its array and leaves the block in
    place, the staging buffer the body is handed holds the window's block at that point, fetched there or kept from
    the point before (the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 of call 2: whatever proof data has the entry contents as its array and leaves the block in
    place, the staging buffer the body is handed holds the window's block at that point, fetched there or kept from
    the point before (the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through

The row block and each output are whole staging buffers; weight j is slab j of the weight stack, bias j row j of the
bias matrix. -/

abbrev r2_x : Rect S2000x288 := Rect.unit (s := S2000x288) ![0, 0] S2000x288.size inb_S2000x288_S2000x288_0_0
abbrev r2_w0 : Rect S3x288x64 := Rect.unit (s := S3x288x64) ![0, 0, 0] S1x288x64.size inb_S3x288x64_S1x288x64_0_0_0
abbrev r2_w1 : Rect S3x288x64 := Rect.unit (s := S3x288x64) ![1, 0, 0] S1x288x64.size inb_S3x288x64_S1x288x64_1_0_0
abbrev r2_w2 : Rect S3x288x64 := Rect.unit (s := S3x288x64) ![2, 0, 0] S1x288x64.size inb_S3x288x64_S1x288x64_2_0_0
abbrev r2_b0 : Rect S3x64 := Rect.unit (s := S3x64) ![0, 0] S1x64.size inb_S3x64_S1x64_0_0
abbrev r2_b1 : Rect S3x64 := Rect.unit (s := S3x64) ![1, 0] S1x64.size inb_S3x64_S1x64_1_0
abbrev r2_b2 : Rect S3x64 := Rect.unit (s := S3x64) ![2, 0] S1x64.size inb_S3x64_S1x64_2_0
abbrev r2_o : Rect S2000x64 := Rect.unit (s := S2000x64) ![0, 0] S2000x64.size inb_S2000x64_S2000x64_0_0

/-- Output window j's block after the body: its one store, the product-plus-bias payload of the row block, weight
    slab j and bias row j. -/
def out2_3 (x0 : Vec F S2000x288 .f32) (x1 : Vec F S3x288x64 .f32) (x2 : Vec F S3x64 .f32) : Vec F S2000x64 .f32 :=
  View.canon [⟨r2_o, k2_pay2 (View.ld x0 r2_x) (View.ld x1 r2_w0) (View.ld x2 r2_b0)⟩]
def out2_4 (x0 : Vec F S2000x288 .f32) (x1 : Vec F S3x288x64 .f32) (x2 : Vec F S3x64 .f32) : Vec F S2000x64 .f32 :=
  View.canon [⟨r2_o, k2_pay3 (View.ld x0 r2_x) (View.ld x1 r2_w1) (View.ld x2 r2_b1)⟩]
def out2_5 (x0 : Vec F S2000x288 .f32) (x1 : Vec F S3x288x64 .f32) (x2 : Vec F S3x64 .f32) : Vec F S2000x64 .f32 :=
  View.canon [⟨r2_o, k2_pay4 (View.ld x0 r2_x) (View.ld x1 r2_w2) (View.ld x2 r2_b2)⟩]

/-- One whole-buffer store covers an output buffer. -/
theorem cover2_o (p0 : Vec F S2000x64 .f32) (y : S2000x64.Idx) :
    ∃ pc ∈ ([⟨r2_o, p0⟩] : List (View.Piece (Elt F) S2000x64 .f32)), y ∈ pc.1.set :=
  View.cover_of_tiled [⟨r2_o, p0⟩] S2000x64.size (by rfl) y

/-! ## The body's triple -/

set_option maxHeartbeats 2000000 in
/-- On whole staging buffers, the inputs at contents `x0 x1 x2` and the outputs at anything, the body runs to its
    continuation with the inputs as they were and output j at `out2_(3+j)` of them (each output buffer is also loaded
    before its store; the loaded value is dropped). -/
theorem sound_kernel2 (c : Dev nD) (E : Set ℕ) (i : grid2.Coords) (arg1 : Memref sig .tc .vmem S2000x288 .f32) (harg1 : arg1.IsWhole)
    (arg2 : Memref sig .tc .vmem S3x288x64 .f32) (harg2 : arg2.IsWhole) (arg3 : Memref sig .tc .vmem S3x64 .f32) (harg3 : arg3.IsWhole)
    (arg4 : Memref sig .tc .vmem S2000x64 .f32) (harg4 : arg4.IsWhole) (arg5 : Memref sig .tc .vmem S2000x64 .f32) (harg5 : arg5.IsWhole)
    (arg6 : Memref sig .tc .vmem S2000x64 .f32) (harg6 : arg6.IsWhole)
    (x0 : Vec F S2000x288 .f32) (x1 : Vec F S3x288x64 .f32) (x2 : Vec F S3x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2) ∗ owns (c : Thread nD τ) arg5 fullShare (out2_4 x0 x1 x2)
            ∗ owns (c : Thread nD τ) arg6 fullShare (out2_5 x0 x1 x2)) -∗ K ⟨⟩))
      ⊢ wp frame (wpE (defs₀ (F := F)) Variants.none c none) E (cc2__hop_linear3_kernel i arg1 harg1 arg2 harg2 arg3 harg3 arg4 harg4 arg5 harg5 arg6 harg6) K := by
  simp only [cc2__hop_linear3_kernel_eq_skeleton]; unfold cc2__hop_linear3_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover2_o _)
  isplitl [H4]
  · iexists _; isplitr
    swap; · iexact H4
    ipureintro
    try dsimp only
    exact View.read_writes_eq_canon _ _ _ (cover2_o _)
  iexists _; isplitr
  swap; · iexact H5
  ipureintro
  try dsimp only
  exact View.read_writes_eq_canon _ _ _ (cover2_o _)

/-! ## The pipeline's proof data -/

/-- Proof data of pipeline 2 on core `c`: the arrays as the call finds them; after the body at point `t` every input
    buffer still at its block and output buffer j at `out2_(3+j)` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
    | ⟨5, _⟩ => out2_5 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]
theorem after2_4 (c : Dev nD) (t : Fin cfg2.N) :
    (dat2 V c).after 4 t = out2_4 (iblk2 V c 0 t) (iblk2 V c 1 t) (iblk2 V c 2 t) := by dsimp only [dat2]
theorem after2_5 (c : Dev nD) (t : Fin cfg2.N) :
    (dat2 V c).after 5 t = out2_5 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  The last call of @main: the final projection. One grid point takes a block of 2000 rows of the
  192 concatenated features, the whole 192×64 weight and the 1×64 bias row, and stores the block's
  2000×64 product plus bias. Here: the block each window holds at a point, the body's Hoare triple
  on whole staging buffers, the proof data of the pipeline (what every staging buffer holds after
  the body at each point), and the pipeline's body obligation, all at any entry contents `V` and any
  float instance.
-/
import proofs.«130113_j6828998001548_2_alg».proof.Proof.Gen.KernelIdeal.Launch
import proofs.«130113_j6828998001548_2_alg».proof.Proof.Gen.KernelIdeal.Skeleton
import proofs.«130113_j6828998001548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a region is entered from: every statement below is at this parameter
variable (V : (c : Dev nD) → (b : Ref sig .tc) → Buf (Elt F) ((c : Thread nD τ).loc b))

/-! ## The blocks the windows hold -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 of call 3: whatever proof data has the entry contents as its array and leaves the block in
    place, the staging buffer the body is handed holds the window's block at that point, fetched there or kept from
    the point before (the block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 of call 3: whatever proof data has the entry contents as its array and leaves the block in
    place, the staging buffer the body is handed holds the window's block at that point, fetched there or kept from
    the point before (the block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 of call 3: whatever proof data has the entry contents as its array and leaves the block in
    place, the staging buffer the body is handed holds the window's block at that point, fetched there or kept from
    the point before (the block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body loads and stores through: each is a whole staging buffer -/

abbrev r3_h : Rect S2000x192 := Rect.unit (s := S2000x192) ![0, 0] S2000x192.size inb_S2000x192_S2000x192_0_0
abbrev r3_w : Rect S192x64 := Rect.unit (s := S192x64) ![0, 0] S192x64.size inb_S192x64_S192x64_0_0
abbrev r3_b : Rect S1x64 := Rect.unit (s := S1x64) ![0, 0] S1x64.size inb_S1x64_S1x64_0_0
abbrev r3_o : Rect S2000x64 := Rect.unit (s := S2000x64) ![0, 0] S2000x64.size inb_S2000x64_S2000x64_0_0

/-- The output block after the body: its one store, the product-plus-bias payload of the three loaded blocks. -/
def out3_3 (x0 : Vec F S2000x192 .f32) (x1 : Vec F S192x64 .f32) (x2 : Vec F S1x64 .f32) : Vec F S2000x64 .f32 :=
  View.canon [⟨r3_o, k3_pay1 (View.ld x0 r3_h) (View.ld x1 r3_w) (View.ld x2 r3_b)⟩]

/-- The one store covers the output buffer. -/
theorem cover3_3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

/-! ## The body's triple -/

set_option maxHeartbeats 1000000 in
/-- On whole staging buffers, the inputs at contents `x0 x1 x2` and the output at anything, the body runs to its
    continuation with the inputs as they were and the output at `out3_3` of them (the output buffer is also loaded
    before the store; the loaded value is dropped). -/
theorem sound_kernel3 (c : Dev nD) (E : Set ℕ) (i : grid3.Coords) (arg1 : Memref sig .tc .vmem S2000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S2000x64 .f32) (harg4 : arg4.IsWhole)
    (x0 : Vec F S2000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__final_proj_kernel i arg1 harg1 arg2 harg2 arg3 harg3 arg4 harg4) K := by
  simp only [cc3__final_proj_kernel_eq_skeleton]; unfold cc3__final_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3_3 _)

/-! ## The pipeline's proof data -/

/-- Proof data of pipeline 3 on core `c`: the arrays as the call finds them; after the body at point `t` every input
    buffer still at its block and the output buffer at `out3_3` of the input blocks; the invariant is the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Chain.lean ====
/-
  @main from launch to return: three stretches of host operations, the first call, a stretch, the second and
  third calls, a stretch, the last call. The contents of every unscoped buffer are followed through the nine
  items (`B0` … `B9`): a host stretch applies its operations, a call puts back its arrays with each output
  array at what the grid's write-backs leave. Each call is a segment of the launch library over that thread
  state, and the launch theorem gives: every weakly fair execution terminates, nothing faults, and the final
  memory holds every unscoped buffer at `B9`. No item writes an argument array, so the arguments end as
  launched; the result buffer ends at the last call's output array.
-/
import proofs.«130113_j6828998001548_2_alg».proof.Proof.KI.Reg0
import proofs.«130113_j6828998001548_2_alg».proof.Proof.KI.Reg1
import proofs.«130113_j6828998001548_2_alg».proof.Proof.KI.Reg2
import proofs.«130113_j6828998001548_2_alg».proof.Proof.KI.Reg3
import proofs.«130113_j6828998001548_2_alg».proof.Proof.Gen.KernelIdeal.Regions

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev B0 : Dev nD → Valuation τ sig (Elt F) := fun c b => m ((c : Dev nD), b)
/-- After the first host stretch (the edge lists with self loops, the degrees, their inverse square roots). -/
abbrev B1 : Dev nD → Valuation τ sig (Elt F) := fun c => StableHlo.after hostOps0 (B0 m c)
/-- After the second (the guarded inverse square root). -/
abbrev B2 : Dev nD → Valuation τ sig (Elt F) := fun c => StableHlo.after hostOps0_1 (B1 m c)
/-- After the third (the edge weights): what call 0 is entered from. -/
abbrev B3 : Dev nD → Valuation τ sig (Elt F) := fun c => StableHlo.after hostOps0_2 (B2 m c)
abbrev T3 : (c : Dev nD) → (b : Ref sig .tc) → Buf (Elt F) ((c : Thread nD τ).loc b) := fun c b => B3 m c b

/-- After call 0: its arrays at what the pipeline's write-backs leave (an input array as entered, an output array its
    blocks folded in), every other buffer as entered. -/
def B4 (c : Dev nD) : Valuation τ sig (Elt F) :=
  Pipeline.withArrays spec0 c (B3 m c) fun w => (dat0 (T3 m) c).arrAt w cfg0.N
theorem B4_arr (c : Dev nD) (w : Fin cfg0.W) :
    B4 m c (Proc.devRef .tc (Pipeline.arrRef spec0 w)) = (dat0 (T3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
/-- The same contents read at the TensorCore's references. -/
abbrev T4 : (c : Dev nD) → (b : Ref sig .tc) → Buf (Elt F) ((c : Thread nD τ).loc b) := fun c b => B4 m c b
theorem hF0 (c : Dev nD) (w : Fin cfg0.W) : (dat0 (T3 m) c).arrAt w cfg0.N = T4 m c (Pipeline.arrRef spec0 w) :=
  (B4_arr m c w).symm
theorem hrest0 (c : Dev nD) : ∀ b, b ∉ Finset.univ.image (Pipeline.arrRef spec0) → T4 m c b = T3 m c b :=
  fun b hb => B4_of_ne m c b fun w e => hb (Finset.mem_image.mpr ⟨w, Finset.mem_univ _, e⟩)
/-- A buffer that is no output array of call 0 leaves the call as it entered: an input array is written back nowhere,
    any other buffer is not the call's. -/
theorem B4_keep (c : Dev nD) (b : Ref sig .tc) (hb : b ∉ ([main_v30_0, main_v30_1, main_v30_2] : List (Ref sig .tc))) :
    B4 m c (Proc.devRef .tc b) = B3 m c (Proc.devRef .tc b) := by
  by_cases h : ∃ w, Pipeline.arrRef spec0 w = b
  · obtain ⟨w, rfl⟩ := h
    by_cases hin : (cfg0.win w).isOut = false
    · exact (B4_arr m c w).trans (((dat0 (T3 m) c).arrAt_in w hin _).trans (A_eq0 (T3 m) c w))
    · exact absurd (show Pipeline.arrRef spec0 w ∈ ([main_v30_0, main_v30_1, main_v30_2] : List (Ref sig .tc)) from by
        revert hin; revert w; decide) hb
  · exact B4_of_ne m c b fun w e => h ⟨w, e⟩

/-- After the stretch between calls 0 and 1 (the propagations and the concatenation): what call 1 is entered from. -/
abbrev B5 : Dev nD → Valuation τ sig (Elt F) := fun c => StableHlo.after hostOps1 (B4 m c)
abbrev T5 : (c : Dev nD) → (b : Ref sig .tc) → Buf (Elt F) ((c : Thread nD τ).loc b) := fun c b => B5 m c b

/-- After call 1: its arrays at what the pipeline's write-backs leave (an input array as entered, an output array its
    blocks folded in), every other buffer as entered. -/
def B6 (c : Dev nD) : Valuation τ sig (Elt F) :=
  Pipeline.withArrays spec1 c (B5 m c) fun w => (dat1 (T5 m) c).arrAt w cfg1.N
theorem B6_arr (c : Dev nD) (w : Fin cfg1.W) :
    B6 m c (Proc.devRef .tc (Pipeline.arrRef spec1 w)) = (dat1 (T5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
/-- The same contents read at the TensorCore's references. -/
abbrev T6 : (c : Dev nD) → (b : Ref sig .tc) → Buf (Elt F) ((c : Thread nD τ).loc b) := fun c b => B6 m c b
theorem hF1 (c : Dev nD) (w : Fin cfg1.W) : (dat1 (T5 m) c).arrAt w cfg1.N = T6 m c (Pipeline.arrRef spec1 w) :=
  (B6_arr m c w).symm
theorem hrest1 (c : Dev nD) : ∀ b, b ∉ Finset.univ.image (Pipeline.arrRef spec1) → T6 m c b = T5 m c b :=
  fun b hb => B6_of_ne m c b fun w e => hb (Finset.mem_image.mpr ⟨w, Finset.mem_univ _, e⟩)
/-- A buffer that is no output array of call 1 leaves the call as it entered: an input array is written back nowhere,
    any other buffer is not the call's. -/
theorem B6_keep (c : Dev nD) (b : Ref sig .tc) (hb : b ∉ ([main_v75] : List (Ref sig .tc))) :
    B6 m c (Proc.devRef .tc b) = B5 m c (Proc.devRef .tc b) := by
  by_cases h : ∃ w, Pipeline.arrRef spec1 w = b
  · obtain ⟨w, rfl⟩ := h
    by_cases hin : (cfg1.win w).isOut = false
    · exact (B6_arr m c w).trans (((dat1 (T5 m) c).arrAt_in w hin _).trans (A_eq1 (T5 m) c w))
    · exact absurd (show Pipeline.arrRef spec1 w ∈ ([main_v75] : List (Ref sig .tc)) from by
        revert hin; revert w; decide) hb
  · exact B6_of_ne m c b fun w e => h ⟨w, e⟩

/-- After call 2: its arrays at what the pipeline's write-backs leave (an input array as entered, an output array its
    blocks folded in), every other buffer as entered. -/
def B7 (c : Dev nD) : Valuation τ sig (Elt F) :=
  Pipeline.withArrays spec2 c (B6 m c) fun w => (dat2 (T6 m) c).arrAt w cfg2.N
theorem B7_arr (c : Dev nD) (w : Fin cfg2.W) :
    B7 m c (Proc.devRef .tc (Pipeline.arrRef spec2 w)) = (dat2 (T6 m) c).arrAt w cfg2.N := by
  unfold B7; exact Pipeline.withArrays_arr spec2 launch2.win.arr_inj c _ _ w
theorem B7_of_ne (c : Dev nD) (b : Ref sig .tc) (hb : ∀ w, Pipeline.arrRef spec2 w ≠ b) :
    B7 m c (Proc.devRef .tc b) = B6 m c (Proc.devRef .tc b) := by
  unfold B7; exact Pipeline.withArrays_of_ne spec2 c _ _ b hb
/-- The same contents read at the TensorCore's references. -/
abbrev T7 : (c : Dev nD) → (b : Ref sig .tc) → Buf (Elt F) ((c : Thread nD τ).loc b) := fun c b => B7 m c b
theorem hF2 (c : Dev nD) (w : Fin cfg2.W) : (dat2 (T6 m) c).arrAt w cfg2.N = T7 m c (Pipeline.arrRef spec2 w) :=
  (B7_arr m c w).symm
theorem hrest2 (c : Dev nD) : ∀ b, b ∉ Finset.univ.image (Pipeline.arrRef spec2) → T7 m c b = T6 m c b :=
  fun b hb => B7_of_ne m c b fun w e => hb (Finset.mem_image.mpr ⟨w, Finset.mem_univ _, e⟩)
/-- A buffer that is no output array of call 2 leaves the call as it entered: an input array is written back nowhere,
    any other buffer is not the call's. -/
theorem B7_keep (c : Dev nD) (b : Ref sig .tc) (hb : b ∉ ([main_v76_0, main_v76_1, main_v76_2] : List (Ref sig .tc))) :
    B7 m c (Proc.devRef .tc b) = B6 m c (Proc.devRef .tc b) := by
  by_cases h : ∃ w, Pipeline.arrRef spec2 w = b
  · obtain ⟨w, rfl⟩ := h
    by_cases hin : (cfg2.win w).isOut = false
    · exact (B7_arr m c w).trans (((dat2 (T6 m) c).arrAt_in w hin _).trans (A_eq2 (T6 m) c w))
    · exact absurd (show Pipeline.arrRef spec2 w ∈ ([main_v76_0, main_v76_1, main_v76_2] : List (Ref sig .tc)) from by
        revert hin; revert w; decide) hb
  · exact B7_of_ne m c b fun w e => h ⟨w, e⟩

/-- After the stretch between calls 2 and 3: what call 3 is entered from. -/
abbrev B8 : Dev nD → Valuation τ sig (Elt F) := fun c => StableHlo.after hostOps3 (B7 m c)
abbrev T8 : (c : Dev nD) → (b : Ref sig .tc) → Buf (Elt F) ((c : Thread nD τ).loc b) := fun c b => B8 m c b

/-- After call 3: its arrays at what the pipeline's write-backs leave (an input array as entered, an output array its
    blocks folded in), every other buffer as entered. -/
def B9 (c : Dev nD) : Valuation τ sig (Elt F) :=
  Pipeline.withArrays spec3 c (B8 m c) fun w => (dat3 (T8 m) c).arrAt w cfg3.N
theorem B9_arr (c : Dev nD) (w : Fin cfg3.W) :
    B9 m c (Proc.devRef .tc (Pipeline.arrRef spec3 w)) = (dat3 (T8 m) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m c (Proc.devRef .tc b) = B8 m c (Proc.devRef .tc b) := by
  unfold B9; exact Pipeline.withArrays_of_ne spec3 c _ _ b hb
/-- The same contents read at the TensorCore's references. -/
abbrev T9 : (c : Dev nD) → (b : Ref sig .tc) → Buf (Elt F) ((c : Thread nD τ).loc b) := fun c b => B9 m c b
theorem hF3 (c : Dev nD) (w : Fin cfg3.W) : (dat3 (T8 m) c).arrAt w cfg3.N = T9 m c (Pipeline.arrRef spec3 w) :=
  (B9_arr m c w).symm
theorem hrest3 (c : Dev nD) : ∀ b, b ∉ Finset.univ.image (Pipeline.arrRef spec3) → T9 m c b = T8 m c b :=
  fun b hb => B9_of_ne m c b fun w e => hb (Finset.mem_image.mpr ⟨w, Finset.mem_univ _, e⟩)
/-- A buffer that is no output array of call 3 leaves the call as it entered: an input array is written back nowhere,
    any other buffer is not the call's. -/
theorem B9_keep (c : Dev nD) (b : Ref sig .tc) (hb : b ∉ ([main_v118] : List (Ref sig .tc))) :
    B9 m c (Proc.devRef .tc b) = B8 m c (Proc.devRef .tc b) := by
  by_cases h : ∃ w, Pipeline.arrRef spec3 w = b
  · obtain ⟨w, rfl⟩ := h
    by_cases hin : (cfg3.win w).isOut = false
    · exact (B9_arr m c w).trans (((dat3 (T8 m) c).arrAt_in w hin _).trans (A_eq3 (T8 m) c w))
    · exact absurd (show Pipeline.arrRef spec3 w ∈ ([main_v118] : List (Ref sig .tc)) from by
        revert hin; revert w; decide) hb
  · exact B9_of_ne m c b fun w e => h ⟨w, e⟩

/-! ## A buffer no item writes ends as launched -/

/-- A reference that no host operation writes and that is no call's output array holds its launch contents at the end. -/
theorem B9_of (c : Dev nD) (b : Ref sig .tc)
    (h0 : b ∉ hostOps0_W) (h1 : b ∉ hostOps0_1_W) (h2 : b ∉ hostOps0_2_W) (h4 : b ∉ hostOps1_W) (h7 : b ∉ hostOps3_W)
    (h3 : b ∉ ([main_v30_0, main_v30_1, main_v30_2] : List (Ref sig .tc))) (h5 : b ∉ ([main_v75] : List (Ref sig .tc)))
    (h6 : b ∉ ([main_v76_0, main_v76_1, main_v76_2] : List (Ref sig .tc))) (h8 : b ∉ ([main_v118] : List (Ref sig .tc))) :
    B9 m c (Proc.devRef .tc b) = m ((c : Thread nD τ).loc b) :=
  (B9_keep m c b h8).trans <| (StableHlo.after_of_writes_sub hostOps3 _ hostOps3_writes h7).trans <|
  (B7_keep m c b h6).trans <| (B6_keep m c b h5).trans <| (StableHlo.after_of_writes_sub hostOps1 _ hostOps1_writes h4).trans <|
  (B4_keep m c b h3).trans <| (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## The proof data family and the thread state -/

/-- No pipeline has a prefetched table. -/
abbrev adm : (p : Fin 4) → (pcfgs (F := F) p).Adm := fun p => (cfgs p).toPCfg_adm
/-- Every pipeline's proof data, each at the contents its call is entered from. -/
def pdats : (p : Fin 4) → (c : Dev nD) → Dat τ (Elt F) Unit ℕ (UR sig nD τ) ℕ (Pipeline.pin (pcfgs (F := F)) adm p) c
  | ⟨0, _⟩ => fun c => dat0 (T3 m) c
  | ⟨1, _⟩ => fun c => dat1 (T5 m) c
  | ⟨2, _⟩ => fun c => dat2 (T6 m) c
  | ⟨3, _⟩ => fun c => dat3 (T8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `B9`, the generator register at some state. -/
abbrev Tₙ (c : Dev nD) : sProp 𝕄 := iprop(StableHlo.held (c : Thread nD τ) (Pipeline.ucRefs τ sig) (B9 m c) ∗ ∃ r, prngReg c r)

/-! ## The calls as segments -/

-- a library lemma stated over the pinned configuration unifies with the printed one only when unification may unfold plain
-- definitions in a metavariable's type
set_option backward.isDefEq.respectTransparency.types false in
/-- Call 0 as a segment: entered with every unscoped buffer at `B3`, left with them at `B4`. At entry the call's
    arrays are split out of the unscoped buffers and at exit put back at what the write-backs leave; the generator
    register goes into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (T3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T3 m c) (T4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 1 as a segment: entered with every unscoped buffer at `B5`, left with them at `B6`. At entry the call's
    arrays are split out of the unscoped buffers and at exit put back at what the write-backs leave; the generator
    register goes into the pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (T5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T5 m c) (T6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 2 as a segment: entered with every unscoped buffer at `B6`, left with them at `B7`. At entry the call's
    arrays are split out of the unscoped buffers and at exit put back at what the write-backs leave; the generator
    register goes into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T6 m) c).loose
  hwaits := Pipeline.hwaits_of_owed_zero _ _ _ _ L lv 2 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec2 c (T6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T6 m c) (T7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Call 3 as a segment: entered with every unscoped buffer at `B8`, left with them at `B9`. At entry the call's
    arrays are split out of the unscoped buffers and at exit put back at what the write-backs leave; the generator
    register goes into the pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T8 m) c).loose
  hwaits := Pipeline.hwaits_of_owed_zero _ _ _ _ L lv 3 fun _ _ => rfl
  pre c := iprop(StableHlo.held (c : Thread nD τ) (Pipeline.ucRefs τ sig) (B8 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T8 m c) (T9 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine items in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .region (reg2 m),
    .host (hseg hostOps3 hostOps3_sub hostOps3_fresh (B7 m)),
    .region (reg3 m) ]

/-- @main is the run of the segments. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN at any float instance: from any memory with zero counters every weakly fair execution of @main on the
    TensorCores terminates, nothing faulting, and in every final state each unscoped buffer holds `B9`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-! ## The frame: the arguments end as launched -/

/-- An argument array, read in the final state of a run to `B9`, holds its launch contents. -/
theorem arg_kept (c : Dev nD) (s : MemSt nD τ sig (Elt F)) (h : ∀ b ∈ Pipeline.ucRefs τ sig, s.mem (((c : Thread nD τ)).1, b) = B9 m c b)
    (b : Ref sig .tc) (hu : ¬ (Proc.devRef .tc b : DevRef τ sig).isScoped)
    (h0 : b ∉ hostOps0_W) (h1 : b ∉ hostOps0_1_W) (h2 : b ∉ hostOps0_2_W) (h4 : b ∉ hostOps1_W) (h7 : b ∉ hostOps3_W)
    (h3 : b ∉ ([main_v30_0, main_v30_1, main_v30_2] : List (Ref sig .tc))) (h5 : b ∉ ([main_v75] : List (Ref sig .tc)))
    (h6 : b ∉ ([main_v76_0, main_v76_1, main_v76_2] : List (Ref sig .tc))) (h8 : b ∉ ([main_v118] : List (Ref sig .tc))) :
    s.mem ((c.tc : Thread nD τ).loc b) = m ((c.tc : Thread nD τ).loc b) :=
  (h _ (mem_uc b hu)).trans (B9_of m c b h0 h1 h2 h4 h7 h3 h5 h6 h8)

/-- The frame claim's post at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    arg_kept m c r.2 (h c) main_arg0 (by decide) (by decide) (by decide) (by decide) (by decide) (by decide) (by decide) (by decide) (by decide) (by decide),
    arg_kept m c r.2 (h c) main_arg1 (by decide) (by decide) (by decide) (by decide) (by decide) (by decide) (by decide) (by decide) (by decide) (by decide),
    arg_kept m c r.2 (h c) main_arg2 (by decide) (by decide) (by decide) (by decide) (by decide) (by decide) (by decide) (by decide) (by decide) (by decide),
    arg_kept m c r.2 (h c) main_arg3 (by decide) (by decide) (by decide) (by decide) (by decide) (by decide) (by decide) (by decide) (by decide) (by decide),
    arg_kept m c r.2 (h c) main_arg4 (by decide) (by decide) (by decide) (by decide) (by decide) (by decide) (by decide) (by decide) (by decide) (by decide),
    arg_kept m c r.2 (h c) main_arg5 (by decide) (by decide) (by decide) (by decide) (by decide) (by decide) (by decide) (by decide) (by decide) (by decide),
    arg_kept m c r.2 (h c) main_arg6 (by decide) (by decide) (by decide) (by decide) (by decide) (by decide) (by decide) (by decide) (by decide) (by decide),
    arg_kept m c r.2 (h c) main_arg7 (by decide) (by decide) (by decide) (by decide) (by decide) (by decide) (by decide) (by decide) (by decide) (by decide),
    arg_kept m c r.2 (h c) main_arg8 (by decide) (by decide) (by decide) (by decide) (by decide) (by decide) (by decide) (by decide) (by decide) (by decide),
    arg_kept m c r.2 (h c) main_arg9 (by decide) (by decide) (by decide) (by decide) (by decide) (by decide) (by decide) (by decide) (by decide) (by decide),
    arg_kept m c r.2 (h c) main_arg10 (by decide) (by decide) (by decide) (by decide) (by decide) (by decide) (by decide) (by decide) (by decide) (by decide),
    arg_kept m c r.2 (h c) main_arg11 (by decide) (by decide) (by decide) (by decide) (by decide) (by decide) (by decide) (by decide) (by decide) (by decide)⟩)
    (run_all m ρ)

end Cert.KernelIdeal.Hand

end
-- ==== Proof.LibNaryThree.lean ====
/-
  GENERAL LEMMA: the result of a host operation over a literal family of three operand buffers.

  A concatenation of three arrays is one operation reading a family of three buffers. Its result, read at the
  operation's own result buffer, is the operation's function of the three operands' contents, each named at its own
  buffer (rather than through the family under a binder), so that the contents of each operand can go on being
  rewritten to what the earlier operations wrote there.
-/
import Idealize.ShloMosaic.Lib.StableHlo.Run

noncomputable section

namespace Idealize.ShloMosaic.StableHlo

variable {τ : Topo} {sig : RefSig} {Val : EltTy → Type}

/-- The result of an operation over the three buffers `![x, a, b]`, at its result buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.LibHostRead.lean ====
/-
  Reading a stretch of host operations at one of its result buffers.

  The contents after a list of host operations is a fold; at a result buffer it is that operation's function of
  its operands' contents, each read in turn from the operations before. One pass of rewriting opens the whole
  fold. A three-operand concatenation reads a family of three buffers; its result is stated with each operand
  named at its own buffer, so that the pass goes on into the operands.
-/
import proofs.«130113_j6828998001548_2_alg».proof.Proof.LibNaryThree
import Idealize.ShloMosaic.Lib.StableHlo.Run

noncomputable section

namespace Idealize.ShloMosaic.StableHlo

variable {τ : Topo} {sig : RefSig} {Val : EltTy → Type}

/-- The three-operand result, keyed for the rewriting pass on the operation alone. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads its three operands one by one, `fun u => g (u 0) (u 1) (u 2)` (a
    concatenation of three arrays): the result is `g` of the three operands' contents. -/
theorem nary3_result_fn {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  nary3_result (fun u => g (u 0) (u 1) (u 2)) hxs hy F

/-- Open the fold of a stretch of host operations at a buffer: every operation's result at its own buffer, every other
    buffer passed through (the buffers' inequalities decided). -/
macro "host_read" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefCut.lean ====
/-
  The reference program's line of 209 host operations, cut into stretches, and its first stretch.

  The contents of the buffers after the line are a fold over the list. The contents after the first k operations are
  named; the next j operations take them to the contents after k + j. A stretch is then read with the contents before
  it held as an unknown that is known only at the few buffers the stretch reads — the arguments, which no operation
  writes, and the stages the stretches before produced — and within the stretch every operation is read at its own
  buffer from the operations before it. Each stage's definition is its operation applied to the earlier stages, so what
  a stretch leaves at a buffer is the stage of that name. Here: the cutting, and the edge data (operations 0 – 39).
-/
import proofs.«130113_j6828998001548_2_alg».proof.Proof.RefOpsP
import proofs.«130113_j6828998001548_2_alg».proof.Proof.RefReadP
import proofs.«130113_j6828998001548_2_alg».proof.Proof.LibHostRead
import Idealize.ShloMosaic.PureOps.Ideal

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

/-! ## Cutting the line -/

/-- The contents after two lines run one after the other. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => after_append l l₂ (op.result V)

variable (m : (ℓ : Loc nD τ sig) → Buf (Elt Ideal) ℓ) (c : Dev nD)

/-- The contents after the first `k` operations. -/
def upTo (k : Nat) : Valuation τ sig (Elt Ideal) := after ((OpsP.ops (F := Ideal)).take k) (launchContents m c)

/-- The next `j` operations take the contents after `k` to the contents after `k + j`. -/
theorem upTo_add (k j : Nat) :
    upTo m c (k + j) = after (((OpsP.ops (F := Ideal)).drop k).take j) (upTo m c k) := by
  unfold upTo
  rw [List.take_add, after_append]

/-- All 209 of them are the line. -/
theorem upTo_all : upTo m c 209 = after (OpsP.ops (F := Ideal)) (launchContents m c) := by
  unfold upTo
  rw [List.take_of_length_le (by decide)]

/-! ## The edge data: operations 0 – 39

The edge list with a self loop per node, each node's degree and its inverse square root guarded at zero (an outlined
function: its operations carry a change of buffer type that is the identity), and each edge's weight. -/

/-- The source list with self loops. -/
theorem at18_v5 : upTo m c 18 (Proc.devRef .tc main_v5) = val_main_v5 (F := Ideal) (m ((c.tc : Thread nD τ).loc main_arg1)) := by
  show after (List.take 18 (OpsP.ops (F := Ideal))) (launchContents m c) (Proc.devRef .tc main_v5) = _
  simp only [OpsP.ops, List.drop_succ_cons, List.drop_zero, List.take_succ_cons, List.take_zero]
  host_read
  try rfl

/-- The destination list with self loops. -/
theorem at18_v6 : upTo m c 18 (Proc.devRef .tc main_v6) = val_main_v6 (F := Ideal) (m ((c.tc : Thread nD τ).loc main_arg1)) := by
  show after (List.take 18 (OpsP.ops (F := Ideal))) (launchContents m c) (Proc.devRef .tc main_v6) = _
  simp only [OpsP.ops, List.drop_succ_cons, List.drop_zero, List.take_succ_cons, List.take_zero]
  host_read
  try rfl

/-- Is a node's degree positive. -/
theorem at18_v12 : upTo m c 18 (Proc.devRef .tc main_v12) = val_main_v12 (F := Ideal) (m ((c.tc : Thread nD τ).loc main_arg1)) := by
  show after (List.take 18 (OpsP.ops (F := Ideal))) (launchContents m c) (Proc.devRef .tc main_v12) = _
  simp only [OpsP.ops, List.drop_succ_cons, List.drop_zero, List.take_succ_cons, List.take_zero]
  host_read
  try rfl

/-- The inverse square root of a node's degree. -/
theorem at18_v13 : upTo m c 18 (Proc.devRef .tc main_v13) = val_main_v13 (F := Ideal) (m ((c.tc : Thread nD τ).loc main_arg1)) := by
  show after (List.take 18 (OpsP.ops (F := Ideal))) (launchContents m c) (Proc.devRef .tc main_v13) = _
  simp only [OpsP.ops, List.drop_succ_cons, List.drop_zero, List.take_succ_cons, List.take_zero]
  host_read
  try rfl

/-- The zero that replaces it at degree zero. -/
theorem at18_cst_2 : upTo m c 18 (Proc.devRef .tc main_cst_2) = val_main_cst_2 (F := Ideal) := by
  show after (List.take 18 (OpsP.ops (F := Ideal))) (launchContents m c) (Proc.devRef .tc main_cst_2) = _
  simp only [OpsP.ops, List.drop_succ_cons, List.drop_zero, List.take_succ_cons, List.take_zero]
  host_read
  try rfl

/-- The guarded inverse square root. -/
theorem at21_v14 : upTo m c 21 (Proc.devRef .tc main_v14) = val_main_v14 (F := Ideal) (m ((c.tc : Thread nD τ).loc main_arg1)) := by
  have h0 := at18_v12 m c
  have h1 := at18_v13 m c
  have h2 := at18_cst_2 m c
  show upTo m c (18 + 3) (Proc.devRef .tc main_v14) = _
  rw [upTo_add]
  simp only [OpsP.ops, List.drop_succ_cons, List.drop_zero, List.take_succ_cons, List.take_zero]
  generalize upTo m c 18 = W at h0 h1 h2 ⊢
  host_read
  simp only [TRef.toBuf, TRef.ofBuf, cast_eq]
  rw [h0, h1, h2]
  rfl

theorem at21_v5 : upTo m c 21 (Proc.devRef .tc main_v5) = val_main_v5 (F := Ideal) (m ((c.tc : Thread nD τ).loc main_arg1)) := by
  have h := at18_v5 m c
  show upTo m c (18 + 3) (Proc.devRef .tc main_v5) = _
  rw [upTo_add]
  simp only [OpsP.ops, List.drop_succ_cons, List.drop_zero, List.take_succ_cons, List.take_zero]
  generalize upTo m c 18 = W at h ⊢
  host_read
  exact h

theorem at21_v6 : upTo m c 21 (Proc.devRef .tc main_v6) = val_main_v6 (F := Ideal) (m ((c.tc : Thread nD τ).loc main_arg1)) := by
  have h := at18_v6 m c
  show upTo m c (18 + 3) (Proc.devRef .tc main_v6) = _
  rw [upTo_add]
  simp only [OpsP.ops, List.drop_succ_cons, List.drop_zero, List.take_succ_cons, List.take_zero]
  generalize upTo m c 18 = W at h ⊢
  host_read
  exact h

/-- The edge weights. -/
theorem at40_v29 : upTo m c 40 (Proc.devRef .tc main_v29) = val_main_v29 (F := Ideal) (m ((c.tc : Thread nD τ).loc main_arg1)) := by
  have h0 := at21_v14 m c
  have h1 := at21_v5 m c
  have h2 := at21_v6 m c
  show upTo m c (21 + 19) (Proc.devRef .tc main_v29) = _
  rw [upTo_add]
  simp only [OpsP.ops, List.drop_succ_cons, List.drop_zero, List.take_succ_cons, List.take_zero]
  generalize upTo m c 21 = W at h0 h1 h2 ⊢
  host_read
  rw [h0, h1, h2]
  rfl

theorem at40_v5 : upTo m c 40 (Proc.devRef .tc main_v5) = val_main_v5 (F := Ideal) (m ((c.tc : Thread nD τ).loc main_arg1)) := by
  have h := at21_v5 m c
  show upTo m c (21 + 19) (Proc.devRef .tc main_v5) = _
  rw [upTo_add]
  simp only [OpsP.ops, List.drop_succ_cons, List.drop_zero, List.take_succ_cons, List.take_zero]
  generalize upTo m c 21 = W at h ⊢
  host_read
  exact h

theorem at40_v6 : upTo m c 40 (Proc.devRef .tc main_v6) = val_main_v6 (F := Ideal) (m ((c.tc : Thread nD τ).loc main_arg1)) := by
  have h := at21_v6 m c
  show upTo m c (21 + 19) (Proc.devRef .tc main_v6) = _
  rw [upTo_add]
  simp only [OpsP.ops, List.drop_succ_cons, List.drop_zero, List.take_succ_cons, List.take_zero]
  generalize upTo m c 21 = W at h ⊢
  host_read
  exact h

end Cert.ReferenceIdeal.RunH

end
-- ==== Proof.RefHead.lean ====
/-
  The reference's first layer and the normalisation after it, read off the cut line.

  Operations 40 – 112 are three linear maps of the node features, the second propagated once and the third twice along
  the edges, laid side by side; operations 113 – 131 normalise every entry with its column's scale, shift, mean and
  variance and clamp it at zero (the clamp is an outlined function: its operations carry a change of buffer type that is
  the identity). Each stretch is read with the contents before it known only at the arguments and at the stages the
  stretches before produced.
-/
import proofs.«130113_j6828998001548_2_alg».proof.Proof.RefCut

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (c : Dev nD)

/-! ## The first layer: operations 40 – 112

Three linear maps of the node features, the second propagated once and the third twice along the edges, laid side by
side. -/

/-- No operation writes an argument: it holds its launch contents at every cut. -/
theorem at40_arg0 : upTo m c 40 (Proc.devRef .tc main_arg0) = (m ((c.tc : Thread nD τ).loc main_arg0)) := by
  show after (List.take 40 (OpsP.ops (F := Ideal))) (launchContents m c) (Proc.devRef .tc main_arg0) = _
  simp only [OpsP.ops, List.drop_succ_cons, List.drop_zero, List.take_succ_cons, List.take_zero]
  host_read
  try rfl

theorem at40_arg2 : upTo m c 40 (Proc.devRef .tc main_arg2) = (m ((c.tc : Thread nD τ).loc main_arg2)) := by
  show after (List.take 40 (OpsP.ops (F := Ideal))) (launchContents m c) (Proc.devRef .tc main_arg2) = _
  simp only [OpsP.ops, List.drop_succ_cons, List.drop_zero, List.take_succ_cons, List.take_zero]
  host_read
  try rfl

theorem at40_arg3 : upTo m c 40 (Proc.devRef .tc main_arg3) = (m ((c.tc : Thread nD τ).loc main_arg3)) := by
  show after (List.take 40 (OpsP.ops (F := Ideal))) (launchContents m c) (Proc.devRef .tc main_arg3) = _
  simp only [OpsP.ops, List.drop_succ_cons, List.drop_zero, List.take_succ_cons, List.take_zero]
  host_read
  try rfl

set_option maxRecDepth 200000 in
set_option maxHeartbeats 4000000 in
/-- The three maps side by side. -/
theorem at113_v93 : upTo m c 113 (Proc.devRef .tc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) := by
  have h0 := at40_arg0 m c
  have h1 := at40_arg2 m c
  have h2 := at40_arg3 m c
  have h3 := at40_v5 m c
  have h4 := at40_v6 m c
  have h5 := at40_v29 m c
  show upTo m c (40 + 73) (Proc.devRef .tc main_v93) = _
  rw [upTo_add]
  simp only [OpsP.ops, List.drop_succ_cons, List.drop_zero, List.take_succ_cons, List.take_zero]
  generalize upTo m c 40 = W at h0 h1 h2 h3 h4 h5 ⊢
  simp only [after_cons, after_nil]
  refine (nary3_result_fn (x := main_v37) (a := main_v58) (b := main_v92) (y := main_v93)
    (g := fun p q r => concatenate S50000x288 1 [⟨S50000x96, p⟩, ⟨S50000x96, q⟩, ⟨S50000x96, r⟩] concatenates_S50000x96_S50000x96_S50000x96_S50000x288_d1) _ _ _).trans ?_
  have key : ∀ (p q r : (⟨S50000x96, .f32⟩ : BufTy).Contents (Elt Ideal)),
      p = val_main_v37 (F := Ideal) (m ((c.tc : Thread nD τ).loc main_arg0)) (m ((c.tc : Thread nD τ).loc main_arg2)) (m ((c.tc : Thread nD τ).loc main_arg3)) →
      q = val_main_v58 (F := Ideal) (m ((c.tc : Thread nD τ).loc main_arg0)) (m ((c.tc : Thread nD τ).loc main_arg1)) (m ((c.tc : Thread nD τ).loc main_arg2)) (m ((c.tc : Thread nD τ).loc main_arg3)) →
      r = val_main_v92 (F := Ideal) (m ((c.tc : Thread nD τ).loc main_arg0)) (m ((c.tc : Thread nD τ).loc main_arg1)) (m ((c.tc : Thread nD τ).loc main_arg2)) (m ((c.tc : Thread nD τ).loc main_arg3)) →
      concatenate S50000x288 1 [⟨S50000x96, p⟩, ⟨S50000x96, q⟩, ⟨S50000x96, r⟩] concatenates_S50000x96_S50000x96_S50000x96_S50000x288_d1
        = val_main_v93 (F := Ideal) (m ((c.tc : Thread nD τ).loc main_arg0)) (m ((c.tc : Thread nD τ).loc main_arg1)) (m ((c.tc : Thread nD τ).loc main_arg2)) (m ((c.tc : Thread nD τ).loc main_arg3)) := by
    intro p q r hp hq hr; subst hp hq hr; rfl
  refine key _ _ _ ?_ ?_ ?_
  · host_read
    rw [h0, h1, h2]
    rfl
  · host_read
    rw [h4, h5, h0, h1, h2, h3]
    rfl
  · host_read
    rw [h4, h5, h0, h1, h2, h3]
    rfl

/-! ## The normalisation: operations 113 – 131 -/

set_option maxHeartbeats 4000000 in
theorem at113_arg6 : upTo m c 113 (Proc.devRef .tc main_arg6) = (m ((c.tc : Thread nD τ).loc main_arg6)) := by
  show after (List.take 113 (OpsP.ops (F := Ideal))) (launchContents m c) (Proc.devRef .tc main_arg6) = _
  simp only [OpsP.ops, List.drop_succ_cons, List.drop_zero, List.take_succ_cons, List.take_zero]
  host_read
  try rfl

set_option maxHeartbeats 4000000 in
theorem at113_arg7 : upTo m c 113 (Proc.devRef .tc main_arg7) = (m ((c.tc : Thread nD τ).loc main_arg7)) := by
  show after (List.take 113 (OpsP.ops (F := Ideal))) (launchContents m c) (Proc.devRef .tc main_arg7) = _
  simp only [OpsP.ops, List.drop_succ_cons, List.drop_zero, List.take_succ_cons, List.take_zero]
  host_read
  try rfl

set_option maxHeartbeats 4000000 in
theorem at113_arg8 : upTo m c 113 (Proc.devRef .tc main_arg8) = (m ((c.tc : Thread nD τ).loc main_arg8)) := by
  show after (List.take 113 (OpsP.ops (F := Ideal))) (launchContents m c) (Proc.devRef .tc main_arg8) = _
  simp only [OpsP.ops, List.drop_succ_cons, List.drop_zero, List.take_succ_cons, List.take_zero]
  host_read
  try rfl

set_option maxHeartbeats 4000000 in
theorem at113_arg9 : upTo m c 113 (Proc.devRef .tc main_arg9) = (m ((c.tc : Thread nD τ).loc main_arg9)) := by
  show after (List.take 113 (OpsP.ops (F := Ideal))) (launchContents m c) (Proc.devRef .tc main_arg9) = _
  simp only [OpsP.ops, List.drop_succ_cons, List.drop_zero, List.take_succ_cons, List.take_zero]
  host_read
  try rfl

set_option maxHeartbeats 4000000 in
/-- The normalised entries before the clamp. -/
theorem at129_v108 : upTo m c 129 (Proc.devRef .tc main_v108) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := by
  have h0 := at113_arg6 m c
  have h1 := at113_arg7 m c
  have h2 := at113_arg8 m c
  have h3 := at113_arg9 m c
  have h4 := at113_v93 m c
  show upTo m c (113 + 16) (Proc.devRef .tc main_v108) = _
  rw [upTo_add]
  simp only [OpsP.ops, List.drop_succ_cons, List.drop_zero, List.take_succ_cons, List.take_zero]
  generalize upTo m c 113 = W at h0 h1 h2 h3 h4 ⊢
  host_read
  rw [h0, h1, h2, h3, h4]
  rfl

/-- Clamped at zero: what the second layer is entered with. -/
theorem at132_v109 : upTo m c 132 (Proc.devRef .tc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := by
  have h0 := at129_v108 m c
  show upTo m c (129 + 3) (Proc.devRef .tc main_v109) = _
  rw [upTo_add]
  simp only [OpsP.ops, List.drop_succ_cons, List.drop_zero, List.take_succ_cons, List.take_zero]
  generalize upTo m c 129 = W at h0 ⊢
  host_read
  simp only [TRef.toBuf, TRef.ofBuf, cast_eq]
  rw [h0]
  rfl

end Cert.ReferenceIdeal.RunH

end
-- ==== Proof.RefTail.lean ====
/-
  The reference program's last two stretches. Operations 132 – 204: the second layer's three linear maps of the
  normalised features, the second propagated once and the third twice along the edges, laid side by side. Operations
  205 – 208: the last linear map and its bias. Each stretch is read with the contents before it held as an unknown that is
  known only at the few buffers the stretch reads: the arguments, which no operation writes, the edge data, which nothing
  after operation 39 writes, and the stage the stretch before produced.
-/
import proofs.«130113_j6828998001548_2_alg».proof.Proof.RefCut

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (c : Dev nD)

/-! ## What the last two stretches read besides the stage before them -/

/-- No operation writes an argument: it holds its launch contents at every cut. -/
theorem tail132_arg4 : upTo m c 132 (Proc.devRef .tc main_arg4) = (m ((c.tc : Thread nD τ).loc main_arg4)) := by
  show after (List.take 132 (OpsP.ops (F := Ideal))) (launchContents m c) (Proc.devRef .tc main_arg4) = _
  simp only [OpsP.ops, List.take_succ_cons, List.take_zero]
  host_read
  try rfl

theorem tail132_arg5 : upTo m c 132 (Proc.devRef .tc main_arg5) = (m ((c.tc : Thread nD τ).loc main_arg5)) := by
  show after (List.take 132 (OpsP.ops (F := Ideal))) (launchContents m c) (Proc.devRef .tc main_arg5) = _
  simp only [OpsP.ops, List.take_succ_cons, List.take_zero]
  host_read
  try rfl

theorem tail132_arg10 : upTo m c 132 (Proc.devRef .tc main_arg10) = (m ((c.tc : Thread nD τ).loc main_arg10)) := by
  show after (List.take 132 (OpsP.ops (F := Ideal))) (launchContents m c) (Proc.devRef .tc main_arg10) = _
  simp only [OpsP.ops, List.take_succ_cons, List.take_zero]
  host_read
  try rfl

theorem tail132_arg11 : upTo m c 132 (Proc.devRef .tc main_arg11) = (m ((c.tc : Thread nD τ).loc main_arg11)) := by
  show after (List.take 132 (OpsP.ops (F := Ideal))) (launchContents m c) (Proc.devRef .tc main_arg11) = _
  simp only [OpsP.ops, List.take_succ_cons, List.take_zero]
  host_read
  try rfl

/-- The edge data pass operations 40 – 131 untouched. -/
theorem tail132_v5 : upTo m c 132 (Proc.devRef .tc main_v5) = val_main_v5 (F := Ideal) (m ((c.tc : Thread nD τ).loc main_arg1)) := by
  have h := at40_v5 m c
  show upTo m c (40 + 92) (Proc.devRef .tc main_v5) = _
  rw [upTo_add]
  simp only [OpsP.ops, List.drop_succ_cons, List.drop_zero, List.take_succ_cons, List.take_zero]
  generalize upTo m c 40 = W at h ⊢
  host_read
  exact h

theorem tail132_v6 : upTo m c 132 (Proc.devRef .tc main_v6) = val_main_v6 (F := Ideal) (m ((c.tc : Thread nD τ).loc main_arg1)) := by
  have h := at40_v6 m c
  show upTo m c (40 + 92) (Proc.devRef .tc main_v6) = _
  rw [upTo_add]
  simp only [OpsP.ops, List.drop_succ_cons, List.drop_zero, List.take_succ_cons, List.take_zero]
  generalize upTo m c 40 = W at h ⊢
  host_read
  exact h

theorem tail132_v29 : upTo m c 132 (Proc.devRef .tc main_v29) = val_main_v29 (F := Ideal) (m ((c.tc : Thread nD τ).loc main_arg1)) := by
  have h := at40_v29 m c
  show upTo m c (40 + 92) (Proc.devRef .tc main_v29) = _
  rw [upTo_add]
  simp only [OpsP.ops, List.drop_succ_cons, List.drop_zero, List.take_succ_cons, List.take_zero]
  generalize upTo m c 40 = W at h ⊢
  host_read
  exact h

/-- The last two arguments pass operations 132 – 204 untouched. -/
theorem tail205_arg10 : upTo m c 205 (Proc.devRef .tc main_arg10) = (m ((c.tc : Thread nD τ).loc main_arg10)) := by
  have h := tail132_arg10 m c
  show upTo m c (132 + 73) (Proc.devRef .tc main_arg10) = _
  rw [upTo_add]
  simp only [OpsP.ops, List.drop_succ_cons, List.drop_zero, List.take_succ_cons, List.take_zero]
  generalize upTo m c 132 = W at h ⊢
  host_read
  exact h

theorem tail205_arg11 : upTo m c 205 (Proc.devRef .tc main_arg11) = (m ((c.tc : Thread nD τ).loc main_arg11)) := by
  have h := tail132_arg11 m c
  show upTo m c (132 + 73) (Proc.devRef .tc main_arg11) = _
  rw [upTo_add]
  simp only [OpsP.ops, List.drop_succ_cons, List.drop_zero, List.take_succ_cons, List.take_zero]
  generalize upTo m c 132 = W at h ⊢
  host_read
  exact h

/-! ## Operations 132 – 204 -/

set_option maxRecDepth 200000 in
set_option maxHeartbeats 4000000 in
/-- The three propagated maps of the second layer side by side, given the normalised features at their stage. -/
theorem at205_v173
    (h109 : upTo m c 132 (Proc.devRef .tc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) :
    upTo m c 205 (Proc.devRef .tc main_v173) = val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h5 := tail132_v5 m c
  have h6 := tail132_v6 m c
  have h29 := tail132_v29 m c
  have ha4 := tail132_arg4 m c
  have ha5 := tail132_arg5 m c
  show upTo m c (132 + 73) (Proc.devRef .tc main_v173) = _
  rw [upTo_add]
  simp only [OpsP.ops, List.drop_succ_cons, List.drop_zero, List.take_succ_cons, List.take_zero]
  generalize upTo m c 132 = W at h109 h5 h6 h29 ha4 ha5 ⊢
  simp only [after_cons, after_nil]
  refine (nary3_result_fn (x := main_v117) (a := main_v138) (b := main_v172) (y := main_v173)
    (g := fun p q r => concatenate S50000x192 1 [⟨S50000x64, p⟩, ⟨S50000x64, q⟩, ⟨S50000x64, r⟩] concatenates_S50000x64_S50000x64_S50000x64_S50000x192_d1) _ _ _).trans ?_
  have key : ∀ (p q r : (⟨S50000x64, .f32⟩ : BufTy).Contents (Elt Ideal)),
      p = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) →
      q = val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) →
      r = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) →
      concatenate S50000x192 1 [⟨S50000x64, p⟩, ⟨S50000x64, q⟩, ⟨S50000x64, r⟩] concatenates_S50000x64_S50000x64_S50000x64_S50000x192_d1
        = val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    intro p q r hp hq hr; subst hp hq hr; rfl
  refine key _ _ _ ?_ ?_ ?_
  · host_read
    rw [h109, ha4, ha5]
    rfl
  · host_read
    rw [h6, h29, h109, ha4, ha5, h5]
    rfl
  · host_read
    rw [h6, h29, h109, ha4, ha5, h5]
    rfl

/-! ## Operations 205 – 208 -/

/-- The reference's last stage, given the normalised features at their stage. -/
theorem at209_v177
    (h109 : upTo m c 132 (Proc.devRef .tc main_v109) = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) :
    upTo m c 209 (Proc.devRef .tc main_v177) = val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h173 := at205_v173 m c h109
  have ha10 := tail205_arg10 m c
  have ha11 := tail205_arg11 m c
  show upTo m c (205 + 4) (Proc.devRef .tc main_v177) = _
  rw [upTo_add]
  simp only [OpsP.ops, List.drop_succ_cons, List.drop_zero, List.take_succ_cons, List.take_zero]
  generalize upTo m c 205 = W at h173 ha10 ha11 ⊢
  host_read
  rw [h173, ha10, ha11]
  rfl

end Cert.ReferenceIdeal.RunH

end
-- ==== Proof.RefRunH.lean ====
/-
  The reference program's run.

  The program is a straight line of 209 host operations. Read stretch by stretch (the cut line and its edge data; the
  first layer and the normalisation; the second layer and the last linear map), the contents of the result buffer after
  the whole line are the last stage of the arguments' launch contents, and no operation writes an argument. Every weakly
  fair execution of the line terminates with each buffer at the fold of the operations over the launch contents; so it
  terminates with the result at that stage and the arguments unchanged.
-/
import proofs.«130113_j6828998001548_2_alg».proof.Proof.RefHead
import proofs.«130113_j6828998001548_2_alg».proof.Proof.RefTail

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

/-- After the whole line the result buffer holds the last stage of the arguments' launch contents. -/
theorem ref_value (m : (ℓ : Loc nD τ sig) → Buf (Elt Ideal) ℓ) (c : Dev nD) :
    after (OpsP.ops (F := Ideal)) (launchContents m c) (Proc.devRef .tc main_v177)
      = val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (congrFun (upTo_all m c).symm _).trans (at209_v177 m c (at132_v109 m c))

set_option maxRecDepth 8192 in
set_option maxHeartbeats 83600000 in
/-- On every device, from any memory with zero counters: every weakly fair execution of the reference's @main
    terminates with its result buffer at the last stage of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v177) = val_main_v177 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v177).trans (ref_value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq OpsP.scopedRefs_eq OpsP.scopedSems_eq defs main (fun _ => OpsP.ops) OpsP.main_eq (fun _ => OpsP.ops_sub) m ρ)

end Cert.ReferenceIdeal.RunH

end
-- ==== Proof.Spec.lean ====
/-
  What the four calls compute, entry by entry, on the extended reals.

  A layer applies three linear maps to the same rows: entry (r, q) of map j is the sum over k of
  X (r, k) · W (j, k, q), plus the bias b (j, q). Between the two layers every entry is normalised
  with its column's scale, shift, mean and variance and clamped at zero. The last call is one more
  linear map with a single bias row. Each is stated as ONE function of whole arrays, over literal
  extents; a change of float format does not appear because at the exact values it is the identity.
-/
import Idealize.ShloMosaic.PureOps.Ideal
import Idealize.ShloMosaic.Lib.ValueIdx

noncomputable section

namespace Cert.Spec

open Idealize.ShloMosaic Idealize.ShloMosaic.ValueIdx

/-- An array of extended reals over a shape. -/
abbrev Arr (s : Shape) : Type := s.Idx → EReal

/-- First layer, map `j`: rows of `X` times slab `j` of the weight stack, plus row `j` of the bias matrix. -/
def lin0 (j : Fin 3) (X : Arr ⟨2, ![50000, 128]⟩) (W : Arr ⟨3, ![3, 128, 96]⟩) (b : Arr ⟨2, ![3, 96]⟩) : Arr ⟨2, ![50000, 96]⟩ :=
  fun i => (∑ k : Fin 128, X (ix2 (i 0) k) * W (ix3 j k (i 1))) + b (ix2 j (i 1))

/-- Second layer, map `j`. -/
def lin1 (j : Fin 3) (X : Arr ⟨2, ![50000, 288]⟩) (W : Arr ⟨3, ![3, 288, 64]⟩) (b : Arr ⟨2, ![3, 64]⟩) : Arr ⟨2, ![50000, 64]⟩ :=
  fun i => (∑ k : Fin 288, X (ix2 (i 0) k) * W (ix3 j k (i 1))) + b (ix2 j (i 1))

/-- Between the layers: scale · (h − mean) · rsqrt(variance + ε) + shift, clamped below at zero; the four parameter rows
    are 1×288 and every row of `H` meets the same one. ε and the clamp are the two float literals of the programs. -/
def bnrelu (H : Arr ⟨2, ![50000, 288]⟩) (g be mu var : Arr ⟨2, ![1, 288]⟩) : Arr ⟨2, ![50000, 288]⟩ :=
  fun i => max (g (ix2 0 (i 1)) * (H i - mu (ix2 0 (i 1))) * Ideal.rsqrt (var (ix2 0 (i 1)) + Ideal.ofBits .f32 0x3727C5AC#32)
    + be (ix2 0 (i 1))) (Ideal.ofBits .f32 0x00000000#32)

/-- The last linear map: rows of `H` times the 192×64 weight plus the one bias row. -/
def proj (H : Arr ⟨2, ![50000, 192]⟩) (W : Arr ⟨2, ![192, 64]⟩) (b : Arr ⟨2, ![1, 64]⟩) : Arr ⟨2, ![50000, 64]⟩ :=
  fun i => (∑ k : Fin 192, H (ix2 (i 0) k) * W (ix2 k (i 1))) + b (ix2 0 (i 1))

end Cert.Spec

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KI.Val0.lean ====
/-
  The first call's three outputs as whole arrays.

  Entry (p, q) of the body's payload for map j is the sum over k of the row block's (p, k) times the weight slab's
  (k, q), plus the bias row's q: the change of float format is the identity at the exact values, the casts only drop or
  add a unit axis, and the broadcast repeats the one bias row. A grid point's write-back is therefore the point's row
  block of the layer's function of the arrays the call was entered with; the 25 row blocks tile the 50000 rows; so
  after the grid each output array is that function.
-/
import proofs.«130113_j6828998001548_2_alg».proof.Proof.KI.Reg0
import proofs.«130113_j6828998001548_2_alg».proof.Proof.Spec
import proofs.«130113_j6828998001548_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The payload at an entry -/

/-- Entry (p, q) of the first map's payload: row p of the block against column q of the weight slab, plus the bias. -/
theorem pay0_apply (x0 : Vec Ideal S2000x128 .f32) (w : Vec Ideal S1x128x96 .f32) (b : Vec Ideal S1x96 .f32)
    (p : Fin 2000) (q : Fin 96) :
    k0_pay2 (F := Ideal) x0 w b (ix2 p q)
      = (∑ k : Fin 128, x0 (ix2 p k) * w (ix3 (0 : Fin 1) k q)) + b (ix2 (0 : Fin 1) q) := by
  unfold k0_pay2
  refine (addf_apply _ _ _).trans ?_
  refine congrArg₂ (· + ·) ?_ ?_
  · refine (PlainDot.matmul_zero_apply dot_S2000x128_S128x96_S2000x96_1_0_0_1_n_n rfl none _ _ (ix2 p q)).trans ?_
    refine Finset.sum_congr rfl fun k _ => ?_
    refine congrArg₂ (· * ·) rfl ?_
    exact shapeCast_1ab_ab_apply w _ k q
  · refine (broadcastTo_1b_ab_apply _ _ p q).trans ?_
    refine (shapeCast_a_1a_apply _ _ (0 : Fin 1) q).trans ?_
    exact shapeCast_1a_a_apply b _ q

/-- The second and third maps' payloads are the same operations of their own slab and row. -/
theorem pay0_apply' (x0 : Vec Ideal S2000x128 .f32) (w : Vec Ideal S1x128x96 .f32) (b : Vec Ideal S1x96 .f32)
    (p : Fin 2000) (q : Fin 96) :
    k0_pay3 (F := Ideal) x0 w b (ix2 p q)
      = (∑ k : Fin 128, x0 (ix2 p k) * w (ix3 (0 : Fin 1) k q)) + b (ix2 (0 : Fin 1) q) :=
  pay0_apply x0 w b p q
theorem pay0_apply'' (x0 : Vec Ideal S2000x128 .f32) (w : Vec Ideal S1x128x96 .f32) (b : Vec Ideal S1x96 .f32)
    (p : Fin 2000) (q : Fin 96) :
    k0_pay4 (F := Ideal) x0 w b (ix2 p q)
      = (∑ k : Fin 128, x0 (ix2 p k) * w (ix3 (0 : Fin 1) k q)) + b (ix2 (0 : Fin 1) q) :=
  pay0_apply x0 w b p q

/-! ## Loads through the body's rectangles -/

theorem zero_off0 : (![0, 0] : Fin 2 → Nat) = fun _ => 0 := funext fun a => by fin_cases a <;> rfl

/-- Slab `o` of the weight stack, loaded as a one-slab block, read at (0, k, q), is the stack at (o, k, q). -/
theorem ld_slab0 (x1 : Vec Ideal S3x128x96 .f32) (o : Fin 3) (inb) (k : Fin 128) (q : Fin 96) :
    View.ld x1 (Rect.unit (s := S3x128x96) ![o.val, 0, 0] S1x128x96.size inb) (ix3 (0 : Fin 1) k q) = x1 (ix3 o k q) := by
  refine congrArg x1 (funext fun a => Fin.ext ?_)
  match a with
  | ⟨0, _⟩ => show o.val + 1 * 0 = o.val; omega
  | ⟨1, _⟩ => show 0 + 1 * k.val = k.val; omega
  | ⟨2, _⟩ => show 0 + 1 * q.val = q.val; omega

/-- Row `o` of the bias matrix, loaded as a one-row block, read at (0, q), is the matrix at (o, q). -/
theorem ld_row0 (x2 : Vec Ideal S3x96 .f32) (o : Fin 3) (inb) (q : Fin 96) :
    View.ld x2 (Rect.unit (s := S3x96) ![o.val, 0] S1x96.size inb) (ix2 (0 : Fin 1) q) = x2 (ix2 o q) := by
  refine congrArg x2 (funext fun a => Fin.ext ?_)
  match a with
  | ⟨0, _⟩ => show o.val + 1 * 0 = o.val; omega
  | ⟨1, _⟩ => show 0 + 1 * q.val = q.val; omega

/-! ## What the body leaves in an output buffer, entry by entry -/

/-- Output buffer 0 after the body at (p, q), for any contents of the three input buffers. -/
theorem out0_3_apply (x0 : Vec Ideal S2000x128 .f32) (x1 : Vec Ideal S3x128x96 .f32) (x2 : Vec Ideal S3x96 .f32)
    (p : Fin 2000) (q : Fin 96) :
    out0_3 x0 x1 x2 (ix2 p q) = (∑ k : Fin 128, x0 (ix2 p k) * x1 (ix3 (0 : Fin 3) k q)) + x2 (ix2 (0 : Fin 3) q) := by
  unfold out0_3
  rw [View.canon_unit_zero zero_off0]
  refine (pay0_apply _ _ _ p q).trans ?_
  refine congrArg₂ (· + ·) (Finset.sum_congr rfl fun k _ => congrArg₂ (· * ·) ?_ ?_) ?_
  · exact congrFun (View.ld_unit_zero (S := S2000x128) zero_off0 _ x0) (ix2 p k)
  · exact ld_slab0 x1 0 _ k q
  · exact ld_row0 x2 0 _ q

/-- Output buffer 1 after the body at (p, q), for any contents of the three input buffers. -/
theorem out0_4_apply (x0 : Vec Ideal S2000x128 .f32) (x1 : Vec Ideal S3x128x96 .f32) (x2 : Vec Ideal S3x96 .f32)
    (p : Fin 2000) (q : Fin 96) :
    out0_4 x0 x1 x2 (ix2 p q) = (∑ k : Fin 128, x0 (ix2 p k) * x1 (ix3 (1 : Fin 3) k q)) + x2 (ix2 (1 : Fin 3) q) := by
  unfold out0_4
  rw [View.canon_unit_zero zero_off0]
  refine (pay0_apply' _ _ _ p q).trans ?_
  refine congrArg₂ (· + ·) (Finset.sum_congr rfl fun k _ => congrArg₂ (· * ·) ?_ ?_) ?_
  · exact congrFun (View.ld_unit_zero (S := S2000x128) zero_off0 _ x0) (ix2 p k)
  · exact ld_slab0 x1 1 _ k q
  · exact ld_row0 x2 1 _ q

/-- Output buffer 2 after the body at (p, q), for any contents of the three input buffers. -/
theorem out0_5_apply (x0 : Vec Ideal S2000x128 .f32) (x1 : Vec Ideal S3x128x96 .f32) (x2 : Vec Ideal S3x96 .f32)
    (p : Fin 2000) (q : Fin 96) :
    out0_5 x0 x1 x2 (ix2 p q) = (∑ k : Fin 128, x0 (ix2 p k) * x1 (ix3 (2 : Fin 3) k q)) + x2 (ix2 (2 : Fin 3) q) := by
  unfold out0_5
  rw [View.canon_unit_zero zero_off0]
  refine (pay0_apply'' _ _ _ p q).trans ?_
  refine congrArg₂ (· + ·) (Finset.sum_congr rfl fun k _ => congrArg₂ (· * ·) ?_ ?_) ?_
  · exact congrFun (View.ld_unit_zero (S := S2000x128) zero_off0 _ x0) (ix2 p k)
  · exact ld_slab0 x1 2 _ k q
  · exact ld_row0 x2 2 _ q

/-! ## The input blocks as parts of the arrays -/

variable (V : (c : Dev nD) → (b : Ref sig .tc) → Buf (Elt Ideal) ((c : Thread nD τ).loc b))

/-- The printed index maps over the grid: the row block and the three outputs sit at block row `t`, column block 0;
    the weight stack and the bias matrix are their own single block. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The row block at point `t` is rows 2000 t … 2000 t + 1999 of the input array. -/
theorem iblk0_0_apply (c : Dev nD) (t : Fin cfg0.N) (x : S2000x128.Idx) (k : S50000x128.Idx)
    (hk0 : (k 0).val = t.val * 2000 + (x 0).val) (hk1 : (k 1).val = (x 1).val) :
    (iblk0 V c 0 t : Vec Ideal S2000x128 .f32) x = (V c main_arg0 : S50000x128.Idx → EReal) k := by
  obtain ⟨e0, e1, -⟩ := idx_facts0 t
  show (V c main_arg0 : S50000x128.Idx → EReal) (((cfg0.win 0).blk t).view.emb x) = _
  refine congrArg _ (funext fun a => Fin.ext ?_)
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The weight window's block at any point is the whole weight stack. -/
theorem iblk0_1_apply (c : Dev nD) (t : Fin cfg0.N) (x k : S3x128x96.Idx)
    (hk0 : (k 0).val = (x 0).val) (hk1 : (k 1).val = (x 1).val) (hk2 : (k 2).val = (x 2).val) :
    (iblk0 V c 1 t : Vec Ideal S3x128x96 .f32) x = (V c main_arg2 : S3x128x96.Idx → EReal) k := by
  obtain ⟨-, -, e0, e1, e2, -⟩ := idx_facts0 t
  show (V c main_arg2 : S3x128x96.Idx → EReal) (((cfg0.win 1).blk t).view.emb x) = _
  refine congrArg _ (funext fun a => Fin.ext ?_)
  match a with
  | ⟨0, _⟩ => show win0_1.index t (0 : Fin 3) * 3 + 1 * (x 0).val = (k 0).val; rw [e0, hk0]; omega
  | ⟨1, _⟩ => show win0_1.index t (1 : Fin 3) * 128 + 1 * (x 1).val = (k 1).val; rw [e1, hk1]; omega
  | ⟨2, _⟩ => show win0_1.index t (2 : Fin 3) * 96 + 1 * (x 2).val = (k 2).val; rw [e2, hk2]; omega

/-- The bias window's block at any point is the whole bias matrix. -/
theorem iblk0_2_apply (c : Dev nD) (t : Fin cfg0.N) (x k : S3x96.Idx)
    (hk0 : (k 0).val = (x 0).val) (hk1 : (k 1).val = (x 1).val) :
    (iblk0 V c 2 t : Vec Ideal S3x96 .f32) x = (V c main_arg3 : S3x96.Idx → EReal) k := by
  obtain ⟨-, -, -, -, -, e0, e1, -⟩ := idx_facts0 t
  show (V c main_arg3 : S3x96.Idx → EReal) (((cfg0.win 2).blk t).view.emb x) = _
  refine congrArg _ (funext fun a => Fin.ext ?_)
  match a with
  | ⟨0, _⟩ => show win0_2.index t (0 : Fin 2) * 3 + 1 * (x 0).val = (k 0).val; rw [e0, hk0]; omega
  | ⟨1, _⟩ => show win0_2.index t (1 : Fin 2) * 96 + 1 * (x 1).val = (k 1).val; rw [e1, hk1]; omega

/-! ## Output window 0: the first map -/

/-- Entry `y` of output buffer 0 after the body at point `t` is the first map of the entry arrays at row
    2000 t + y 0, column y 1. -/
theorem out0_3_blk (c : Dev nD) (t : Fin cfg0.N) (y : S2000x96.Idx) (i : S50000x96.Idx)
    (hi0 : (i 0).val = t.val * 2000 + (y 0).val) (hi1 : (i 1).val = (y 1).val) :
    out0_3 (iblk0 V c 0 t) (iblk0 V c 1 t) (iblk0 V c 2 t) y
      = Spec.lin0 0 (V c main_arg0) (V c main_arg2) (V c main_arg3) i := by
  obtain ⟨p, q, rfl⟩ : ∃ (p : Fin 2000) (q : Fin 96), y = ix2 p q := ⟨y 0, y 1, eq_ix2 y⟩
  refine (out0_3_apply _ _ _ p q).trans ?_
  unfold Spec.lin0
  refine congrArg₂ (· + ·) (Finset.sum_congr rfl fun k _ => congrArg₂ (· * ·) ?_ ?_) ?_
  · exact iblk0_0_apply V c t _ _ hi0 rfl
  · exact iblk0_1_apply V c t _ _ rfl rfl hi1
  · exact iblk0_2_apply V c t _ _ rfl hi1

/-- What point `t` writes back to output window 0's array is block `t` of the first map of the entry arrays. -/
theorem flushed0_3_eq (c : Dev nD) (t : Fin cfg0.N) :
    (dat0 (F := Ideal) V c).flushed 3 t
      = ((cfg0.win 3).blk t).view.read (Elt Ideal) (Spec.lin0 0 (V c main_arg0) (V c main_arg2) (V c main_arg3)) := by
  show (cfg0.win 3).cut (grid0.coords t) ((dat0 V c).after 3 t) = _
  rw [after0_3]
  obtain ⟨-, -, -, -, -, -, -, e0, e1, -⟩ := idx_facts0 t
  funext j
  refine out0_3_blk V c t _ _ ?_ ?_
  · show win0_3.index t (0 : Fin 2) * 2000 + 1 * (j 0).val = t.val * 2000 + (j 0).val; rw [e0]; omega
  · show win0_3.index t (1 : Fin 2) * 96 + 1 * (j 1).val = (j 1).val; rw [e1]; omega

/-- An entry of the array is in point `t`'s block iff each coordinate is in the block's range on its axis. -/
theorem mem_blk0_3 (t : Fin cfg0.N) (i : S50000x96.Idx) :
    i ∈ ((cfg0.win 3).blk t).view.set ↔ ∀ a : Fin 2, win0_3.index t a * S2000x96.size a ≤ (i a).val
      ∧ (i a).val < win0_3.index t a * S2000x96.size a + S2000x96.size a := by
  show i ∈ ((View.whole main_v30_0).slice (win0_3.rect t)).set ↔ _
  rw [View.set_slice_whole, Rect.mem_set_unit]
  exact Iff.rfl

/-- Row r of the array lies in the block of point r / 2000. -/
theorem cover0_3 (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 25 := N_0
  have ht : (i 0).val / 2000 < cfg0.N := by rw [hN]; omega
  obtain ⟨-, -, -, -, -, -, -, e0, e1, -⟩ := idx_facts0 ⟨(i 0).val / 2000, ht⟩
  refine ⟨⟨(i 0).val / 2000, ht⟩, flush0_3 _, ?_⟩
  rw [mem_blk0_3]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ (1 : Fin 2) * 96 ≤ (i 1).val
      ∧ (i 1).val < win0_3.index ⟨(i 0).val / 2000, ht⟩ (1 : Fin 2) * 96 + 96
    rw [e1]; omega

/-- After the whole grid, output window 0's array is the first map of the arrays the call was entered with. -/
theorem final0_3 (c : Dev nD) :
    (dat0 (F := Ideal) V c).arrAt 3 cfg0.N = Spec.lin0 0 (V c main_arg0) (V c main_arg2) (V c main_arg3) :=
  (dat0 (F := Ideal) V c).arrAt_eq_of_cover 3 _ (fun t _ => flushed0_3_eq V c t) cover0_3

/-! ## Output window 1: the second map -/

/-- Entry `y` of output buffer 1 after the body at point `t` is the second map of the entry arrays at row
    2000 t + y 0, column y 1. -/
theorem out0_4_blk (c : Dev nD) (t : Fin cfg0.N) (y : S2000x96.Idx) (i : S50000x96.Idx)
    (hi0 : (i 0).val = t.val * 2000 + (y 0).val) (hi1 : (i 1).val = (y 1).val) :
    out0_4 (iblk0 V c 0 t) (iblk0 V c 1 t) (iblk0 V c 2 t) y
      = Spec.lin0 1 (V c main_arg0) (V c main_arg2) (V c main_arg3) i := by
  obtain ⟨p, q, rfl⟩ : ∃ (p : Fin 2000) (q : Fin 96), y = ix2 p q := ⟨y 0, y 1, eq_ix2 y⟩
  refine (out0_4_apply _ _ _ p q).trans ?_
  unfold Spec.lin0
  refine congrArg₂ (· + ·) (Finset.sum_congr rfl fun k _ => congrArg₂ (· * ·) ?_ ?_) ?_
  · exact iblk0_0_apply V c t _ _ hi0 rfl
  · exact iblk0_1_apply V c t _ _ rfl rfl hi1
  · exact iblk0_2_apply V c t _ _ rfl hi1

/-- What point `t` writes back to output window 1's array is block `t` of the second map of the entry arrays. -/
theorem flushed0_4_eq (c : Dev nD) (t : Fin cfg0.N) :
    (dat0 (F := Ideal) V c).flushed 4 t
      = ((cfg0.win 4).blk t).view.read (Elt Ideal) (Spec.lin0 1 (V c main_arg0) (V c main_arg2) (V c main_arg3)) := by
  show (cfg0.win 4).cut (grid0.coords t) ((dat0 V c).after 4 t) = _
  rw [after0_4]
  obtain ⟨-, -, -, -, -, -, -, -, -, e0, e1, -⟩ := idx_facts0 t
  funext j
  refine out0_4_blk V c t _ _ ?_ ?_
  · show win0_4.index t (0 : Fin 2) * 2000 + 1 * (j 0).val = t.val * 2000 + (j 0).val; rw [e0]; omega
  · show win0_4.index t (1 : Fin 2) * 96 + 1 * (j 1).val = (j 1).val; rw [e1]; omega

/-- An entry of the array is in point `t`'s block iff each coordinate is in the block's range on its axis. -/
theorem mem_blk0_4 (t : Fin cfg0.N) (i : S50000x96.Idx) :
    i ∈ ((cfg0.win 4).blk t).view.set ↔ ∀ a : Fin 2, win0_4.index t a * S2000x96.size a ≤ (i a).val
      ∧ (i a).val < win0_4.index t a * S2000x96.size a + S2000x96.size a := by
  show i ∈ ((View.whole main_v30_1).slice (win0_4.rect t)).set ↔ _
  rw [View.set_slice_whole, Rect.mem_set_unit]
  exact Iff.rfl

/-- Row r of the array lies in the block of point r / 2000. -/
theorem cover0_4 (i : S50000x96.Idx) :
    ∃ t : Fin cfg0.N, (cfg0.win 4).flush t = true ∧ i ∈ ((cfg0.win 4).blk t).view.set := by
  have hi0 : (i 0).val < 50000 := (i 0).isLt
  have hi1 : (i 1).val < 96 := (i 1).isLt
  have hN : cfg0.N = 25 := N_0
  have ht : (i 0).val / 2000 < cfg0.N := by rw [hN]; omega
  obtain ⟨-, -, -, -, -, -, -, -, -, e0, e1, -⟩ := idx_facts0 ⟨(i 0).val / 2000, ht⟩
  refine ⟨⟨(i 0).val / 2000, ht⟩, flush0_4 _, ?_⟩
  rw [mem_blk0_4]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 96 ≤ (i 1).val
      ∧ (i 1).val < win0_4.index ⟨(i 0).val / 2000, ht⟩ (1 : Fin 2) * 96 + 96
    rw [e1]; omega

/-- After the whole grid, output window 1's array is the second map of the arrays the call was entered with. -/
theorem final0_4 (c : Dev nD) :
    (dat0 (F := Ideal) V c).arrAt 4 cfg0.N = Spec.lin0 1 (V c main_arg0) (V c main_arg2) (V c main_arg3) :=
  (dat0 (F := Ideal) V c).arrAt_eq_of_cover 4 _ (fun t _ => flushed0_4_eq V c t) cover0_4

/-! ## Output window 2: the third map -/

/-- Entry `y` of output buffer 2 after the body at point `t` is the third map of the entry arrays at row
    2000 t + y 0, column y 1. -/
theorem out0_5_blk (c : Dev nD) (t : Fin cfg0.N) (y : S2000x96.Idx) (i : S50000x96.Idx)
    (hi0 : (i 0).val = t.val * 2000 + (y 0).val) (hi1 : (i 1).val = (y 1).val) :
    out0_5 (iblk0 V c 0 t) (iblk0 V c 1 t) (iblk0 V c 2 t) y
      = Spec.lin0 2 (V c main_arg0) (V c main_arg2) (V c main_arg3) i := by
  obtain ⟨p, q, rfl⟩ : ∃ (p : Fin 2000) (q : Fin 96), y = ix2 p q := ⟨y 0, y 1, eq_ix2 y⟩
  refine (out0_5_apply _ _ _ p q).trans ?_
  unfold Spec.lin0
  refine congrArg₂ (· + ·) (Finset.sum_congr rfl fun k _ => congrArg₂ (· * ·) ?_ ?_) ?_
  · exact iblk0_0_apply V c t _ _ hi0 rfl
  · exact iblk0_1_apply V c t _ _ rfl rfl hi1
  · exact iblk0_2_apply V c t _ _ rfl hi1

/-- What point `t` writes back to output window 2's array is block `t` of the third map of the entry arrays. -/
theorem flushed0_5_eq (c : Dev nD) (t : Fin cfg0.N) :
    (dat0 (F := Ideal) V c).flushed 5 t
      = ((cfg0.win 5).blk t).view.read (Elt Ideal) (Spec.lin0 2 (V c main_arg0) (V c main_arg2) (V c main_arg3)) := by
  show (cfg0.win 5).cut (grid0.coords t) ((dat0 V c).after 5 t) = _
  rw [after0_5]
  obtain ⟨-, -, -, -, -, -, -, -, -, -, -, e0, e1⟩ := idx_facts0 t
  funext j
  refine out0_5_blk V c t _ _ ?_ ?_
  · show win0_5.index t (0 : Fin 2) * 2000 + 1 * (j 0).val = t.val * 2000 + (j 0).val; rw [e0]; omega
  · show win0_5.index t (1 : Fin 2) * 96 + 1 * (j 1).val = (j 1).val; rw [e1]; omega

/-- An entry of the array is in point `t`'s block iff each coordinate is in the block's range on its axis. -/
theorem mem_blk0_5 (t : Fin cfg0.N) (i : S50000x96.Idx) :
    i ∈ ((cfg0.win 5).blk t).view.set ↔ ∀ a : Fin 2, win0_5.index t a * S2000x96.size a ≤ (i a).val
      ∧ (i a).val < win0_5.index t a * S2000x96.size a + S2000x96.size a := by
  show i ∈ ((View.whole main_v30_2).slice (win0_5.rect t)).set ↔ _
  rw [View.set_slice_whole, Rect.mem_set_unit]
  exact Iff.rfl

/-- Row r of the array lies in the block of point r / 2000. -/
theorem cover0_5 (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 25 := N_0
  have ht : (i 0).val / 2000 < cfg0.N := by rw [hN]; omega
  obtain ⟨-, -, -, -, -, -, -, -, -, -, -, e0, e1⟩ := idx_facts0 ⟨(i 0).val / 2000, ht⟩
  refine ⟨⟨(i 0).val / 2000, ht⟩, flush0_5 _, ?_⟩
  rw [mem_blk0_5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 96 ≤ (i 1).val
      ∧ (i 1).val < win0_5.index ⟨(i 0).val / 2000, ht⟩ (1 : Fin 2) * 96 + 96
    rw [e1]; omega

/-- After the whole grid, output window 2's array is the third map of the arrays the call was entered with. -/
theorem final0_5 (c : Dev nD) :
    (dat0 (F := Ideal) V c).arrAt 5 cfg0.N = Spec.lin0 2 (V c main_arg0) (V c main_arg2) (V c main_arg3) :=
  (dat0 (F := Ideal) V c).arrAt_eq_of_cover 5 _ (fun t _ => flushed0_5_eq V c t) cover0_5

end Cert.KernelIdeal.Hand

end
-- ==== Proof.RefLin.lean ====
/-
  The reference's linear stages are the specification's linear maps.

  Each of the six stages slices one slab of a weight stack and one row of a bias matrix, drops the slab's unit axis,
  multiplies the rows of the left operand by the slab, and adds the bias row repeated over the rows. Read at an entry
  (r, q) that is the sum over k of left (r, k) times weights (j, k, q), plus bias (j, q): the slices shift the
  leading coordinate by j, and the reshapes keep the row-major position, which for a unit leading axis keeps the other
  coordinates.
-/
import proofs.«130113_j6828998001548_2_alg».proof.Proof.RefReadP
import proofs.«130113_j6828998001548_2_alg».proof.Proof.Spec
import Idealize.ShloMosaic.Lib.ValueIdx

set_option maxRecDepth 16384

noncomputable section

namespace Cert.ReferenceIdeal.RefSpec

open Cert.ReferenceIdeal Cert.ReferenceIdeal.ReadP Idealize.ShloMosaic Idealize.ShloMosaic.ValueIdx

/-! ## The first layer -/

/-- Map 0 of the first layer: stage %37 is the specification's function of the three arguments. -/
theorem ref_lin0_0 (x0 : (⟨S50000x128, .f32⟩ : BufTy).Contents (Elt Ideal)) (x2 : (⟨S3x128x96, .f32⟩ : BufTy).Contents (Elt Ideal))
    (x3 : (⟨S3x96, .f32⟩ : BufTy).Contents (Elt Ideal)) :
    val_main_v37 (F := Ideal) x0 x2 x3 = Spec.lin0 0 x0 x2 x3 := by
  funext i
  have h1 : (i 1).val < 96 := (i 1).isLt
  show val_main_v32 (F := Ideal) x0 x2 i + val_main_v36 (F := Ideal) x3 i = _
  unfold Spec.lin0
  refine congrArg₂ (· + ·) ?_ ?_
  · refine (val_main_v32_apply x0 x2 i).trans (Finset.sum_congr rfl fun k _ => congrArg₂ (· * ·) (congrArg x0 ?_) ?_)
    · exact funext fun a => Fin.ext (by match a with | ⟨0, _⟩ => rfl | ⟨1, _⟩ => rfl)
    · refine (val_main_v31_apply x2 _).trans ((val_main_v30_apply x2 _).trans (congrArg x2 ?_))
      have hk : k.val < 128 := k.isLt
      exact funext fun a => Fin.ext (by
        match a with
        | ⟨0, _⟩ => rfl
        | ⟨1, _⟩ => show (k.val * 96 + (i 1).val) / 96 % 128 = k.val; omega
        | ⟨2, _⟩ => show (k.val * 96 + (i 1).val) % 96 = (i 1).val; omega)
  · refine (val_main_v36_apply x3 i).trans ((val_main_v35_apply x3 _).trans ((val_main_v34_apply x3 _).trans
      ((val_main_v33_apply x3 _).trans (congrArg x3 ?_))))
    exact funext fun a => Fin.ext (by
      match a with
      | ⟨0, _⟩ => rfl
      | ⟨1, _⟩ => show (i 1).val % 96 = (i 1).val; omega)

/-- Map 1 of the first layer: stage %45 is the specification's function of the three arguments. -/
theorem ref_lin0_1 (x0 : (⟨S50000x128, .f32⟩ : BufTy).Contents (Elt Ideal)) (x2 : (⟨S3x128x96, .f32⟩ : BufTy).Contents (Elt Ideal))
    (x3 : (⟨S3x96, .f32⟩ : BufTy).Contents (Elt Ideal)) :
    val_main_v45 (F := Ideal) x0 x2 x3 = Spec.lin0 1 x0 x2 x3 := by
  funext i
  have h1 : (i 1).val < 96 := (i 1).isLt
  show val_main_v40 (F := Ideal) x0 x2 i + val_main_v44 (F := Ideal) x3 i = _
  unfold Spec.lin0
  refine congrArg₂ (· + ·) ?_ ?_
  · refine (val_main_v40_apply x0 x2 i).trans (Finset.sum_congr rfl fun k _ => congrArg₂ (· * ·) (congrArg x0 ?_) ?_)
    · exact funext fun a => Fin.ext (by match a with | ⟨0, _⟩ => rfl | ⟨1, _⟩ => rfl)
    · refine (val_main_v39_apply x2 _).trans ((val_main_v38_apply x2 _).trans (congrArg x2 ?_))
      have hk : k.val < 128 := k.isLt
      exact funext fun a => Fin.ext (by
        match a with
        | ⟨0, _⟩ => rfl
        | ⟨1, _⟩ => show (k.val * 96 + (i 1).val) / 96 % 128 = k.val; omega
        | ⟨2, _⟩ => show (k.val * 96 + (i 1).val) % 96 = (i 1).val; omega)
  · refine (val_main_v44_apply x3 i).trans ((val_main_v43_apply x3 _).trans ((val_main_v42_apply x3 _).trans
      ((val_main_v41_apply x3 _).trans (congrArg x3 ?_))))
    exact funext fun a => Fin.ext (by
      match a with
      | ⟨0, _⟩ => rfl
      | ⟨1, _⟩ => show (i 1).val % 96 = (i 1).val; omega)

/-- Map 2 of the first layer: stage %66 is the specification's function of the three arguments. -/
theorem ref_lin0_2 (x0 : (⟨S50000x128, .f32⟩ : BufTy).Contents (Elt Ideal)) (x2 : (⟨S3x128x96, .f32⟩ : BufTy).Contents (Elt Ideal))
    (x3 : (⟨S3x96, .f32⟩ : BufTy).Contents (Elt Ideal)) :
    val_main_v66 (F := Ideal) x0 x2 x3 = Spec.lin0 2 x0 x2 x3 := by
  funext i
  have h1 : (i 1).val < 96 := (i 1).isLt
  show val_main_v61 (F := Ideal) x0 x2 i + val_main_v65 (F := Ideal) x3 i = _
  unfold Spec.lin0
  refine congrArg₂ (· + ·) ?_ ?_
  · refine (val_main_v61_apply x0 x2 i).trans (Finset.sum_congr rfl fun k _ => congrArg₂ (· * ·) (congrArg x0 ?_) ?_)
    · exact funext fun a => Fin.ext (by match a with | ⟨0, _⟩ => rfl | ⟨1, _⟩ => rfl)
    · refine (val_main_v60_apply x2 _).trans ((val_main_v59_apply x2 _).trans (congrArg x2 ?_))
      have hk : k.val < 128 := k.isLt
      exact funext fun a => Fin.ext (by
        match a with
        | ⟨0, _⟩ => rfl
        | ⟨1, _⟩ => show (k.val * 96 + (i 1).val) / 96 % 128 = k.val; omega
        | ⟨2, _⟩ => show (k.val * 96 + (i 1).val) % 96 = (i 1).val; omega)
  · refine (val_main_v65_apply x3 i).trans ((val_main_v64_apply x3 _).trans ((val_main_v63_apply x3 _).trans
      ((val_main_v62_apply x3 _).trans (congrArg x3 ?_))))
    exact funext fun a => Fin.ext (by
      match a with
      | ⟨0, _⟩ => rfl
      | ⟨1, _⟩ => show (i 1).val % 96 = (i 1).val; omega)

/-! ## The second layer -/

/-- Map 0 of the second layer: stage %117 is the specification's function of its left operand (stage %109, whatever
    it holds), the weight stack and the bias matrix. -/
theorem ref_lin1_0 (x0 : (⟨S50000x128, .f32⟩ : BufTy).Contents (Elt Ideal)) (x1 : (⟨S2x800000, .i32⟩ : BufTy).Contents (Elt Ideal))
    (x2 : (⟨S3x128x96, .f32⟩ : BufTy).Contents (Elt Ideal)) (x3 : (⟨S3x96, .f32⟩ : BufTy).Contents (Elt Ideal))
    (x4 : (⟨S3x288x64, .f32⟩ : BufTy).Contents (Elt Ideal)) (x5 : (⟨S3x64, .f32⟩ : BufTy).Contents (Elt Ideal))
    (x6 x7 x8 x9 : (⟨S288, .f32⟩ : BufTy).Contents (Elt Ideal)) :
    val_main_v117 (F := Ideal) x0 x1 x2 x3 x4 x5 x6 x7 x8 x9
      = Spec.lin1 0 (val_main_v109 (F := Ideal) x0 x1 x2 x3 x6 x7 x8 x9) x4 x5 := by
  funext i
  have h1 : (i 1).val < 64 := (i 1).isLt
  show val_main_v112 (F := Ideal) x0 x1 x2 x3 x4 x6 x7 x8 x9 i + val_main_v116 (F := Ideal) x5 i = _
  rw [val_main_v112_apply]
  generalize val_main_v109 (F := Ideal) x0 x1 x2 x3 x6 x7 x8 x9 = H
  unfold Spec.lin1
  refine congrArg₂ (· + ·) (Finset.sum_congr rfl fun k _ => congrArg₂ (· * ·) (congrArg H ?_) ?_) ?_
  · exact funext fun a => Fin.ext (by match a with | ⟨0, _⟩ => rfl | ⟨1, _⟩ => rfl)
  · refine (val_main_v111_apply x4 _).trans ((val_main_v110_apply x4 _).trans (congrArg x4 ?_))
    have hk : k.val < 288 := k.isLt
    exact funext fun a => Fin.ext (by
      match a with
      | ⟨0, _⟩ => rfl
      | ⟨1, _⟩ => show (k.val * 64 + (i 1).val) / 64 % 288 = k.val; omega
      | ⟨2, _⟩ => show (k.val * 64 + (i 1).val) % 64 = (i 1).val; omega)
  · refine (val_main_v116_apply x5 i).trans ((val_main_v115_apply x5 _).trans ((val_main_v114_apply x5 _).trans
      ((val_main_v113_apply x5 _).trans (congrArg x5 ?_))))
    exact funext fun a => Fin.ext (by
      match a with
      | ⟨0, _⟩ => rfl
      | ⟨1, _⟩ => show (i 1).val % 64 = (i 1).val; omega)

/-- Map 1 of the second layer: stage %125 is the specification's function of its left operand (stage %109, whatever
    it holds), the weight stack and the bias matrix. -/
theorem ref_lin1_1 (x0 : (⟨S50000x128, .f32⟩ : BufTy).Contents (Elt Ideal)) (x1 : (⟨S2x800000, .i32⟩ : BufTy).Contents (Elt Ideal))
    (x2 : (⟨S3x128x96, .f32⟩ : BufTy).Contents (Elt Ideal)) (x3 : (⟨S3x96, .f32⟩ : BufTy).Contents (Elt Ideal))
    (x4 : (⟨S3x288x64, .f32⟩ : BufTy).Contents (Elt Ideal)) (x5 : (⟨S3x64, .f32⟩ : BufTy).Contents (Elt Ideal))
    (x6 x7 x8 x9 : (⟨S288, .f32⟩ : BufTy).Contents (Elt Ideal)) :
    val_main_v125 (F := Ideal) x0 x1 x2 x3 x4 x5 x6 x7 x8 x9
      = Spec.lin1 1 (val_main_v109 (F := Ideal) x0 x1 x2 x3 x6 x7 x8 x9) x4 x5 := by
  funext i
  have h1 : (i 1).val < 64 := (i 1).isLt
  show val_main_v120 (F := Ideal) x0 x1 x2 x3 x4 x6 x7 x8 x9 i + val_main_v124 (F := Ideal) x5 i = _
  rw [val_main_v120_apply]
  generalize val_main_v109 (F := Ideal) x0 x1 x2 x3 x6 x7 x8 x9 = H
  unfold Spec.lin1
  refine congrArg₂ (· + ·) (Finset.sum_congr rfl fun k _ => congrArg₂ (· * ·) (congrArg H ?_) ?_) ?_
  · exact funext fun a => Fin.ext (by match a with | ⟨0, _⟩ => rfl | ⟨1, _⟩ => rfl)
  · refine (val_main_v119_apply x4 _).trans ((val_main_v118_apply x4 _).trans (congrArg x4 ?_))
    have hk : k.val < 288 := k.isLt
    exact funext fun a => Fin.ext (by
      match a with
      | ⟨0, _⟩ => rfl
      | ⟨1, _⟩ => show (k.val * 64 + (i 1).val) / 64 % 288 = k.val; omega
      | ⟨2, _⟩ => show (k.val * 64 + (i 1).val) % 64 = (i 1).val; omega)
  · refine (val_main_v124_apply x5 i).trans ((val_main_v123_apply x5 _).trans ((val_main_v122_apply x5 _).trans
      ((val_main_v121_apply x5 _).trans (congrArg x5 ?_))))
    exact funext fun a => Fin.ext (by
      match a with
      | ⟨0, _⟩ => rfl
      | ⟨1, _⟩ => show (i 1).val % 64 = (i 1).val; omega)

/-- Map 2 of the second layer: stage %146 is the specification's function of its left operand (stage %109, whatever
    it holds), the weight stack and the bias matrix. -/
theorem ref_lin1_2 (x0 : (⟨S50000x128, .f32⟩ : BufTy).Contents (Elt Ideal)) (x1 : (⟨S2x800000, .i32⟩ : BufTy).Contents (Elt Ideal))
    (x2 : (⟨S3x128x96, .f32⟩ : BufTy).Contents (Elt Ideal)) (x3 : (⟨S3x96, .f32⟩ : BufTy).Contents (Elt Ideal))
    (x4 : (⟨S3x288x64, .f32⟩ : BufTy).Contents (Elt Ideal)) (x5 : (⟨S3x64, .f32⟩ : BufTy).Contents (Elt Ideal))
    (x6 x7 x8 x9 : (⟨S288, .f32⟩ : BufTy).Contents (Elt Ideal)) :
    val_main_v146 (F := Ideal) x0 x1 x2 x3 x4 x5 x6 x7 x8 x9
      = Spec.lin1 2 (val_main_v109 (F := Ideal) x0 x1 x2 x3 x6 x7 x8 x9) x4 x5 := by
  funext i
  have h1 : (i 1).val < 64 := (i 1).isLt
  show val_main_v141 (F := Ideal) x0 x1 x2 x3 x4 x6 x7 x8 x9 i + val_main_v145 (F := Ideal) x5 i = _
  rw [val_main_v141_apply]
  generalize val_main_v109 (F := Ideal) x0 x1 x2 x3 x6 x7 x8 x9 = H
  unfold Spec.lin1
  refine congrArg₂ (· + ·) (Finset.sum_congr rfl fun k _ => congrArg₂ (· * ·) (congrArg H ?_) ?_) ?_
  · exact funext fun a => Fin.ext (by match a with | ⟨0, _⟩ => rfl | ⟨1, _⟩ => rfl)
  · refine (val_main_v140_apply x4 _).trans ((val_main_v139_apply x4 _).trans (congrArg x4 ?_))
    have hk : k.val < 288 := k.isLt
    exact funext fun a => Fin.ext (by
      match a with
      | ⟨0, _⟩ => rfl
      | ⟨1, _⟩ => show (k.val * 64 + (i 1).val) / 64 % 288 = k.val; omega
      | ⟨2, _⟩ => show (k.val * 64 + (i 1).val) % 64 = (i 1).val; omega)
  · refine (val_main_v145_apply x5 i).trans ((val_main_v144_apply x5 _).trans ((val_main_v143_apply x5 _).trans
      ((val_main_v142_apply x5 _).trans (congrArg x5 ?_))))
    exact funext fun a => Fin.ext (by
      match a with
      | ⟨0, _⟩ => rfl
      | ⟨1, _⟩ => show (i 1).val % 64 = (i 1).val; omega)

end Cert.ReferenceIdeal.RefSpec

end
-- ==== Proof.KI.Layer0.lean ====
/-
  The first layer on the kernel's side. Call 0 leaves in its three output arrays the three linear maps of the node
  features; the stretch of host operations after it propagates the second map once and the third twice along the
  edges (gather the source rows, scale by the edge weight, add into the destination rows) and lays the three side
  by side. Every step is the reference's operation of the same place on equal operands, so the array the second call
  is entered with is the reference's stage of that place.
-/import proofs.«130113_j6828998001548_2_alg».proof.Proof.KI.Edge
import proofs.«130113_j6828998001548_2_alg».proof.Proof.KI.Val0
import proofs.«130113_j6828998001548_2_alg».proof.Proof.RefLin
set_option maxRecDepth 16384

noncomputable section

namespace Cert.KernelIdeal.Hand

open Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

open Cert.ReferenceIdeal.ReadP Cert.ReferenceIdeal.RefSpec

/-- A buffer the first three stretches do not write holds its launch contents when call 0 is entered. -/
theorem B3_of (b : Ref sig .tc) (h0 : b ∉ hostOps0_W) (h1 : b ∉ hostOps0_1_W) (h2 : b ∉ hostOps0_2_W) :
    B3 m c (Proc.devRef .tc b) = m ((c : Thread nD τ).loc b) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-! ## What call 0 leaves -/

/-- Map 0 of the first layer. -/
theorem B4_v30_0 : B4 m c (Proc.devRef .tc main_v30_0)
    = val_main_v37 (F := Ideal) (m ((c : Thread nD τ).loc main_arg0)) (m ((c : Thread nD τ).loc main_arg2)) (m ((c : Thread nD τ).loc main_arg3)) := by
  refine (B4_arr m c 3).trans ((final0_3 (T3 m) c).trans ?_)
  rw [show T3 m c main_arg0 = m ((c : Thread nD τ).loc main_arg0) from B3_of m c main_arg0 (by decide) (by decide) (by decide),
    show T3 m c main_arg2 = m ((c : Thread nD τ).loc main_arg2) from B3_of m c main_arg2 (by decide) (by decide) (by decide),
    show T3 m c main_arg3 = m ((c : Thread nD τ).loc main_arg3) from B3_of m c main_arg3 (by decide) (by decide) (by decide)]
  exact (ref_lin0_0 _ _ _).symm

/-- Map 1. -/
theorem B4_v30_1 : B4 m c (Proc.devRef .tc main_v30_1)
    = val_main_v45 (F := Ideal) (m ((c : Thread nD τ).loc main_arg0)) (m ((c : Thread nD τ).loc main_arg2)) (m ((c : Thread nD τ).loc main_arg3)) := by
  refine (B4_arr m c 4).trans ((final0_4 (T3 m) c).trans ?_)
  rw [show T3 m c main_arg0 = m ((c : Thread nD τ).loc main_arg0) from B3_of m c main_arg0 (by decide) (by decide) (by decide),
    show T3 m c main_arg2 = m ((c : Thread nD τ).loc main_arg2) from B3_of m c main_arg2 (by decide) (by decide) (by decide),
    show T3 m c main_arg3 = m ((c : Thread nD τ).loc main_arg3) from B3_of m c main_arg3 (by decide) (by decide) (by decide)]
  exact (ref_lin0_1 _ _ _).symm

/-- Map 2. -/
theorem B4_v30_2 : B4 m c (Proc.devRef .tc main_v30_2)
    = val_main_v66 (F := Ideal) (m ((c : Thread nD τ).loc main_arg0)) (m ((c : Thread nD τ).loc main_arg2)) (m ((c : Thread nD τ).loc main_arg3)) := by
  refine (B4_arr m c 5).trans ((final0_5 (T3 m) c).trans ?_)
  rw [show T3 m c main_arg0 = m ((c : Thread nD τ).loc main_arg0) from B3_of m c main_arg0 (by decide) (by decide) (by decide),
    show T3 m c main_arg2 = m ((c : Thread nD τ).loc main_arg2) from B3_of m c main_arg2 (by decide) (by decide) (by decide),
    show T3 m c main_arg3 = m ((c : Thread nD τ).loc main_arg3) from B3_of m c main_arg3 (by decide) (by decide) (by decide)]
  exact (ref_lin0_2 _ _ _).symm

/-- The edge data pass call 0 untouched. -/
theorem B4_v5 : B4 m c (Proc.devRef .tc main_v5) = val_main_v5 (F := Ideal) (m ((c : Thread nD τ).loc main_arg1)) :=
  (B4_keep m c main_v5 (by decide)).trans (B3_v5 m c)
theorem B4_v6 : B4 m c (Proc.devRef .tc main_v6) = val_main_v6 (F := Ideal) (m ((c : Thread nD τ).loc main_arg1)) :=
  (B4_keep m c main_v6 (by decide)).trans (B3_v6 m c)
theorem B4_v29 : B4 m c (Proc.devRef .tc main_v29) = val_main_v29 (F := Ideal) (m ((c : Thread nD τ).loc main_arg1)) :=
  (B4_keep m c main_v29 (by decide)).trans (B3_v29 m c)

/-! ## The stretch between calls 0 and 1 -/

set_option maxRecDepth 200000 in
/-- The three propagated maps side by side: what call 1 is entered with is the reference's concatenation stage. -/
theorem B5_v70 : B5 m c (Proc.devRef .tc main_v70)
    = val_main_v93 (F := Ideal) (m ((c : Thread nD τ).loc main_arg0)) (m ((c : Thread nD τ).loc main_arg1)) (m ((c : Thread nD τ).loc main_arg2)) (m ((c : Thread nD τ).loc main_arg3)) := by
  show StableHlo.after hostOps1 (B4 m c) (Proc.devRef .tc main_v70) = _
  simp (disch := decide) only [after_cons, after_nil, reshape_result_ne']
  refine (nary3_result_fn (x := main_v30_0) (a := main_v43) (b := main_v69) (y := main_v70)
    (g := fun p q r => concatenate S50000x288 1 [⟨S50000x96, p⟩, ⟨S50000x96, q⟩, ⟨S50000x96, r⟩] concatenates_S50000x96_S50000x96_S50000x96_S50000x288_d1) _ _ _).trans ?_
  have key : ∀ (p q r : (⟨S50000x96, .f32⟩ : BufTy).Contents (Elt Ideal)),
      p = val_main_v37 (F := Ideal) (m ((c : Thread nD τ).loc main_arg0)) (m ((c : Thread nD τ).loc main_arg2)) (m ((c : Thread nD τ).loc main_arg3)) →
      q = val_main_v58 (F := Ideal) (m ((c : Thread nD τ).loc main_arg0)) (m ((c : Thread nD τ).loc main_arg1)) (m ((c : Thread nD τ).loc main_arg2)) (m ((c : Thread nD τ).loc main_arg3)) →
      r = val_main_v92 (F := Ideal) (m ((c : Thread nD τ).loc main_arg0)) (m ((c : Thread nD τ).loc main_arg1)) (m ((c : Thread nD τ).loc main_arg2)) (m ((c : Thread nD τ).loc main_arg3)) →
      concatenate S50000x288 1 [⟨S50000x96, p⟩, ⟨S50000x96, q⟩, ⟨S50000x96, r⟩] concatenates_S50000x96_S50000x96_S50000x96_S50000x288_d1
        = val_main_v93 (F := Ideal) (m ((c : Thread nD τ).loc main_arg0)) (m ((c : Thread nD τ).loc main_arg1)) (m ((c : Thread nD τ).loc main_arg2)) (m ((c : Thread nD τ).loc main_arg3)) := by
    intro p q r hp hq hr; subst hp hq hr; rfl
  refine key _ _ _ ?_ ?_ ?_
  · host_read
    exact B4_v30_0 m c
  · host_read
    rw [B4_v30_1 m c, B4_v29 m c, B4_v5 m c, B4_v6 m c]
    rfl
  · host_read
    rw [B4_v30_2 m c, B4_v29 m c, B4_v5 m c, B4_v6 m c]
    rfl

end Cert.KernelIdeal.Hand

end
-- ==== Proof.KI.Val1.lean ====
/-
  The second call read as a whole: after its 25 points the output array is the specification's
  normalise-and-clamp of the arrays the call was entered with.

  Three steps. Entry (p, q) of the body's payload is max(scale(q) · (h(p, q) − mean(q)) · rsqrt(variance(q) + ε) + shift(q), 0)
  of the loaded block and the four loaded parameter rows. At point t the block of rows is rows 2000·t … 2000·t + 1999
  of the feature array and the four parameter windows hold their whole rows, so what point t writes back is block t
  of the specification's function. The 25 blocks tile the 50000 rows, so the array ends as that function.
-/
import proofs.«130113_j6828998001548_2_alg».proof.Proof.KI.Reg1
import proofs.«130113_j6828998001548_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

/-- Entry (p, q) of the body's payload: the block's entry less the mean at q, times the scale at q, times the
    reciprocal root of the variance at q plus ε, plus the shift at q, clamped below at zero. -/
theorem pay1_apply (x0 : Vec Ideal S2000x288 .f32) (g be mu var : Vec Ideal S1x288 .f32) (p : Fin 2000) (q : Fin 288) :
    k1_pay1 x0 g be mu var (ix2 p q)
      = max (g (ix2 (0 : Fin 1) q) * (x0 (ix2 p q) - mu (ix2 (0 : Fin 1) q))
            * Ideal.rsqrt (var (ix2 (0 : Fin 1) q) + Ideal.ofBits .f32 0x3727C5AC#32) + be (ix2 (0 : Fin 1) q))
          (Ideal.ofBits .f32 0x00000000#32) := by
  unfold k1_pay1
  rw [maximumf_apply, addf_apply, mulf_apply, mulf_apply, subf_apply]
  rw [broadcastTo_1b_ab_apply, broadcastTo_1b_ab_apply, broadcastTo_1b_ab_apply, broadcastTo_1b_ab_apply]
  simp only [shapeCast_self]
  rfl

/-- The payload of a block of rows, read against whole arrays: if the loaded block is rows 2000·n … of `H` and the four
    parameter loads are `G`, `Be`, `Mu`, `Va`, then its entry at (p, q) is the specification's at the entry `i` that lies
    2000·n rows further down. -/
theorem pay1_block (x0 : Vec Ideal S2000x288 .f32) (g be mu var : Vec Ideal S1x288 .f32)
    (H : Spec.Arr ⟨2, ![50000, 288]⟩) (G Be Mu Va : Spec.Arr ⟨2, ![1, 288]⟩) (n : Nat)
    (hx : ∀ (p : Fin 2000) (k : Fin 288) (r : Fin 50000), r.val = n * 2000 + p.val → x0 (ix2 p k) = H (ix2 r k))
    (hg : g = G) (hbe : be = Be) (hmu : mu = Mu) (hva : var = Va)
    (p : Fin 2000) (q : Fin 288) (i : (⟨2, ![50000, 288]⟩ : Shape).Idx) (h0 : (i 0).val = n * 2000 + p.val) (h1 : i 1 = q) :
    k1_pay1 x0 g be mu var (ix2 p q) = Spec.bnrelu H G Be Mu Va i := by
  have e : x0 (ix2 p q) = H i := by
    subst h1
    exact (hx p (i 1) (i 0) h0).trans (congrArg H (eq_ix2 i).symm)
  rw [pay1_apply, e]
  subst hg hbe hmu hva h1
  rfl

/-! ## The blocks the windows hold, as parts of their arrays -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The block indices over the grid: the rows' window and the output's window are at block (t, 0), the four parameter
    windows at block (0, 0), at every point t. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The rows' block at point t is rows 2000·t … 2000·t + 1999 of the feature array. -/
theorem iblk1_0_apply (c : Dev nD) (t : Fin cfg1.N) (p : Fin 2000) (k : Fin 288) (r : Fin 50000)
    (hr : r.val = t.val * 2000 + p.val) :
    (iblk1 V c 0 t : Vec Ideal S2000x288 .f32) (ix2 p k) = (V c main_v70 : S50000x288.Idx → EReal) (ix2 r k) := by
  obtain ⟨e0, e1, -⟩ := index1 t
  unfold iblk1
  rw [View.read_apply]
  show V c main_v70 _ = V c main_v70 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 288 + 1 * k.val = k.val; rw [e1]; omega

/-- The scale's block at any point is the whole scale row. -/
theorem iblk1_1_eq (c : Dev nD) (t : Fin cfg1.N) :
    (iblk1 V c 1 t : Vec Ideal S1x288 .f32) = (V c main_v71 : S1x288.Idx → EReal) := by
  obtain ⟨-, -, e0, e1, -⟩ := index1 t
  unfold iblk1
  funext y
  rw [View.read_apply]
  show V c main_v71 _ = V c main_v71 _
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 288 + 1 * (y 1).val = (y 1).val; rw [e1]; omega

/-- The shift's block at any point is the whole shift row. -/
theorem iblk1_2_eq (c : Dev nD) (t : Fin cfg1.N) :
    (iblk1 V c 2 t : Vec Ideal S1x288 .f32) = (V c main_v72 : S1x288.Idx → EReal) := by
  obtain ⟨-, -, -, -, e0, e1, -⟩ := index1 t
  unfold iblk1
  funext y
  rw [View.read_apply]
  show V c main_v72 _ = V c main_v72 _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 288 + 1 * (y 1).val = (y 1).val; rw [e1]; omega

/-- The mean's block at any point is the whole mean row. -/
theorem iblk1_3_eq (c : Dev nD) (t : Fin cfg1.N) :
    (iblk1 V c 3 t : Vec Ideal S1x288 .f32) = (V c main_v73 : S1x288.Idx → EReal) := by
  obtain ⟨-, -, -, -, -, -, e0, e1, -⟩ := index1 t
  unfold iblk1
  funext y
  rw [View.read_apply]
  show V c main_v73 _ = V c main_v73 _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 288 + 1 * (y 1).val = (y 1).val; rw [e1]; omega

/-- The variance's block at any point is the whole variance row. -/
theorem iblk1_4_eq (c : Dev nD) (t : Fin cfg1.N) :
    (iblk1 V c 4 t : Vec Ideal S1x288 .f32) = (V c main_v74 : S1x288.Idx → EReal) := by
  obtain ⟨-, -, -, -, -, -, -, -, e0, e1, -⟩ := index1 t
  unfold iblk1
  funext y
  rw [View.read_apply]
  show V c main_v74 _ = V c main_v74 _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 288 + 1 * (y 1).val = (y 1).val; rw [e1]; omega

/-! ## What a point writes back -/

/-- The specification's function of the arrays the call is entered with. -/
abbrev bnrelu1 (c : Dev nD) : S50000x288.Idx → EReal :=
  Spec.bnrelu (V c main_v70 : S50000x288.Idx → EReal) (V c main_v71 : S1x288.Idx → EReal) (V c main_v72 : S1x288.Idx → EReal)
    (V c main_v73 : S1x288.Idx → EReal) (V c main_v74 : S1x288.Idx → EReal)

/-- What point t writes back is block t of the specification's function. -/
theorem flushed1_eq (c : Dev nD) (t : Fin cfg1.N) :
    (dat1 (F := Ideal) V c).flushed 5 t = ((cfg1.win 5).blk t).view.read (Elt Ideal) (bnrelu1 V c) := by
  show (cfg1.win 5).cut (grid1.coords t) ((dat1 V c).after 5 t) = _
  rw [after1_5]
  unfold out1_5
  rw [View.canon_unit_zero zero_offsets1]
  simp only [View.ld_unit_zero (S := S2000x288) zero_offsets1, View.ld_unit_zero (S := S1x288) zero_offsets1]
  obtain ⟨-, -, -, -, -, -, -, -, -, -, e0, e1⟩ := index1 t
  funext j
  obtain ⟨p, q, rfl⟩ : ∃ (p : Fin 2000) (q : Fin 288), j = ix2 p q := ⟨j 0, j 1, eq_ix2 j⟩
  rw [View.read_apply]
  show k1_pay1 (iblk1 V c 0 t) (iblk1 V c 1 t) (iblk1 V c 2 t) (iblk1 V c 3 t) (iblk1 V c 4 t) (ix2 p q)
    = bnrelu1 V c (((cfg1.win 5).blk t).view.emb (ix2 p q))
  refine pay1_block _ _ _ _ _ _ _ _ _ _ t.val (fun p k r hr => iblk1_0_apply V c t p k r hr)
    (iblk1_1_eq V c t) (iblk1_2_eq V c t) (iblk1_3_eq V c t) (iblk1_4_eq V c t) p q _ ?_ ?_
  · show win1_5.index t (0 : Fin 2) * 2000 + 1 * p.val = t.val * 2000 + p.val
    rw [e0]; omega
  · refine Fin.ext ?_
    show win1_5.index t (1 : Fin 2) * 288 + 1 * q.val = q.val
    rw [e1]; omega

/-! ## The cover, and the array after the grid -/

/-- An entry of the output array is in point t's block iff each coordinate is in the block's range on its axis. -/
theorem mem_blk1 (t : Fin cfg1.N) (i : S50000x288.Idx) :
    i ∈ ((cfg1.win 5).blk t).view.set ↔ ∀ a : Fin 2, win1_5.index t a * S2000x288.size a ≤ (i a).val
      ∧ (i a).val < win1_5.index t a * S2000x288.size a + S2000x288.size a := by
  show i ∈ ((View.whole main_v75).slice (win1_5.rect t)).set ↔ _
  rw [View.set_slice_whole, Rect.mem_set_unit]
  exact Iff.rfl

/-- Row r of the output lies in the block of point r / 2000. -/
theorem cover1 (i : S50000x288.Idx) : ∃ t : Fin cfg1.N, (cfg1.win 5).flush t = true ∧ i ∈ ((cfg1.win 5).blk t).view.set := by
  have hN : grid1.N = 25 := N_1
  have hi0 : (i 0).val < 50000 := (i 0).isLt
  have hi1 : (i 1).val < 288 := (i 1).isLt
  let t : Fin cfg1.N := ⟨(i 0).val / 2000, by show (i 0).val / 2000 < grid1.N; omega⟩
  obtain ⟨-, -, -, -, -, -, -, -, -, -, e0, e1⟩ := index1 t
  have ht : t.val = (i 0).val / 2000 := rfl
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 288 ≤ (i 1).val ∧ (i 1).val < win1_5.index t (1 : Fin 2) * 288 + 288
    rw [e1]; omega

/-- After the whole grid the output array is the specification's function of the arrays the call was entered with. -/
theorem final1_5 (c : Dev nD) :
    (dat1 (F := Ideal) V c).arrAt 5 cfg1.N
      = Spec.bnrelu (V c main_v70 : S50000x288.Idx → EReal) (V c main_v71 : S1x288.Idx → EReal) (V c main_v72 : S1x288.Idx → EReal)
          (V c main_v73 : S1x288.Idx → EReal) (V c main_v74 : S1x288.Idx → EReal) :=
  (dat1 (F := Ideal) V c).arrAt_eq_of_cover 5 (bnrelu1 V c) (fun t _ => flushed1_eq V c t) cover1

end Cert.KernelIdeal.Hand

end
-- ==== Proof.KI.Val2.lean ====
/-
  The third call's three outputs as whole arrays: the second layer's three linear maps.

  As for the first layer with 288 input features and 64 outputs per map: entry (p, q) of the body's payload for map j is
  the sum over k of the row block's (p, k) times the weight slab's (k, q), plus the bias row's q (the row block is first
  cast to its own shape, which changes nothing). A grid point's write-back is the point's row block of the layer's
  function of the arrays the call was entered with; the 25 row blocks tile the 50000 rows; so after the grid each output
  array is that function.
-/
import proofs.«130113_j6828998001548_2_alg».proof.Proof.KI.Reg2
import proofs.«130113_j6828998001548_2_alg».proof.Proof.Spec
import proofs.«130113_j6828998001548_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The payload at an entry -/

/-- Entry (p, q) of the first map's payload: row p of the block against column q of the weight slab, plus the bias. -/
theorem pay2_apply (x0 : Vec Ideal S2000x288 .f32) (w : Vec Ideal S1x288x64 .f32) (b : Vec Ideal S1x64 .f32)
    (p : Fin 2000) (q : Fin 64) :
    k2_pay2 (F := Ideal) x0 w b (ix2 p q)
      = (∑ k : Fin 288, x0 (ix2 p k) * w (ix3 (0 : Fin 1) k q)) + b (ix2 (0 : Fin 1) q) := by
  unfold k2_pay2
  refine (addf_apply _ _ _).trans ?_
  refine congrArg₂ (· + ·) ?_ ?_
  · refine (PlainDot.matmul_zero_apply dot_S2000x288_S288x64_S2000x64_1_0_0_1_n_n rfl none _ _ (ix2 p q)).trans ?_
    refine Finset.sum_congr rfl fun k _ => ?_
    refine congrArg₂ (· * ·) (congrFun (shapeCast_self x0 _) (ix2 p k)) ?_
    exact shapeCast_1ab_ab_apply w _ k q
  · refine (broadcastTo_1b_ab_apply _ _ p q).trans ?_
    refine (shapeCast_a_1a_apply _ _ (0 : Fin 1) q).trans ?_
    exact shapeCast_1a_a_apply b _ q

/-- The second and third maps' payloads are the same operations of their own slab and row. -/
theorem pay2_apply' (x0 : Vec Ideal S2000x288 .f32) (w : Vec Ideal S1x288x64 .f32) (b : Vec Ideal S1x64 .f32)
    (p : Fin 2000) (q : Fin 64) :
    k2_pay3 (F := Ideal) x0 w b (ix2 p q)
      = (∑ k : Fin 288, x0 (ix2 p k) * w (ix3 (0 : Fin 1) k q)) + b (ix2 (0 : Fin 1) q) :=
  pay2_apply x0 w b p q
theorem pay2_apply'' (x0 : Vec Ideal S2000x288 .f32) (w : Vec Ideal S1x288x64 .f32) (b : Vec Ideal S1x64 .f32)
    (p : Fin 2000) (q : Fin 64) :
    k2_pay4 (F := Ideal) x0 w b (ix2 p q)
      = (∑ k : Fin 288, x0 (ix2 p k) * w (ix3 (0 : Fin 1) k q)) + b (ix2 (0 : Fin 1) q) :=
  pay2_apply x0 w b p q

/-! ## Loads through the body's rectangles -/

theorem zero_off2 : (![0, 0] : Fin 2 → Nat) = fun _ => 0 := funext fun a => by fin_cases a <;> rfl

/-- Slab `o` of the weight stack, loaded as a one-slab block, read at (0, k, q), is the stack at (o, k, q). -/
theorem ld_slab2 (x1 : Vec Ideal S3x288x64 .f32) (o : Fin 3) (inb) (k : Fin 288) (q : Fin 64) :
    View.ld x1 (Rect.unit (s := S3x288x64) ![o.val, 0, 0] S1x288x64.size inb) (ix3 (0 : Fin 1) k q) = x1 (ix3 o k q) := by
  refine congrArg x1 (funext fun a => Fin.ext ?_)
  match a with
  | ⟨0, _⟩ => show o.val + 1 * 0 = o.val; omega
  | ⟨1, _⟩ => show 0 + 1 * k.val = k.val; omega
  | ⟨2, _⟩ => show 0 + 1 * q.val = q.val; omega

/-- Row `o` of the bias matrix, loaded as a one-row block, read at (0, q), is the matrix at (o, q). -/
theorem ld_row2 (x2 : Vec Ideal S3x64 .f32) (o : Fin 3) (inb) (q : Fin 64) :
    View.ld x2 (Rect.unit (s := S3x64) ![o.val, 0] S1x64.size inb) (ix2 (0 : Fin 1) q) = x2 (ix2 o q) := by
  refine congrArg x2 (funext fun a => Fin.ext ?_)
  match a with
  | ⟨0, _⟩ => show o.val + 1 * 0 = o.val; omega
  | ⟨1, _⟩ => show 0 + 1 * q.val = q.val; omega

/-! ## What the body leaves in an output buffer, entry by entry -/

/-- Output buffer 0 after the body at (p, q), for any contents of the three input buffers. -/
theorem out2_3_apply (x0 : Vec Ideal S2000x288 .f32) (x1 : Vec Ideal S3x288x64 .f32) (x2 : Vec Ideal S3x64 .f32)
    (p : Fin 2000) (q : Fin 64) :
    out2_3 x0 x1 x2 (ix2 p q) = (∑ k : Fin 288, x0 (ix2 p k) * x1 (ix3 (0 : Fin 3) k q)) + x2 (ix2 (0 : Fin 3) q) := by
  unfold out2_3
  rw [View.canon_unit_zero zero_off2]
  refine (pay2_apply _ _ _ p q).trans ?_
  refine congrArg₂ (· + ·) (Finset.sum_congr rfl fun k _ => congrArg₂ (· * ·) ?_ ?_) ?_
  · exact congrFun (View.ld_unit_zero (S := S2000x288) zero_off2 _ x0) (ix2 p k)
  · exact ld_slab2 x1 0 _ k q
  · exact ld_row2 x2 0 _ q

/-- Output buffer 1 after the body at (p, q), for any contents of the three input buffers. -/
theorem out2_4_apply (x0 : Vec Ideal S2000x288 .f32) (x1 : Vec Ideal S3x288x64 .f32) (x2 : Vec Ideal S3x64 .f32)
    (p : Fin 2000) (q : Fin 64) :
    out2_4 x0 x1 x2 (ix2 p q) = (∑ k : Fin 288, x0 (ix2 p k) * x1 (ix3 (1 : Fin 3) k q)) + x2 (ix2 (1 : Fin 3) q) := by
  unfold out2_4
  rw [View.canon_unit_zero zero_off2]
  refine (pay2_apply' _ _ _ p q).trans ?_
  refine congrArg₂ (· + ·) (Finset.sum_congr rfl fun k _ => congrArg₂ (· * ·) ?_ ?_) ?_
  · exact congrFun (View.ld_unit_zero (S := S2000x288) zero_off2 _ x0) (ix2 p k)
  · exact ld_slab2 x1 1 _ k q
  · exact ld_row2 x2 1 _ q

/-- Output buffer 2 after the body at (p, q), for any contents of the three input buffers. -/
theorem out2_5_apply (x0 : Vec Ideal S2000x288 .f32) (x1 : Vec Ideal S3x288x64 .f32) (x2 : Vec Ideal S3x64 .f32)
    (p : Fin 2000) (q : Fin 64) :
    out2_5 x0 x1 x2 (ix2 p q) = (∑ k : Fin 288, x0 (ix2 p k) * x1 (ix3 (2 : Fin 3) k q)) + x2 (ix2 (2 : Fin 3) q) := by
  unfold out2_5
  rw [View.canon_unit_zero zero_off2]
  refine (pay2_apply'' _ _ _ p q).trans ?_
  refine congrArg₂ (· + ·) (Finset.sum_congr rfl fun k _ => congrArg₂ (· * ·) ?_ ?_) ?_
  · exact congrFun (View.ld_unit_zero (S := S2000x288) zero_off2 _ x0) (ix2 p k)
  · exact ld_slab2 x1 2 _ k q
  · exact ld_row2 x2 2 _ q

/-! ## The input blocks as parts of the arrays -/

variable (V : (c : Dev nD) → (b : Ref sig .tc) → Buf (Elt Ideal) ((c : Thread nD τ).loc b))

/-- The printed index maps over the grid: the row block and the three outputs sit at block row `t`, column block 0;
    the weight stack and the bias matrix are their own single block. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The row block at point `t` is rows 2000 t … 2000 t + 1999 of the input array. -/
theorem iblk2_0_apply (c : Dev nD) (t : Fin cfg2.N) (x : S2000x288.Idx) (k : S50000x288.Idx)
    (hk0 : (k 0).val = t.val * 2000 + (x 0).val) (hk1 : (k 1).val = (x 1).val) :
    (iblk2 V c 0 t : Vec Ideal S2000x288 .f32) x = (V c main_v75 : S50000x288.Idx → EReal) k := by
  obtain ⟨e0, e1, -⟩ := idx_facts2 t
  show (V c main_v75 : S50000x288.Idx → EReal) (((cfg2.win 0).blk t).view.emb x) = _
  refine congrArg _ (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 288 + 1 * (x 1).val = (k 1).val; rw [e1, hk1]; omega

/-- The weight window's block at any point is the whole weight stack. -/
theorem iblk2_1_apply (c : Dev nD) (t : Fin cfg2.N) (x k : S3x288x64.Idx)
    (hk0 : (k 0).val = (x 0).val) (hk1 : (k 1).val = (x 1).val) (hk2 : (k 2).val = (x 2).val) :
    (iblk2 V c 1 t : Vec Ideal S3x288x64 .f32) x = (V c main_arg4 : S3x288x64.Idx → EReal) k := by
  obtain ⟨-, -, e0, e1, e2, -⟩ := idx_facts2 t
  show (V c main_arg4 : S3x288x64.Idx → EReal) (((cfg2.win 1).blk t).view.emb x) = _
  refine congrArg _ (funext fun a => Fin.ext ?_)
  match a with
  | ⟨0, _⟩ => show win2_1.index t (0 : Fin 3) * 3 + 1 * (x 0).val = (k 0).val; rw [e0, hk0]; omega
  | ⟨1, _⟩ => show win2_1.index t (1 : Fin 3) * 288 + 1 * (x 1).val = (k 1).val; rw [e1, hk1]; omega
  | ⟨2, _⟩ => show win2_1.index t (2 : Fin 3) * 64 + 1 * (x 2).val = (k 2).val; rw [e2, hk2]; omega

/-- The bias window's block at any point is the whole bias matrix. -/
theorem iblk2_2_apply (c : Dev nD) (t : Fin cfg2.N) (x k : S3x64.Idx)
    (hk0 : (k 0).val = (x 0).val) (hk1 : (k 1).val = (x 1).val) :
    (iblk2 V c 2 t : Vec Ideal S3x64 .f32) x = (V c main_arg5 : S3x64.Idx → EReal) k := by
  obtain ⟨-, -, -, -, -, e0, e1, -⟩ := idx_facts2 t
  show (V c main_arg5 : S3x64.Idx → EReal) (((cfg2.win 2).blk t).view.emb x) = _
  refine congrArg _ (funext fun a => Fin.ext ?_)
  match a with
  | ⟨0, _⟩ => show win2_2.index t (0 : Fin 2) * 3 + 1 * (x 0).val = (k 0).val; rw [e0, hk0]; omega
  | ⟨1, _⟩ => show win2_2.index t (1 : Fin 2) * 64 + 1 * (x 1).val = (k 1).val; rw [e1, hk1]; omega

/-! ## Output window 0: the first map -/

/-- Entry `y` of output buffer 0 after the body at point `t` is the first map of the entry arrays at row
    2000 t + y 0, column y 1. -/
theorem out2_3_blk (c : Dev nD) (t : Fin cfg2.N) (y : S2000x64.Idx) (i : S50000x64.Idx)
    (hi0 : (i 0).val = t.val * 2000 + (y 0).val) (hi1 : (i 1).val = (y 1).val) :
    out2_3 (iblk2 V c 0 t) (iblk2 V c 1 t) (iblk2 V c 2 t) y
      = Spec.lin1 0 (V c main_v75) (V c main_arg4) (V c main_arg5) i := by
  obtain ⟨p, q, rfl⟩ : ∃ (p : Fin 2000) (q : Fin 64), y = ix2 p q := ⟨y 0, y 1, eq_ix2 y⟩
  refine (out2_3_apply _ _ _ p q).trans ?_
  unfold Spec.lin1
  refine congrArg₂ (· + ·) (Finset.sum_congr rfl fun k _ => congrArg₂ (· * ·) ?_ ?_) ?_
  · exact iblk2_0_apply V c t _ _ hi0 rfl
  · exact iblk2_1_apply V c t _ _ rfl rfl hi1
  · exact iblk2_2_apply V c t _ _ rfl hi1

/-- What point `t` writes back to output window 0's array is block `t` of the first map of the entry arrays. -/
theorem flushed2_3_eq (c : Dev nD) (t : Fin cfg2.N) :
    (dat2 (F := Ideal) V c).flushed 3 t
      = ((cfg2.win 3).blk t).view.read (Elt Ideal) (Spec.lin1 0 (V c main_v75) (V c main_arg4) (V c main_arg5)) := by
  show (cfg2.win 3).cut (grid2.coords t) ((dat2 V c).after 3 t) = _
  rw [after2_3]
  obtain ⟨-, -, -, -, -, -, -, e0, e1, -⟩ := idx_facts2 t
  funext j
  refine out2_3_blk V c t _ _ ?_ ?_
  · show win2_3.index t (0 : Fin 2) * 2000 + 1 * (j 0).val = t.val * 2000 + (j 0).val; rw [e0]; omega
  · show win2_3.index t (1 : Fin 2) * 64 + 1 * (j 1).val = (j 1).val; rw [e1]; omega

/-- An entry of the array is in point `t`'s block iff each coordinate is in the block's range on its axis. -/
theorem mem_blk2_3 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v76_0).slice (win2_3.rect t)).set ↔ _
  rw [View.set_slice_whole, Rect.mem_set_unit]
  exact Iff.rfl

/-- Row r of the array lies in the block of point r / 2000. -/
theorem cover2_3 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, -, -, -, -, e0, e1, -⟩ := idx_facts2 ⟨(i 0).val / 2000, ht⟩
  refine ⟨⟨(i 0).val / 2000, ht⟩, flush2_3 _, ?_⟩
  rw [mem_blk2_3]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 64 ≤ (i 1).val
      ∧ (i 1).val < win2_3.index ⟨(i 0).val / 2000, ht⟩ (1 : Fin 2) * 64 + 64
    rw [e1]; omega

/-- After the whole grid, output window 0's array is the first map of the arrays the call was entered with. -/
theorem final2_3 (c : Dev nD) :
    (dat2 (F := Ideal) V c).arrAt 3 cfg2.N = Spec.lin1 0 (V c main_v75) (V c main_arg4) (V c main_arg5) :=
  (dat2 (F := Ideal) V c).arrAt_eq_of_cover 3 _ (fun t _ => flushed2_3_eq V c t) cover2_3

/-! ## Output window 1: the second map -/

/-- Entry `y` of output buffer 1 after the body at point `t` is the second map of the entry arrays at row
    2000 t + y 0, column y 1. -/
theorem out2_4_blk (c : Dev nD) (t : Fin cfg2.N) (y : S2000x64.Idx) (i : S50000x64.Idx)
    (hi0 : (i 0).val = t.val * 2000 + (y 0).val) (hi1 : (i 1).val = (y 1).val) :
    out2_4 (iblk2 V c 0 t) (iblk2 V c 1 t) (iblk2 V c 2 t) y
      = Spec.lin1 1 (V c main_v75) (V c main_arg4) (V c main_arg5) i := by
  obtain ⟨p, q, rfl⟩ : ∃ (p : Fin 2000) (q : Fin 64), y = ix2 p q := ⟨y 0, y 1, eq_ix2 y⟩
  refine (out2_4_apply _ _ _ p q).trans ?_
  unfold Spec.lin1
  refine congrArg₂ (· + ·) (Finset.sum_congr rfl fun k _ => congrArg₂ (· * ·) ?_ ?_) ?_
  · exact iblk2_0_apply V c t _ _ hi0 rfl
  · exact iblk2_1_apply V c t _ _ rfl rfl hi1
  · exact iblk2_2_apply V c t _ _ rfl hi1

/-- What point `t` writes back to output window 1's array is block `t` of the second map of the entry arrays. -/
theorem flushed2_4_eq (c : Dev nD) (t : Fin cfg2.N) :
    (dat2 (F := Ideal) V c).flushed 4 t
      = ((cfg2.win 4).blk t).view.read (Elt Ideal) (Spec.lin1 1 (V c main_v75) (V c main_arg4) (V c main_arg5)) := by
  show (cfg2.win 4).cut (grid2.coords t) ((dat2 V c).after 4 t) = _
  rw [after2_4]
  obtain ⟨-, -, -, -, -, -, -, -, -, e0, e1, -⟩ := idx_facts2 t
  funext j
  refine out2_4_blk V c t _ _ ?_ ?_
  · show win2_4.index t (0 : Fin 2) * 2000 + 1 * (j 0).val = t.val * 2000 + (j 0).val; rw [e0]; omega
  · show win2_4.index t (1 : Fin 2) * 64 + 1 * (j 1).val = (j 1).val; rw [e1]; omega

/-- An entry of the array is in point `t`'s block iff each coordinate is in the block's range on its axis. -/
theorem mem_blk2_4 (t : Fin cfg2.N) (i : S50000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v76_1).slice (win2_4.rect t)).set ↔ _
  rw [View.set_slice_whole, Rect.mem_set_unit]
  exact Iff.rfl

/-- Row r of the array lies in the block of point r / 2000. -/
theorem cover2_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, -, -, -, -, -, -, e0, e1, -⟩ := idx_facts2 ⟨(i 0).val / 2000, ht⟩
  refine ⟨⟨(i 0).val / 2000, ht⟩, flush2_4 _, ?_⟩
  rw [mem_blk2_4]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, ht⟩ (1 : Fin 2) * 64 ≤ (i 1).val
      ∧ (i 1).val < win2_4.index ⟨(i 0).val / 2000, ht⟩ (1 : Fin 2) * 64 + 64
    rw [e1]; omega

/-- After the whole grid, output window 1's array is the second map of the arrays the call was entered with. -/
theorem final2_4 (c : Dev nD) :
    (dat2 (F := Ideal) V c).arrAt 4 cfg2.N = Spec.lin1 1 (V c main_v75) (V c main_arg4) (V c main_arg5) :=
  (dat2 (F := Ideal) V c).arrAt_eq_of_cover 4 _ (fun t _ => flushed2_4_eq V c t) cover2_4

/-! ## Output window 2: the third map -/

/-- Entry `y` of output buffer 2 after the body at point `t` is the third map of the entry arrays at row
    2000 t + y 0, column y 1. -/
theorem out2_5_blk (c : Dev nD) (t : Fin cfg2.N) (y : S2000x64.Idx) (i : S50000x64.Idx)
    (hi0 : (i 0).val = t.val * 2000 + (y 0).val) (hi1 : (i 1).val = (y 1).val) :
    out2_5 (iblk2 V c 0 t) (iblk2 V c 1 t) (iblk2 V c 2 t) y
      = Spec.lin1 2 (V c main_v75) (V c main_arg4) (V c main_arg5) i := by
  obtain ⟨p, q, rfl⟩ : ∃ (p : Fin 2000) (q : Fin 64), y = ix2 p q := ⟨y 0, y 1, eq_ix2 y⟩
  refine (out2_5_apply _ _ _ p q).trans ?_
  unfold Spec.lin1
  refine congrArg₂ (· + ·) (Finset.sum_congr rfl fun k _ => congrArg₂ (· * ·) ?_ ?_) ?_
  · exact iblk2_0_apply V c t _ _ hi0 rfl
  · exact iblk2_1_apply V c t _ _ rfl rfl hi1
  · exact iblk2_2_apply V c t _ _ rfl hi1

/-- What point `t` writes back to output window 2's array is block `t` of the third map of the entry arrays. -/
theorem flushed2_5_eq (c : Dev nD) (t : Fin cfg2.N) :
    (dat2 (F := Ideal) V c).flushed 5 t
      = ((cfg2.win 5).blk t).view.read (Elt Ideal) (Spec.lin1 2 (V c main_v75) (V c main_arg4) (V c main_arg5)) := by
  show (cfg2.win 5).cut (grid2.coords t) ((dat2 V c).after 5 t) = _
  rw [after2_5]
  obtain ⟨-, -, -, -, -, -, -, -, -, -, -, e0, e1⟩ := idx_facts2 t
  funext j
  refine out2_5_blk V c t _ _ ?_ ?_
  · show win2_5.index t (0 : Fin 2) * 2000 + 1 * (j 0).val = t.val * 2000 + (j 0).val; rw [e0]; omega
  · show win2_5.index t (1 : Fin 2) * 64 + 1 * (j 1).val = (j 1).val; rw [e1]; omega

/-- An entry of the array is in point `t`'s block iff each coordinate is in the block's range on its axis. -/
theorem mem_blk2_5 (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v76_2).slice (win2_5.rect t)).set ↔ _
  rw [View.set_slice_whole, Rect.mem_set_unit]
  exact Iff.rfl

/-- Row r of the array lies in the block of point r / 2000. -/
theorem cover2_5 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, -, -, -, -, -, -, -, -, e0, e1⟩ := idx_facts2 ⟨(i 0).val / 2000, ht⟩
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 64 ≤ (i 1).val
      ∧ (i 1).val < win2_5.index ⟨(i 0).val / 2000, ht⟩ (1 : Fin 2) * 64 + 64
    rw [e1]; omega

/-- After the whole grid, output window 2's array is the third map of the arrays the call was entered with. -/
theorem final2_5 (c : Dev nD) :
    (dat2 (F := Ideal) V c).arrAt 5 cfg2.N = Spec.lin1 2 (V c main_v75) (V c main_arg4) (V c main_arg5) :=
  (dat2 (F := Ideal) V c).arrAt_eq_of_cover 5 _ (fun t _ => flushed2_5_eq V c t) cover2_5

end Cert.KernelIdeal.Hand

end
-- ==== Proof.KI.Val3.lean ====
/-
  The last call read as a whole: after its 25 points the output array is the specification's
  projection of the arrays the call was entered with.

  Three steps. Entry (p, q) of the body's payload is row p of the loaded block against column q of
  the loaded weight, plus the loaded bias at q. At point t the block of rows is rows 2000·t … 2000·t + 1999
  of the feature array and the other two windows hold their whole arrays, so what point t writes back is
  block t of the projection. The 25 blocks tile the 50000 rows, so the array ends as the projection.
-/
import proofs.«130113_j6828998001548_2_alg».proof.Proof.KI.Reg3
import proofs.«130113_j6828998001548_2_alg».proof.Proof.Spec
import proofs.«130113_j6828998001548_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

/-- Entry (p, q) of the body's payload: row p of the block against column q of the weight, plus the bias at q. -/
theorem pay3_apply (x0 : Vec Ideal S2000x192 .f32) (w : Vec Ideal S192x64 .f32) (b : Vec Ideal S1x64 .f32)
    (p : Fin 2000) (q : Fin 64) :
    k3_pay1 x0 w b (ix2 p q) = (∑ k : Fin 192, x0 (ix2 p k) * w (ix2 k q)) + b (ix2 (0 : Fin 1) q) := by
  unfold k3_pay1
  rw [addf_apply]
  refine congrArg₂ (· + ·) ?_ ?_
  · refine (PlainDot.matmul_zero_apply dot_S2000x192_S192x64_S2000x64_1_0_0_1_n_n rfl none _ _ (ix2 p q)).trans ?_
    refine Finset.sum_congr rfl fun k _ => ?_
    rw [truncf_apply, truncf_apply, shapeCast_self]
  · rw [shapeCast_self]
    exact broadcastTo_1b_ab_apply b _ p q

/-- The payload of a block of rows, read against whole arrays: if the loaded block is rows 2000·n … of `H` and the
    other two loads are `W` and `B`, then its entry at `y` is the projection's at the entry `i` that lies 2000·n rows
    further down. -/
theorem pay3_block (x0 : Vec Ideal S2000x192 .f32) (w : Vec Ideal S192x64 .f32) (b : Vec Ideal S1x64 .f32)
    (H : Spec.Arr ⟨2, ![50000, 192]⟩) (W : Spec.Arr ⟨2, ![192, 64]⟩) (B : Spec.Arr ⟨2, ![1, 64]⟩) (n : Nat)
    (hx : ∀ (p : Fin 2000) (k : Fin 192) (r : Fin 50000), r.val = n * 2000 + p.val → x0 (ix2 p k) = H (ix2 r k))
    (hw : w = W) (hb : b = B)
    (p : Fin 2000) (q : Fin 64) (i : (⟨2, ![50000, 64]⟩ : Shape).Idx) (h0 : (i 0).val = n * 2000 + p.val) (h1 : i 1 = q) :
    k3_pay1 x0 w b (ix2 p q) = Spec.proj H W B i := by
  rw [pay3_apply]
  subst hw hb h1
  unfold Spec.proj
  refine congrArg₂ (· + ·) (Finset.sum_congr rfl fun k _ => ?_) rfl
  rw [hx p k (i 0) h0]

/-! ## The blocks the windows hold, as parts of their arrays -/

variable (V : (c : Dev nD) → (b : Ref sig .tc) → Buf (Elt Ideal) ((c : Thread nD τ).loc b))

theorem zero_offsets3 : (![0, 0] : Fin 2 → Nat) = fun _ => 0 := funext fun a => by fin_cases a <;> rfl

/-- The block indices over the grid: the rows' window and the output's window are at block (t, 0), the weight's and
    the bias's at block (0, 0), at every point t. -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The rows' block at point t is rows 2000·t … 2000·t + 1999 of the feature array. -/
theorem iblk3_0_apply (c : Dev nD) (t : Fin cfg3.N) (p : Fin 2000) (k : Fin 192) (r : Fin 50000)
    (hr : r.val = t.val * 2000 + p.val) :
    (iblk3 V c 0 t : Vec Ideal S2000x192 .f32) (ix2 p k) = (V c main_v116 : S50000x192.Idx → EReal) (ix2 r k) := by
  obtain ⟨e0, e1, -⟩ := index3 t
  unfold iblk3
  rw [View.read_apply]
  show V c main_v116 _ = V c main_v116 _
  refine congrArg _ (funext fun a => Fin.ext ?_)
  match a with
  | ⟨0, _⟩ => show win3_0.index t (0 : Fin 2) * 2000 + 1 * p.val = r.val; rw [e0, hr]; omega
  | ⟨1, _⟩ => show win3_0.index t (1 : Fin 2) * 192 + 1 * k.val = k.val; rw [e1]; omega

/-- The weight's block at any point is the whole weight. -/
theorem iblk3_1_eq (c : Dev nD) (t : Fin cfg3.N) :
    (iblk3 V c 1 t : Vec Ideal S192x64 .f32) = (V c main_arg10 : S192x64.Idx → EReal) := by
  obtain ⟨-, -, e0, e1, -⟩ := index3 t
  unfold iblk3
  funext y
  rw [View.read_apply]
  show V c main_arg10 _ = V c main_arg10 _
  refine congrArg _ (funext fun a => Fin.ext ?_)
  match a with
  | ⟨0, _⟩ => show win3_1.index t (0 : Fin 2) * 192 + 1 * (y 0).val = (y 0).val; rw [e0]; omega
  | ⟨1, _⟩ => show win3_1.index t (1 : Fin 2) * 64 + 1 * (y 1).val = (y 1).val; rw [e1]; omega

/-- The bias's block at any point is the whole bias row. -/
theorem iblk3_2_eq (c : Dev nD) (t : Fin cfg3.N) :
    (iblk3 V c 2 t : Vec Ideal S1x64 .f32) = (V c main_v117 : S1x64.Idx → EReal) := by
  obtain ⟨-, -, -, -, e0, e1, -⟩ := index3 t
  unfold iblk3
  funext y
  rw [View.read_apply]
  show V c main_v117 _ = V c main_v117 _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

/-! ## What a point writes back -/

/-- The projection of the arrays the call is entered with. -/
abbrev proj3 (c : Dev nD) : S50000x64.Idx → EReal :=
  Spec.proj (V c main_v116 : S50000x192.Idx → EReal) (V c main_arg10 : S192x64.Idx → EReal) (V c main_v117 : S1x64.Idx → EReal)

/-- What point t writes back is block t of the projection. -/
theorem flushed3_eq (c : Dev nD) (t : Fin cfg3.N) :
    (dat3 (F := Ideal) V c).flushed 3 t = ((cfg3.win 3).blk t).view.read (Elt Ideal) (proj3 V c) := by
  show (cfg3.win 3).cut (grid3.coords t) ((dat3 V c).after 3 t) = _
  rw [after3_3]
  unfold out3_3
  rw [View.canon_unit_zero zero_offsets3]
  simp only [View.ld_unit_zero (S := S2000x192) zero_offsets3, View.ld_unit_zero (S := S192x64) zero_offsets3,
    View.ld_unit_zero (S := S1x64) zero_offsets3]
  obtain ⟨-, -, -, -, -, -, e0, e1⟩ := index3 t
  funext j
  obtain ⟨p, q, rfl⟩ : ∃ (p : Fin 2000) (q : Fin 64), j = ix2 p q := ⟨j 0, j 1, eq_ix2 j⟩
  rw [View.read_apply]
  show k3_pay1 (iblk3 V c 0 t) (iblk3 V c 1 t) (iblk3 V c 2 t) (ix2 p q) = proj3 V c (((cfg3.win 3).blk t).view.emb (ix2 p q))
  refine pay3_block _ _ _ _ _ _ t.val (fun p k r hr => iblk3_0_apply V c t p k r hr) (iblk3_1_eq V c t) (iblk3_2_eq V c t)
    p q _ ?_ ?_
  · show win3_3.index t (0 : Fin 2) * 2000 + 1 * p.val = t.val * 2000 + p.val
    rw [e0]; omega
  · refine Fin.ext ?_
    show win3_3.index t (1 : Fin 2) * 64 + 1 * q.val = q.val
    rw [e1]; omega

/-! ## The cover, and the array after the grid -/

/-- An entry of the output array is in point t's block iff each coordinate is in the block's range on its axis. -/
theorem mem_blk3 (t : Fin cfg3.N) (i : S50000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v118).slice (win3_3.rect t)).set ↔ _
  rw [View.set_slice_whole, Rect.mem_set_unit]
  exact Iff.rfl

/-- Row r of the output lies in the block of point r / 2000. -/
theorem cover3 (i : S50000x64.Idx) : ∃ t : Fin cfg3.N, (cfg3.win 3).flush t = true ∧ i ∈ ((cfg3.win 3).blk t).view.set := by
  have hN : grid3.N = 25 := N_3
  have hi0 : (i 0).val < 50000 := (i 0).isLt
  have hi1 : (i 1).val < 64 := (i 1).isLt
  let t : Fin cfg3.N := ⟨(i 0).val / 2000, by show (i 0).val / 2000 < grid3.N; omega⟩
  obtain ⟨-, -, -, -, -, -, e0, e1⟩ := index3 t
  have ht : t.val = (i 0).val / 2000 := rfl
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 64 ≤ (i 1).val ∧ (i 1).val < win3_3.index t (1 : Fin 2) * 64 + 64
    rw [e1]; omega

/-- After the whole grid the output array is the projection of the arrays the call was entered with. -/
theorem final3_3 (c : Dev nD) :
    (dat3 (F := Ideal) V c).arrAt 3 cfg3.N
      = Spec.proj (V c main_v116 : S50000x192.Idx → EReal) (V c main_arg10 : S192x64.Idx → EReal) (V c main_v117 : S1x64.Idx → EReal) :=
  (dat3 (F := Ideal) V c).arrAt_eq_of_cover 3 (proj3 V c) (fun t _ => flushed3_eq V c t) cover3

end Cert.KernelIdeal.Hand

end
-- ==== Proof.RefNorm.lean ====
/-
  The reference's normalisation stage and its last linear map, each read as the specification's function
  of the stage that feeds it.
-/
import proofs.«130113_j6828998001548_2_alg».proof.Proof.RefReadP
import proofs.«130113_j6828998001548_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefSpec

open Cert.ReferenceIdeal Cert.ReferenceIdeal.Gen Cert.ReferenceIdeal.ReadP Idealize.ShloMosaic Idealize.ShloMosaic.ValueIdx

/-! ## The last linear map -/

/-- The reference's last stage is the projection of the concatenated features by the weight argument, plus the bias
    argument laid out as one row. -/
theorem ref_proj (x0 : (⟨S50000x128, .f32⟩ : BufTy).Contents (Elt Ideal)) (x1 : (⟨S2x800000, .i32⟩ : BufTy).Contents (Elt Ideal))
    (x2 : (⟨S3x128x96, .f32⟩ : BufTy).Contents (Elt Ideal)) (x3 : (⟨S3x96, .f32⟩ : BufTy).Contents (Elt Ideal))
    (x4 : (⟨S3x288x64, .f32⟩ : BufTy).Contents (Elt Ideal)) (x5 : (⟨S3x64, .f32⟩ : BufTy).Contents (Elt Ideal))
    (x6 x7 x8 x9 : (⟨S288, .f32⟩ : BufTy).Contents (Elt Ideal)) (x10 : (⟨S192x64, .f32⟩ : BufTy).Contents (Elt Ideal))
    (x11 : (⟨S64, .f32⟩ : BufTy).Contents (Elt Ideal)) :
    val_main_v177 (F := Ideal) x0 x1 x2 x3 x4 x5 x6 x7 x8 x9 x10 x11
      = Spec.proj (val_main_v173 (F := Ideal) x0 x1 x2 x3 x4 x5 x6 x7 x8 x9) x10 (val_main_v175 (F := Ideal) x11) := by
  funext i
  rw [val_main_v177_apply, val_main_v174_apply, val_main_v176_apply]
  generalize val_main_v173 (F := Ideal) x0 x1 x2 x3 x4 x5 x6 x7 x8 x9 = H
  generalize val_main_v175 (F := Ideal) x11 = B
  have el : ∀ k : Fin 192, lidx_main_v174 i k = ix2 (i 0) k := fun k =>
    funext fun a => Fin.ext (by match a with | ⟨0, _⟩ => rfl | ⟨1, _⟩ => rfl)
  have er : ∀ k : Fin 192, ridx_main_v174 i k = ix2 k (i 1) := fun k =>
    funext fun a => Fin.ext (by match a with | ⟨0, _⟩ => rfl | ⟨1, _⟩ => rfl)
  have eb : idx_main_v176 i = ix2 (0 : Fin 1) (i 1) :=
    funext fun a => Fin.ext (by match a with | ⟨0, _⟩ => rfl | ⟨1, _⟩ => rfl)
  simp only [el, er, eb, Ideal.addf_def]
  rfl

/-! ## A vector laid out as one row -/

/-- A vector of n entries recast to one row of n entries is the vector broadcast into that row along the second axis:
    both read the vector at the entry's column. -/
theorem reshape_row {α : Type} {n : Nat} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨u, q, rfl⟩ : ∃ (u : Fin 1) (q : Fin n), j = ix2 u q := ⟨j 0, j 1, eq_ix2 j⟩
  refine (shapeCast_a_1a_apply x h u q).trans (Eq.symm ?_)
  refine broadcastInDim_apply _ h' x (ix2 u q) (ix1 q) fun a => ?_
  match a with
  | ⟨0, _⟩ =>
    show q.val = if n = 1 then 0 else q.val
    split
    · have := q.isLt; omega
    · rfl

/-- The 288-entry case, for any proofs of the two side conditions. -/
theorem reshape_row288 {α : Type} (x : S288.Idx → α) (h : S288.ShapeCasts S1x288) :
    shapeCast S1x288 x h = broadcastInDim S1x288 ![1] bcast_S288_S1x288_1 x :=
  reshape_row x h bcast_S288_S1x288_1

/-- The 64-entry case. -/
theorem reshape_row64 {α : Type} (x : S64.Idx → α) (h : S64.ShapeCasts S1x64) :
    shapeCast S1x64 x h = broadcastInDim S1x64 ![1] bcast_S64_S1x64_1 x :=
  reshape_row x h bcast_S64_S1x64_1

/-! ## The normalisation stage -/

/-- The reference's normalise-and-clamp stage is the specification's function of the concatenated features and the four
    parameter vectors laid out as rows: the reference adds ε to the variance and takes the reciprocal root on the vector
    and lays the result out as a row afterwards; entry by entry that is the same number. -/
theorem ref_bn (x0 : (⟨S50000x128, .f32⟩ : BufTy).Contents (Elt Ideal)) (x1 : (⟨S2x800000, .i32⟩ : BufTy).Contents (Elt Ideal))
    (x2 : (⟨S3x128x96, .f32⟩ : BufTy).Contents (Elt Ideal)) (x3 : (⟨S3x96, .f32⟩ : BufTy).Contents (Elt Ideal))
    (x6 x7 x8 x9 : (⟨S288, .f32⟩ : BufTy).Contents (Elt Ideal)) :
    val_main_v109 (F := Ideal) x0 x1 x2 x3 x6 x7 x8 x9
      = Spec.bnrelu (val_main_v93 (F := Ideal) x0 x1 x2 x3) (val_main_v97 (F := Ideal) x6) (val_main_v106 (F := Ideal) x7)
          (val_main_v94 (F := Ideal) x8) (broadcastInDim S1x288 ![1] bcast_S288_S1x288_1 x9) := by
  funext i
  rw [val_main_v109_apply, val_main_v108_apply, val_main_v105_apply, val_main_v99_apply, val_main_v98_apply,
    val_main_v96_apply, val_main_v95_apply, val_main_v104_apply, val_main_v103_apply, val_main_v102_apply,
    val_main_v101_apply, val_main_v100_apply, val_main_cst_15_apply, val_main_v107_apply, val_main_call1_v0_apply,
    val_main_call1_cst_apply]
  have e98 : idx_main_v98 i = ix2 (0 : Fin 1) (i 1) :=
    funext fun a => Fin.ext (by match a with | ⟨0, _⟩ => rfl | ⟨1, _⟩ => rfl)
  have e95 : idx_main_v95 i = ix2 (0 : Fin 1) (i 1) :=
    funext fun a => Fin.ext (by match a with | ⟨0, _⟩ => rfl | ⟨1, _⟩ => rfl)
  have e104 : idx_main_v104 i = ix2 (0 : Fin 1) (i 1) :=
    funext fun a => Fin.ext (by match a with | ⟨0, _⟩ => rfl | ⟨1, _⟩ => rfl)
  have e107 : idx_main_v107 i = ix2 (0 : Fin 1) (i 1) :=
    funext fun a => Fin.ext (by match a with | ⟨0, _⟩ => rfl | ⟨1, _⟩ => rfl)
  have ev : (broadcastInDim S1x288 ![1] bcast_S288_S1x288_1 x9 : S1x288.Idx → EReal) (ix2 (0 : Fin 1) (i 1))
      = x9 (idx_main_v103 (idx_main_v104 i)) := by
    rw [e104]; exact val_main_v94_apply (F := Ideal) x9 _
  rw [e98, e95, e107]
  generalize val_main_v93 (F := Ideal) x0 x1 x2 x3 = H
  generalize val_main_v97 (F := Ideal) x6 = G
  generalize val_main_v106 (F := Ideal) x7 = Be
  generalize val_main_v94 (F := Ideal) x8 = Mu
  unfold Spec.bnrelu
  rw [ev]
  rfl

end Cert.ReferenceIdeal.RefSpec

end
-- ==== Proof.KI.Layer1.lean ====
/-
  The rest of the kernel's side. The stretch of host operations between calls 0 and 1 lays the four parameter vectors of the
  normalisation out as rows; call 1 normalises and clamps; call 2 applies the second layer's three linear maps; the
  stretch after it propagates the second map once and the third twice along the edges, lays the three side by side and lays
  the last bias out as a row; call 3 is the last linear map. Every step is the reference's operation of the same place on equal
  operands, so the array the kernel program ends with is the reference's last stage, a function of the arguments alone.
-/
import proofs.«130113_j6828998001548_2_alg».proof.Proof.KI.Layer0
import proofs.«130113_j6828998001548_2_alg».proof.Proof.KI.Val1
import proofs.«130113_j6828998001548_2_alg».proof.Proof.KI.Val2
import proofs.«130113_j6828998001548_2_alg».proof.Proof.KI.Val3
import proofs.«130113_j6828998001548_2_alg».proof.Proof.RefLin
import proofs.«130113_j6828998001548_2_alg».proof.Proof.RefNorm
set_option maxRecDepth 16384

noncomputable section

namespace Cert.KernelIdeal.Hand

open Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (c : Dev nD)

open Cert.ReferenceIdeal.ReadP Cert.ReferenceIdeal.RefSpec

/-! ## Buffers that pass a stretch or a call untouched -/

/-- A buffer nothing before call 1 writes holds its launch contents when the stretch before call 1 starts. -/
theorem B4_of (b : Ref sig .tc) (h0 : b ∉ hostOps0_W) (h1 : b ∉ hostOps0_1_W) (h2 : b ∉ hostOps0_2_W)
    (h3 : b ∉ ([main_v30_0, main_v30_1, main_v30_2] : List (Ref sig .tc))) :
    B4 m c (Proc.devRef .tc b) = m ((c : Thread nD τ).loc b) :=
  (B4_keep m c b h3).trans (B3_of m c b h0 h1 h2)

/-- The stretch before call 1 leaves what it does not write. -/
theorem B5_of_B4 (b : Ref sig .tc) (h : b ∉ hostOps1_W) : B5 m c (Proc.devRef .tc b) = B4 m c (Proc.devRef .tc b) :=
  StableHlo.after_of_writes_sub hostOps1 _ hostOps1_writes h

/-- Calls 1 and 2 and the stretch before them leave what they do not write. -/
theorem B7_of_B4 (b : Ref sig .tc) (h4 : b ∉ hostOps1_W) (h5 : b ∉ ([main_v75] : List (Ref sig .tc)))
    (h6 : b ∉ ([main_v76_0, main_v76_1, main_v76_2] : List (Ref sig .tc))) :
    B7 m c (Proc.devRef .tc b) = B4 m c (Proc.devRef .tc b) :=
  (B7_keep m c b h6).trans ((B6_keep m c b h5).trans (B5_of_B4 m c b h4))

/-- The stretch before call 3 leaves what it does not write. -/
theorem B8_of_B7 (b : Ref sig .tc) (h : b ∉ hostOps3_W) : B8 m c (Proc.devRef .tc b) = B7 m c (Proc.devRef .tc b) :=
  StableHlo.after_of_writes_sub hostOps3 _ hostOps3_writes h

/-! ## The parameter rows of the normalisation -/

/-- The scale, laid out as a row. -/
theorem B5_v71 : B5 m c (Proc.devRef .tc main_v71) = val_main_v97 (F := Ideal) (m ((c : Thread nD τ).loc main_arg6)) := by
  have h := B4_of m c main_arg6 (by decide) (by decide) (by decide) (by decide)
  show StableHlo.after hostOps1 (B4 m c) (Proc.devRef .tc main_v71) = _
  generalize B4 m c = W at h ⊢
  host_read
  rw [h]
  exact reshape_row288 _ _

/-- The shift, laid out as a row. -/
theorem B5_v72 : B5 m c (Proc.devRef .tc main_v72) = val_main_v106 (F := Ideal) (m ((c : Thread nD τ).loc main_arg7)) := by
  have h := B4_of m c main_arg7 (by decide) (by decide) (by decide) (by decide)
  show StableHlo.after hostOps1 (B4 m c) (Proc.devRef .tc main_v72) = _
  generalize B4 m c = W at h ⊢
  host_read
  rw [h]
  exact reshape_row288 _ _

/-- The mean, laid out as a row. -/
theorem B5_v73 : B5 m c (Proc.devRef .tc main_v73) = val_main_v94 (F := Ideal) (m ((c : Thread nD τ).loc main_arg8)) := by
  have h := B4_of m c main_arg8 (by decide) (by decide) (by decide) (by decide)
  show StableHlo.after hostOps1 (B4 m c) (Proc.devRef .tc main_v73) = _
  generalize B4 m c = W at h ⊢
  host_read
  rw [h]
  exact reshape_row288 _ _

/-- The variance, laid out as a row. -/
theorem B5_v74 : B5 m c (Proc.devRef .tc main_v74)
    = broadcastInDim Cert.ReferenceIdeal.S1x288 ![1] Cert.ReferenceIdeal.Gen.bcast_S288_S1x288_1 (m ((c : Thread nD τ).loc main_arg9)) := by
  have h := B4_of m c main_arg9 (by decide) (by decide) (by decide) (by decide)
  show StableHlo.after hostOps1 (B4 m c) (Proc.devRef .tc main_v74) = _
  generalize B4 m c = W at h ⊢
  host_read
  rw [h]
  exact reshape_row288 _ _

/-! ## What call 1 leaves -/

/-- The normalised and clamped features: the reference's stage of that place. -/
theorem B6_v75 : B6 m c (Proc.devRef .tc main_v75)
    = val_main_v109 (F := Ideal) (m ((c : Thread nD τ).loc main_arg0)) (m ((c : Thread nD τ).loc main_arg1))
        (m ((c : Thread nD τ).loc main_arg2)) (m ((c : Thread nD τ).loc main_arg3)) (m ((c : Thread nD τ).loc main_arg6))
        (m ((c : Thread nD τ).loc main_arg7)) (m ((c : Thread nD τ).loc main_arg8)) (m ((c : Thread nD τ).loc main_arg9)) := by
  refine (B6_arr m c 5).trans ((final1_5 (T5 m) c).trans ?_)
  rw [show T5 m c main_v70 = _ from B5_v70 m c, show T5 m c main_v71 = _ from B5_v71 m c,
    show T5 m c main_v72 = _ from B5_v72 m c, show T5 m c main_v73 = _ from B5_v73 m c,
    show T5 m c main_v74 = _ from B5_v74 m c]
  exact (ref_bn _ _ _ _ _ _ _ _).symm

/-! ## What call 2 leaves -/

/-- A buffer nothing before call 2 writes holds its launch contents when call 2 is entered. -/
theorem B6_of (b : Ref sig .tc) (h0 : b ∉ hostOps0_W) (h1 : b ∉ hostOps0_1_W) (h2 : b ∉ hostOps0_2_W)
    (h3 : b ∉ ([main_v30_0, main_v30_1, main_v30_2] : List (Ref sig .tc))) (h4 : b ∉ hostOps1_W)
    (h5 : b ∉ ([main_v75] : List (Ref sig .tc))) :
    B6 m c (Proc.devRef .tc b) = m ((c : Thread nD τ).loc b) :=
  (B6_keep m c b h5).trans ((B5_of_B4 m c b h4).trans (B4_of m c b h0 h1 h2 h3))

/-- Map 0 of the second layer. -/
theorem B7_v76_0 : B7 m c (Proc.devRef .tc main_v76_0)
    = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (B7_arr m c 3).trans ((final2_3 (T6 m) c).trans ?_)
  rw [show T6 m c main_v75 = _ from B6_v75 m c,
    show T6 m c main_arg4 = _ from B6_of m c main_arg4 (by decide) (by decide) (by decide) (by decide) (by decide) (by decide),
    show T6 m c main_arg5 = _ from B6_of m c main_arg5 (by decide) (by decide) (by decide) (by decide) (by decide) (by decide)]
  exact (ref_lin1_0 _ _ _ _ _ _ _ _ _ _).symm

/-- Map 1. -/
theorem B7_v76_1 : B7 m c (Proc.devRef .tc main_v76_1)
    = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (B7_arr m c 4).trans ((final2_4 (T6 m) c).trans ?_)
  rw [show T6 m c main_v75 = _ from B6_v75 m c,
    show T6 m c main_arg4 = _ from B6_of m c main_arg4 (by decide) (by decide) (by decide) (by decide) (by decide) (by decide),
    show T6 m c main_arg5 = _ from B6_of m c main_arg5 (by decide) (by decide) (by decide) (by decide) (by decide) (by decide)]
  exact (ref_lin1_1 _ _ _ _ _ _ _ _ _ _).symm

/-- Map 2. -/
theorem B7_v76_2 : B7 m c (Proc.devRef .tc main_v76_2)
    = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (B7_arr m c 5).trans ((final2_5 (T6 m) c).trans ?_)
  rw [show T6 m c main_v75 = _ from B6_v75 m c,
    show T6 m c main_arg4 = _ from B6_of m c main_arg4 (by decide) (by decide) (by decide) (by decide) (by decide) (by decide),
    show T6 m c main_arg5 = _ from B6_of m c main_arg5 (by decide) (by decide) (by decide) (by decide) (by decide) (by decide)]
  exact (ref_lin1_2 _ _ _ _ _ _ _ _ _ _).symm

/-- The edge data pass the stretch before call 1 and calls 1 and 2 untouched. -/
theorem B7_v5 : B7 m c (Proc.devRef .tc main_v5) = val_main_v5 (F := Ideal) (m ((c : Thread nD τ).loc main_arg1)) :=
  (B7_of_B4 m c main_v5 (by decide) (by decide) (by decide)).trans (B4_v5 m c)
theorem B7_v6 : B7 m c (Proc.devRef .tc main_v6) = val_main_v6 (F := Ideal) (m ((c : Thread nD τ).loc main_arg1)) :=
  (B7_of_B4 m c main_v6 (by decide) (by decide) (by decide)).trans (B4_v6 m c)
theorem B7_v29 : B7 m c (Proc.devRef .tc main_v29) = val_main_v29 (F := Ideal) (m ((c : Thread nD τ).loc main_arg1)) :=
  (B7_of_B4 m c main_v29 (by decide) (by decide) (by decide)).trans (B4_v29 m c)

/-! ## The stretch between calls 2 and 3 -/

set_option maxRecDepth 200000 in
/-- The three propagated maps of the second layer side by side: what call 3 is entered with is the reference's
    concatenation stage. -/
theorem B8_v116 : B8 m c (Proc.devRef .tc main_v116)
    = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (B7 m c) (Proc.devRef .tc main_v116) = _
  simp (disch := decide) only [after_cons, after_nil, reshape_result_ne']
  refine (nary3_result_fn (x := main_v76_0) (a := main_v89) (b := main_v115) (y := main_v116)
    (g := fun p q r => concatenate S50000x192 1 [⟨S50000x64, p⟩, ⟨S50000x64, q⟩, ⟨S50000x64, r⟩] concatenates_S50000x64_S50000x64_S50000x64_S50000x192_d1) _ _ _).trans ?_
  have key : ∀ (p q r : (⟨S50000x64, .f32⟩ : BufTy).Contents (Elt Ideal)),
      p = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) →
      q = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) →
      r = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) →
      concatenate S50000x192 1 [⟨S50000x64, p⟩, ⟨S50000x64, q⟩, ⟨S50000x64, r⟩] concatenates_S50000x64_S50000x64_S50000x64_S50000x192_d1
        = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    intro p q r hp hq hr; subst hp hq hr; rfl
  refine key _ _ _ ?_ ?_ ?_
  · host_read
    exact B7_v76_0 m c
  · host_read
    rw [B7_v76_1 m c, B7_v29 m c, B7_v5 m c, B7_v6 m c]
    rfl
  · host_read
    rw [B7_v76_2 m c, B7_v29 m c, B7_v5 m c, B7_v6 m c]
    rfl

/-- The last bias, laid out as a row. -/
theorem B8_v117 : B8 m c (Proc.devRef .tc main_v117) = val_main_v175 (F := Ideal) (m ((c : Thread nD τ).loc main_arg11)) := by
  have h : B7 m c (Proc.devRef .tc main_arg11) = m ((c : Thread nD τ).loc main_arg11) :=
    (B7_of_B4 m c main_arg11 (by decide) (by decide) (by decide)).trans
      (B4_of m c main_arg11 (by decide) (by decide) (by decide) (by decide))
  show StableHlo.after hostOps3 (B7 m c) (Proc.devRef .tc main_v117) = _
  generalize B7 m c = W at h ⊢
  host_read
  rw [h]
  exact reshape_row64 _ _

/-! ## What call 3 leaves -/

/-- The array the kernel program ends with is the reference's last stage. -/
theorem kernel_value : B9 m c (Proc.devRef .tc main_v118)
    = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (B9_arr m c 3).trans ((final3_3 (T8 m) c).trans ?_)
  rw [show T8 m c main_v116 = _ from B8_v116 m c, show T8 m c main_v117 = _ from B8_v117 m c,
    show T8 m c main_arg10 = m ((c : Thread nD τ).loc main_arg10) from
      (B8_of_B7 m c main_arg10 (by decide)).trans ((B7_of_B4 m c main_arg10 (by decide) (by decide) (by decide)).trans
        (B4_of m c main_arg10 (by decide) (by decide) (by decide) (by decide)))]
  exact (ref_proj _ _ _ _ _ _ _ _ _ _ _ _).symm

end Cert.KernelIdeal.Hand

end
-- ==== Proof.Algebraic.lean ====
/-
  The two idealized programs end with equal results.

  The kernel program's result buffer ends at the last call's output array, and step by step — three linear maps, two
  propagations along the edges, normalisation and clamp, three linear maps, two propagations, the last linear map —
  that array is the same function of the arguments as the reference's last stage. The reference's run ends with its
  result buffer at that stage. Memories that agree on the arguments therefore give equal results; both runs leave the
  arguments as launched.
-/
import proofs.«130113_j6828998001548_2_alg».proof.Defs
import proofs.«130113_j6828998001548_2_alg».proof.Proof.Gen.Pre_finite_inputs
import proofs.«130113_j6828998001548_2_alg».proof.Proof.KI.Layer1
import proofs.«130113_j6828998001548_2_alg».proof.Proof.RefRunH

set_option maxRecDepth 16384

noncomputable section

namespace Cert.Proof.Alg

open Idealize.ShloMosaic Idealize.ShloMosaic.TcCoe Idealize.SL.Sem

/-- The kernel program's run at the exact values: the result buffer at the last call's output array, the arguments kept. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v118) = Cert.KernelIdeal.Hand.B9 m c (Proc.devRef .tc Cert.KernelIdeal.main_v118)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun r h c => ⟨h c _ (Cert.KernelIdeal.Hand.mem_uc Cert.KernelIdeal.main_v118 (by decide)),
    Cert.KernelIdeal.Hand.arg_kept m c r.2 (h c) Cert.KernelIdeal.main_arg0 (by decide) (by decide) (by decide) (by decide) (by decide) (by decide) (by decide) (by decide) (by decide) (by decide),
    Cert.KernelIdeal.Hand.arg_kept m c r.2 (h c) Cert.KernelIdeal.main_arg1 (by decide) (by decide) (by decide) (by decide) (by decide) (by decide) (by decide) (by decide) (by decide) (by decide),
    Cert.KernelIdeal.Hand.arg_kept m c r.2 (h c) Cert.KernelIdeal.main_arg2 (by decide) (by decide) (by decide) (by decide) (by decide) (by decide) (by decide) (by decide) (by decide) (by decide),
    Cert.KernelIdeal.Hand.arg_kept m c r.2 (h c) Cert.KernelIdeal.main_arg3 (by decide) (by decide) (by decide) (by decide) (by decide) (by decide) (by decide) (by decide) (by decide) (by decide),
    Cert.KernelIdeal.Hand.arg_kept m c r.2 (h c) Cert.KernelIdeal.main_arg4 (by decide) (by decide) (by decide) (by decide) (by decide) (by decide) (by decide) (by decide) (by decide) (by decide),
    Cert.KernelIdeal.Hand.arg_kept m c r.2 (h c) Cert.KernelIdeal.main_arg5 (by decide) (by decide) (by decide) (by decide) (by decide) (by decide) (by decide) (by decide) (by decide) (by decide),
    Cert.KernelIdeal.Hand.arg_kept m c r.2 (h c) Cert.KernelIdeal.main_arg6 (by decide) (by decide) (by decide) (by decide) (by decide) (by decide) (by decide) (by decide) (by decide) (by decide),
    Cert.KernelIdeal.Hand.arg_kept m c r.2 (h c) Cert.KernelIdeal.main_arg7 (by decide) (by decide) (by decide) (by decide) (by decide) (by decide) (by decide) (by decide) (by decide) (by decide),
    Cert.KernelIdeal.Hand.arg_kept m c r.2 (h c) Cert.KernelIdeal.main_arg8 (by decide) (by decide) (by decide) (by decide) (by decide) (by decide) (by decide) (by decide) (by decide) (by decide),
    Cert.KernelIdeal.Hand.arg_kept m c r.2 (h c) Cert.KernelIdeal.main_arg9 (by decide) (by decide) (by decide) (by decide) (by decide) (by decide) (by decide) (by decide) (by decide) (by decide),
    Cert.KernelIdeal.Hand.arg_kept m c r.2 (h c) Cert.KernelIdeal.main_arg10 (by decide) (by decide) (by decide) (by decide) (by decide) (by decide) (by decide) (by decide) (by decide) (by decide),
    Cert.KernelIdeal.Hand.arg_kept m c r.2 (h c) Cert.KernelIdeal.main_arg11 (by decide) (by decide) (by decide) (by decide) (by decide) (by decide) (by decide) (by decide) (by decide) (by decide)⟩)
    (Cert.KernelIdeal.Hand.run_all m ρ)

theorem algebraic : Cert.algebraic_KernelIdeal_ReferenceIdeal := by
  intro m ρ m' ρ' _ hagree
  refine ⟨fun c => Cert.KernelIdeal.Hand.B9 m c (Proc.devRef .tc Cert.KernelIdeal.main_v118), kernel_run m ρ, ?_⟩
  refine (θ_run Cert.ReferenceIdeal.defs _ _).mono (fun r h c => ⟨(h c).1.trans ?_, (h c).2⟩) (Cert.ReferenceIdeal.RunH.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Hand.kernel_value m c).symm

end Cert.Proof.Alg

end
-- ==== Proof.lean ====
/-
  The certificate: the three frames, the (empty) list of sanctioned rewrites, and the equality of the two idealized
  programs' results.

  Kernel and KernelIdeal are one text, a program of four pallas calls among stretches of host operations; its frame —
  every fair execution ends, nothing faults, the arguments end as launched — is proved once at any float instance
  (Proof/KI/Chain.lean and, with the namespace changed, Proof/KB/Chain.lean) from the launch library's theorem for
  several regions. The reference's frame is its run with the result dropped. No operation of the kernel was rewritten
  by the idealization, so nothing is to preserve. The equality of the results is Proof/Algebraic.lean.
-/
import proofs.«130113_j6828998001548_2_alg».proof.Defs
import proofs.«130113_j6828998001548_2_alg».proof.Proof.Gen.Kernel
import proofs.«130113_j6828998001548_2_alg».proof.Proof.Gen.KernelIdeal
import proofs.«130113_j6828998001548_2_alg».proof.Proof.Gen.ReferenceIdeal
import proofs.«130113_j6828998001548_2_alg».proof.Proof.Gen.Pre_finite_inputs
import proofs.«130113_j6828998001548_2_alg».proof.Proof.KB.Chain
import proofs.«130113_j6828998001548_2_alg».proof.Proof.KI.Chain
import proofs.«130113_j6828998001548_2_alg».proof.Proof.RefRunH
import proofs.«130113_j6828998001548_2_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.RunH.run m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Alg.algebraic⟩

end Cert.Proof

end
